-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v32)) (v2 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_v77) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v125) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S400000x128 : Shape := ⟨2, ![400000, 128]⟩
abbrev S256x128 : Shape := ⟨2, ![256, 128]⟩
abbrev S400000x2 : Shape := ⟨2, ![400000, 2]⟩
abbrev S50000 : Shape := ⟨1, ![50000]⟩
abbrev S512x128 : Shape := ⟨2, ![512, 128]⟩
abbrev S128 : Shape := ⟨1, ![128]⟩
abbrev S128x128 : Shape := ⟨2, ![128, 128]⟩
abbrev S384x128 : Shape := ⟨2, ![384, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S400000x128 : S_.BroadcastsInDim S400000x128 (![] : Fin 0 → Fin S400000x128.rank)
  reducesTo_S400000x128_S_d0_1 : S400000x128.ReducesTo [0, 1] S_
  bcast_S_S256x128 : S_.BroadcastsInDim S256x128 (![] : Fin 0 → Fin S256x128.rank)
  reducesTo_S256x128_S_d0_1 : S256x128.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_

variable [Facts]

def fn_part6 {F : FTy → Type} [FloatOps F] (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  main_v103

def fn_part5 {F : FTy → Type} [FloatOps F] (main_arg20 : FVec F S128x128 .f32) (main_arg21 : FVec F S128 .f32) (main_arg22 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg20
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_v98 main_v101 main_c_39

def fn_part4 {F : FTy → Type} [FloatOps F] (main_arg16 : FVec F S128 .f32) (main_arg17 : FVec F S384x128 .f32) (main_arg18 : FVec F S128 .f32) (main_arg19 : FVec F S128 .f32) (main_arg20 : FVec F S128x128 .f32) (main_arg21 : FVec F S128 .f32) (main_arg22 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S384x128 .f32 := Host.absf main_arg17
  let main_cst_28 : FVec F S_ .f32 := constant S_ .f32 0x7F800000#32
  let main_v75 : FVec F S384x128 .f32 := broadcastInDim S384x128 ![] bcast_S_S384x128 main_cst_28
  let main_v76 : IVec S384x128 1 := cmpf .olt main_v74 main_v75
  let main_c_29 : IVec S_ 1 := constantI S_ 1 1#1
  let main_v77 : IVec S_ 1 := (fun x v => Host.reduce IntOp.andi x v reducesTo_S384x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S128 .f32) (main_arg14 : FVec F S128x128 .f32) (main_arg15 : FVec F S128 .f32) (main_arg16 : FVec F S128 .f32) (main_arg17 : FVec F S384x128 .f32) (main_arg18 : FVec F S128 .f32) (main_arg19 : FVec F S128 .f32) (main_arg20 : FVec F S128x128 .f32) (main_arg21 : FVec F S128 .f32) (main_arg22 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_v63 main_v67

def fn_part2 {F : FTy → Type} [FloatOps F] (main_arg9 : FVec F S128 .f32) (main_arg10 : FVec F S128 .f32) (main_arg11 : FVec F S384x128 .f32) (main_arg12 : FVec F S128 .f32) (main_arg13 : FVec F S128 .f32) (main_arg14 : FVec F S128x128 .f32) (main_arg15 : FVec F S128 .f32) (main_arg16 : FVec F S128 .f32) (main_arg17 : FVec F S384x128 .f32) (main_arg18 : FVec F S128 .f32) (main_arg19 : FVec F S128 .f32) (main_arg20 : FVec F S128x128 .f32) (main_arg21 : FVec F S128 .f32) (main_arg22 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S384x128 .f32 := Host.absf main_arg11
  let main_cst_16 : FVec F S_ .f32 := constant S_ .f32 0x7F800000#32
  let main_v45 : FVec F S384x128 .f32 := broadcastInDim S384x128 ![] bcast_S_S384x128 main_cst_16
  let main_v46 : IVec S384x128 1 := cmpf .olt main_v44 main_v45
  let main_c_17 : IVec S_ 1 := constantI S_ 1 1#1
  let main_v47 : IVec S_ 1 := (fun x v => Host.reduce IntOp.andi x v reducesTo_S384x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S128 .f32) (main_arg7 : FVec F S128 .f32) (main_arg8 : FVec F S128x128 .f32) (main_arg9 : FVec F S128 .f32) (main_arg10 : FVec F S128 .f32) (main_arg11 : FVec F S384x128 .f32) (main_arg12 : FVec F S128 .f32) (main_arg13 : FVec F S128 .f32) (main_arg14 : FVec F S128x128 .f32) (main_arg15 : FVec F S128 .f32) (main_arg16 : FVec F S128 .f32) (main_arg17 : FVec F S384x128 .f32) (main_arg18 : FVec F S128 .f32) (main_arg19 : FVec F S128 .f32) (main_arg20 : FVec F S128x128 .f32) (main_arg21 : FVec F S128 .f32) (main_arg22 : FVec F S128 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S50000x128 .f32) (main_arg1 : FVec F S400000x128 .f32) (main_arg2 : FVec F S256x128 .f32) (main_arg3 : IVec S400000x2 32) (main_arg4 : IVec S50000 32) (main_arg5 : FVec F S512x128 .f32) (main_arg6 : FVec F S128 .f32) (main_arg7 : FVec F S128 .f32) (main_arg8 : FVec F S128x128 .f32) (main_arg9 : FVec F S128 .f32) (main_arg10 : FVec F S128 .f32) (main_arg11 : FVec F S384x128 .f32) (main_arg12 : FVec F S128 .f32) (main_arg13 : FVec F S128 .f32) (main_arg14 : FVec F S128x128 .f32) (main_arg15 : FVec F S128 .f32) (main_arg16 : FVec F S128 .f32) (main_arg17 : FVec F S384x128 .f32) (main_arg18 : FVec F S128 .f32) (main_arg19 : FVec F S128 .f32) (main_arg20 : FVec F S128x128 .f32) (main_arg21 : FVec F S128 .f32) (main_arg22 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S400000x128 .f32 := Host.absf main_arg1
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S512x128 .f32 := Host.absf main_arg5
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x128 : Shape := ⟨2, ![50000, 128]⟩
abbrev S400000x128 : Shape := ⟨2, ![400000, 128]⟩
abbrev S256x128 : Shape := ⟨2, ![256, 128]⟩
abbrev S400000x2 : Shape := ⟨2, ![400000, 2]⟩
abbrev S50000 : Shape := ⟨1, ![50000]⟩
abbrev S512x128 : Shape := ⟨2, ![512, 128]⟩
abbrev S128 : Shape := ⟨1, ![128]⟩
abbrev S128x128 : Shape := ⟨2, ![128, 128]⟩
abbrev S384x128 : Shape := ⟨2, ![384, 128]⟩
abbrev S400000x1 : Shape := ⟨2, ![400000, 1]⟩
abbrev S400000 : Shape := ⟨1, ![400000]⟩
abbrev S_ : Shape := ⟨0, ![]⟩
abbrev S3200x128 : Shape := ⟨2, ![3200, 128]⟩
abbrev S1x128 : Shape := ⟨2, ![1, 128]⟩
abbrev S50000x1 : Shape := ⟨2, ![50000, 1]⟩
abbrev S2000x128 : Shape := ⟨2, ![2000, 128]⟩
abbrev S256 : Shape := ⟨1, ![256]⟩
abbrev S256x1 : Shape := ⟨2, ![256, 1]⟩

abbrev nBuf : Space → Nat
  | .hbm => 123
  | .vmem => 40
  | .smem => 0
  | _ => 0

abbrev bufTy : (tb : Table) → Fin (tcTables nBuf tb) → BufTy
  | .hbm, ⟨0, _⟩ => ⟨S50000x128, .f32⟩
  | .hbm, ⟨1, _⟩ => ⟨S400000x128, .f32⟩
  | .hbm, ⟨2, _⟩ => ⟨S256x128, .f32⟩
  | .hbm, ⟨3, _⟩ => ⟨S400000x2, .i32⟩
  | .hbm, ⟨4, _⟩ => ⟨S50000, .i32⟩
  | .hbm, ⟨5, _⟩ => ⟨S512x128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S384x128, .f32⟩
  | .hbm, ⟨12, _⟩ => ⟨S128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128, .f32⟩
  | .hbm, ⟨17, _⟩ => ⟨S384x128, .f32⟩
  | .hbm, ⟨18, _⟩ => ⟨S128, .f32⟩
  | .hbm, ⟨19, _⟩ => ⟨S128, .f32⟩
  | .hbm, ⟨20, _⟩ => ⟨S128x128, .f32⟩
  | .hbm, ⟨21, _⟩ => ⟨S128, .f32⟩
  | .hbm, ⟨22, _⟩ => ⟨S128, .f32⟩
  | .hbm, ⟨23, _⟩ => ⟨S400000x1, .i32⟩
  | .hbm, ⟨24, _⟩ => ⟨S400000, .i32⟩
  | .hbm, ⟨25, _⟩ => ⟨S400000x1, .i32⟩
  | .hbm, ⟨26, _⟩ => ⟨S400000, .i32⟩
  | .hbm, ⟨27, _⟩ => ⟨S_, .i32⟩
  | .hbm, ⟨28, _⟩ => ⟨S400000, .i32⟩
  | .hbm, ⟨29, _⟩ => ⟨S400000, .i1⟩
  | .hbm, ⟨30, _⟩ => ⟨S_, .i32⟩
  | .hbm, ⟨31, _⟩ => ⟨S400000, .i32⟩
  | .hbm, ⟨32, _⟩ => ⟨S400000, .i32⟩
  | .hbm, ⟨33, _⟩ => ⟨S400000, .i32⟩
  | .hbm, ⟨34, _⟩ => ⟨S400000x1, .i32⟩
  | .hbm, ⟨35, _⟩ => ⟨S400000, .i32⟩
  | .hbm, ⟨36, _⟩ => ⟨S_, .i32⟩
  | .hbm, ⟨37, _⟩ => ⟨S400000, .i32⟩
  | .hbm, ⟨38, _⟩ => ⟨S400000, .i1⟩
  | .hbm, ⟨39, _⟩ => ⟨S_, .i32⟩
  | .hbm, ⟨40, _⟩ => ⟨S400000, .i32⟩
  | .hbm, ⟨41, _⟩ => ⟨S400000, .i32⟩
  | .hbm, ⟨42, _⟩ => ⟨S400000, .i32⟩
  | .hbm, ⟨43, _⟩ => ⟨S400000x1, .i32⟩
  | .hbm, ⟨44, _⟩ => ⟨S400000x128, .f32⟩
  | .hbm, ⟨45, _⟩ => ⟨S_, .i32⟩
  | .hbm, ⟨46, _⟩ => ⟨S400000, .i32⟩
  | .hbm, ⟨47, _⟩ => ⟨S400000, .i1⟩
  | .hbm, ⟨48, _⟩ => ⟨S_, .i32⟩
  | .hbm, ⟨49, _⟩ => ⟨S400000, .i32⟩
  | .hbm, ⟨50, _⟩ => ⟨S400000, .i32⟩
  | .hbm, ⟨51, _⟩ => ⟨S400000, .i32⟩
  | .hbm, ⟨52, _⟩ => ⟨S400000x1, .i32⟩
  | .hbm, ⟨53, _⟩ => ⟨S400000x128, .f32⟩
  | .hbm, ⟨54, _⟩ => ⟨S_, .i32⟩
  | .hbm, ⟨55, _⟩ => ⟨S400000, .i32⟩
  | .hbm, ⟨56, _⟩ => ⟨S400000, .i1⟩
  | .hbm, ⟨57, _⟩ => ⟨S_, .i32⟩
  | .hbm, ⟨58, _⟩ => ⟨S400000, .i32⟩
  | .hbm, ⟨59, _⟩ => ⟨S400000, .i32⟩
  | .hbm, ⟨60, _⟩ => ⟨S400000, .i32⟩
  | .hbm, ⟨61, _⟩ => ⟨S400000x1, .i32⟩
  | .hbm, ⟨62, _⟩ => ⟨S400000x128, .f32⟩
  | .hbm, ⟨63, _⟩ => ⟨S400000x128, .f32⟩
  | .hbm, ⟨64, _⟩ => ⟨S_, .f32⟩
  | .hbm, ⟨65, _⟩ => ⟨S50000x128, .f32⟩
  | .hbm, ⟨66, _⟩ => ⟨S400000x1, .i32⟩
  | .hbm, ⟨67, _⟩ => ⟨S50000x128, .f32⟩
  | .hbm, ⟨68, _⟩ => ⟨S_, .f32⟩
  | .hbm, ⟨69, _⟩ => ⟨S400000, .f32⟩
  | .hbm, ⟨70, _⟩ => ⟨S_, .f32⟩
  | .hbm, ⟨71, _⟩ => ⟨S50000, .f32⟩
  | .hbm, ⟨72, _⟩ => ⟨S400000x1, .i32⟩
  | .hbm, ⟨73, _⟩ => ⟨S50000, .f32⟩
  | .hbm, ⟨74, _⟩ => ⟨S_, .f32⟩
  | .hbm, ⟨75, _⟩ => ⟨S50000, .f32⟩
  | .hbm, ⟨76, _⟩ => ⟨S50000, .f32⟩
  | .hbm, ⟨77, _⟩ => ⟨S50000x1, .f32⟩
  | .hbm, ⟨78, _⟩ => ⟨S50000x128, .f32⟩
  | .hbm, ⟨79, _⟩ => ⟨S50000x128, .f32⟩
  | .hbm, ⟨80, _⟩ => ⟨S_, .i32⟩
  | .hbm, ⟨81, _⟩ => ⟨S50000, .i32⟩
  | .hbm, ⟨82, _⟩ => ⟨S50000, .i1⟩
  | .hbm, ⟨83, _⟩ => ⟨S_, .i32⟩
  | .hbm, ⟨84, _⟩ => ⟨S50000, .i32⟩
  | .hbm, ⟨85, _⟩ => ⟨S50000, .i32⟩
  | .hbm, ⟨86, _⟩ => ⟨S50000, .i32⟩
  | .hbm, ⟨87, _⟩ => ⟨S50000x1, .i32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S256x128, .f32⟩
  | .hbm, ⟨92, _⟩ => ⟨S50000x1, .i32⟩
  | .hbm, ⟨93, _⟩ => ⟨S256x128, .f32⟩
  | .hbm, ⟨94, _⟩ => ⟨S_, .f32⟩
  | .hbm, ⟨95, _⟩ => ⟨S50000, .f32⟩
  | .hbm, ⟨96, _⟩ => ⟨S_, .f32⟩
  | .hbm, ⟨97, _⟩ => ⟨S256, .f32⟩
  | .hbm, ⟨98, _⟩ => ⟨S50000x1, .i32⟩
  | .hbm, ⟨99, _⟩ => ⟨S256, .f32⟩
  | .hbm, ⟨100, _⟩ => ⟨S_, .f32⟩
  | .hbm, ⟨101, _⟩ => ⟨S256, .f32⟩
  | .hbm, ⟨102, _⟩ => ⟨S256, .f32⟩
  | .hbm, ⟨103, _⟩ => ⟨S256x1, .f32⟩
  | .hbm, ⟨104, _⟩ => ⟨S256x128, .f32⟩
  | .hbm, ⟨105, _⟩ => ⟨S256x128, .f32⟩
  | .hbm, ⟨106, _⟩ => ⟨S_, .f32⟩
  | .hbm, ⟨107, _⟩ => ⟨S256x128, .f32⟩
  | .hbm, ⟨108, _⟩ => ⟨S400000x1, .i32⟩
  | .hbm, ⟨109, _⟩ => ⟨S256x128, .f32⟩
  | .hbm, ⟨110, _⟩ => ⟨S_, .f32⟩
  | .hbm, ⟨111, _⟩ => ⟨S400000, .f32⟩
  | .hbm, ⟨112, _⟩ => ⟨S_, .f32⟩
  | .hbm, ⟨113, _⟩ => ⟨S256, .f32⟩
  | .hbm, ⟨114, _⟩ => ⟨S400000x1, .i32⟩
  | .hbm, ⟨115, _⟩ => ⟨S256, .f32⟩
  | .hbm, ⟨116, _⟩ => ⟨S_, .f32⟩
  | .hbm, ⟨117, _⟩ => ⟨S256, .f32⟩
  | .hbm, ⟨118, _⟩ => ⟨S256, .f32⟩
  | .hbm, ⟨119, _⟩ => ⟨S256x1, .f32⟩
  | .hbm, ⟨120, _⟩ => ⟨S256x128, .f32⟩
  | .hbm, ⟨121, _⟩ => ⟨S256x128, .f32⟩
  | .hbm, ⟨122, _⟩ => ⟨S256x128, .f32⟩
  | .local _ .vmem, ⟨0, _⟩ => ⟨S3200x128, .f32⟩
  | .local _ .vmem, ⟨1, _⟩ => ⟨S3200x128, .f32⟩
  | .local _ .vmem, ⟨2, _⟩ => ⟨S3200x128, .f32⟩
  | .local _ .vmem, ⟨3, _⟩ => ⟨S3200x128, .f32⟩
  | .local _ .vmem, ⟨4, _⟩ => ⟨S3200x128, .f32⟩
  | .local _ .vmem, ⟨5, _⟩ => ⟨S3200x128, .f32⟩
  | .local _ .vmem, ⟨6, _⟩ => ⟨S3200x128, .f32⟩
  | .local _ .vmem, ⟨7, _⟩ => ⟨S3200x128, .f32⟩
  | .local _ .vmem, ⟨8, _⟩ => ⟨S512x128, .f32⟩
  | .local _ .vmem, ⟨9, _⟩ => ⟨S128, .f32⟩
  | .local _ .vmem, ⟨10, _⟩ => ⟨S128, .f32⟩
  | .local _ .vmem, ⟨11, _⟩ => ⟨S128x128, .f32⟩
  | .local _ .vmem, ⟨12, _⟩ => ⟨S128, .f32⟩
  | .local _ .vmem, ⟨13, _⟩ => ⟨S128, .f32⟩
  | .local _ .vmem, ⟨14, _⟩ => ⟨S3200x128, .f32⟩
  | .local _ .vmem, ⟨15, _⟩ => ⟨S3200x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S384x128, .f32⟩
  | .local _ .vmem, ⟨23, _⟩ => ⟨S128, .f32⟩
  | .local _ .vmem, ⟨24, _⟩ => ⟨S128, .f32⟩
  | .local _ .vmem, ⟨25, _⟩ => ⟨S128x128, .f32⟩
  | .local _ .vmem, ⟨26, _⟩ => ⟨S128, .f32⟩
  | .local _ .vmem, ⟨27, _⟩ => ⟨S128, .f32⟩
  | .local _ .vmem, ⟨28, _⟩ => ⟨S2000x128, .f32⟩
  | .local _ .vmem, ⟨29, _⟩ => ⟨S2000x128, .f32⟩
  | .local _ .vmem, ⟨30, _⟩ => ⟨S256x128, .f32⟩
  | .local _ .vmem, ⟨31, _⟩ => ⟨S256x128, .f32⟩
  | .local _ .vmem, ⟨32, _⟩ => ⟨S256x128, .f32⟩
  | .local _ .vmem, ⟨33, _⟩ => ⟨S384x128, .f32⟩
  | .local _ .vmem, ⟨34, _⟩ => ⟨S128, .f32⟩
  | .local _ .vmem, ⟨35, _⟩ => ⟨S128, .f32⟩
  | .local _ .vmem, ⟨36, _⟩ => ⟨S128x128, .f32⟩
  | .local _ .vmem, ⟨37, _⟩ => ⟨S128, .f32⟩
  | .local _ .vmem, ⟨38, _⟩ => ⟨S128, .f32⟩
  | .local _ .vmem, ⟨39, _⟩ => ⟨S256x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c_1 : Ref sig .tc := ⟨.hbm, 36, rfl⟩
abbrev main_v11 : Ref sig .tc := ⟨.hbm, 37, rfl⟩
abbrev main_v12 : Ref sig .tc := ⟨.hbm, 38, rfl⟩
abbrev main_c_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c_3 : Ref sig .tc := ⟨.hbm, 45, rfl⟩
abbrev main_v18 : Ref sig .tc := ⟨.hbm, 46, rfl⟩
abbrev main_v19 : Ref sig .tc := ⟨.hbm, 47, rfl⟩
abbrev main_c_4 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_c_5 : Ref sig .tc := ⟨.hbm, 54, rfl⟩
abbrev main_v25 : Ref sig .tc := ⟨.hbm, 55, rfl⟩
abbrev main_v26 : Ref sig .tc := ⟨.hbm, 56, rfl⟩
abbrev main_c_6 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst_7 : Ref sig .tc := ⟨.hbm, 68, rfl⟩
abbrev main_v36 : Ref sig .tc := ⟨.hbm, 69, rfl⟩
abbrev main_cst_8 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_9 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_c_10 : Ref sig .tc := ⟨.hbm, 80, rfl⟩
abbrev main_v45 : Ref sig .tc := ⟨.hbm, 81, rfl⟩
abbrev main_v46 : Ref sig .tc := ⟨.hbm, 82, rfl⟩
abbrev main_c_11 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_12 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_13 : Ref sig .tc := ⟨.hbm, 94, rfl⟩
abbrev main_v56 : Ref sig .tc := ⟨.hbm, 95, rfl⟩
abbrev main_cst_14 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_cst_15 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_16 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_cst_17 : Ref sig .tc := ⟨.hbm, 110, rfl⟩
abbrev main_v68 : Ref sig .tc := ⟨.hbm, 111, rfl⟩
abbrev main_cst_18 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst_19 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg9_1 : Ref sig .tc := ⟨.vmem, 29, rfl⟩
abbrev cc2_stg0_0 : Ref sig .tc := ⟨.vmem, 30, rfl⟩
abbrev cc2_stg1_0 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem9_1 : DmaSem sig := 29
abbrev cc2_sem0_0 : DmaSem sig := 30
abbrev cc2_sem1_0 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3200x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S3200x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S384x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S256x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S384x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S256x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![true]

class Facts₀ : Prop where
  slices_S400000x2_S400000x1_0_0 : S400000x2.Slices ![0, 0] S400000x1
  shapeCasts_S400000x1_S400000 : S400000x1.ShapeCasts S400000
  slices_S400000x2_S400000x1_0_1 : S400000x2.Slices ![0, 1] S400000x1
  bcast_S_S400000 : S_.BroadcastsInDim S400000 (![] : Fin 0 → Fin S400000.rank)
  bcast_S400000_S400000x1_0 : S400000.BroadcastsInDim S400000x1 (![0] : Fin 1 → Fin S400000x1.rank)
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  bitsLt_bf16_f32 : FTy.bits .bf16 < FTy.bits .f32
  inb_S512x128_S128x128_0_0 : ∀ a, (![0, 0] : Fin 2 → Nat) a + S128x128.size a ≤ S512x128.size a
  h_S128x128 : 0 < S128x128.numel
  inb_S512x128_S128x128_128_0 : ∀ a, (![128, 0] : Fin 2 → Nat) a + S128x128.size a ≤ S512x128.size a
  inb_S512x128_S128x128_256_0 : ∀ a, (![256, 0] : Fin 2 → Nat) a + S128x128.size a ≤ S512x128.size a
  inb_S512x128_S128x128_384_0 : ∀ a, (![384, 0] : Fin 2 → Nat) a + S128x128.size a ≤ S512x128.size a
  inb_S128_S128_0 : ∀ a, (![0] : Fin 1 → Nat) a + S128.size a ≤ S128.size a
  h_S128 : 0 < S128.numel
  shapeCasts_S128_S1x128 : S128.ShapeCasts S1x128
  broadcasts_S1x128_S3200x128 : S1x128.Broadcasts S3200x128
  inb_S128x128_S128x128_0_0 : ∀ a, (![0, 0] : Fin 2 → Nat) a + S128x128.size a ≤ S128x128.size a
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  inb_S384x128_S128x128_0_0 : ∀ a, (![0, 0] : Fin 2 → Nat) a + S128x128.size a ≤ S384x128.size a
  shapeCasts_S2000x128_S2000x128 : S2000x128.ShapeCasts S2000x128
  inb_S384x128_S128x128_128_0 : ∀ a, (![128, 0] : Fin 2 → Nat) a + S128x128.size a ≤ S384x128.size a
  inb_S384x128_S128x128_256_0 : ∀ a, (![256, 0] : Fin 2 → Nat) a + S128x128.size a ≤ S384x128.size a
  broadcasts_S1x128_S2000x128 : S1x128.Broadcasts S2000x128
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x128_S256x128 : S1x128.Broadcasts S256x128
  gather_S50000_S400000x1_S400000_n_0_n_n_0_1_1_wf : GatherDims.WF S50000 S400000x1 S400000 [] [0] [] [0] [] 1 ![1]
  gather_S50000x128_S400000x1_S400000x128_1_0_n_n_0_1_1128_wf : GatherDims.WF S50000x128 S400000x1 S400000x128 [1] [0] [] [0] [] 1 ![1, 128]
  gather_S256x128_S400000x1_S400000x128_1_0_n_n_0_1_1128_wf : GatherDims.WF S256x128 S400000x1 S400000x128 [1] [0] [] [0] [] 1 ![1, 128]
  dot_S3200x128_S128x128_S3200x128_1_0_0_1_n_n_wf : DotDims.WF S3200x128 S128x128 S3200x128 [1] [0] [0] [1] [] []
  scatter_S50000x128_S400000x1_S400000x128_1_0_0_1_wf : ScatterDims.WF S50000x128 S400000x1 S400000x128 [1] [0] [0] 1
  scatter_S50000_S400000x1_S400000_n_0_0_1_wf : ScatterDims.WF S50000 S400000x1 S400000 [] [0] [0] 1
  gather_S256x128_S50000x1_S50000x128_1_0_n_n_0_1_1128_wf : GatherDims.WF S256x128 S50000x1 S50000x128 [1] [0] [] [0] [] 1 ![1, 128]
  dot_S2000x128_S128x128_S2000x128_1_0_0_1_n_n_wf : DotDims.WF S2000x128 S128x128 S2000x128 [1] [0] [0] [1] [] []
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  scatter_S256x128_S400000x1_S400000x128_1_0_0_1_wf : ScatterDims.WF S256x128 S400000x1 S400000x128 [1] [0] [0] 1
  scatter_S256_S400000x1_S400000_n_0_0_1_wf : ScatterDims.WF S256 S400000x1 S400000 [] [0] [0] 1
  dot_S256x128_S128x128_S256x128_1_0_0_1_n_n_wf : DotDims.WF S256x128 S128x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S400000x128.size a
  hwx0_0 : ∀ i : grid0.Coords, EltTy.bits .f32 = 32 ∨ (Rect.block (s := S400000x128) S3200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S400000x128.size a
  hwx0_1 : ∀ i : grid0.Coords, EltTy.bits .f32 = 32 ∨ (Rect.block (s := S400000x128) S3200x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x128.size a ≤ S400000x128.size a
  hwx0_2 : ∀ i : grid0.Coords, EltTy.bits .f32 = 32 ∨ (Rect.block (s := S400000x128) S3200x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3200x128.size a ≤ S400000x128.size a
  hwx0_3 : ∀ i : grid0.Coords, EltTy.bits .f32 = 32 ∨ (Rect.block (s := S400000x128) S3200x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x128.size a
  hwx0_4 : ∀ i : grid0.Coords, EltTy.bits .f32 = 32 ∨ (Rect.block (s := S512x128) S512x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S3200x128.size a ≤ S400000x128.size a
  hwx0_10 : ∀ i : grid0.Coords, EltTy.bits .f32 = 32 ∨ (Rect.block (s := S400000x128) S3200x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S384x128.size a ≤ S384x128.size a
  hwx1_3 : ∀ i : grid1.Coords, EltTy.bits .f32 = 32 ∨ (Rect.block (s := S384x128) S384x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S50000x128.size a
  hwx1_9 : ∀ i : grid1.Coords, EltTy.bits .f32 = 32 ∨ (Rect.block (s := S50000x128) S2000x128.size (cc1_transform_9 i) (hinb1_9 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S256x128.size a ≤ S256x128.size a
  hwx2_0 : ∀ i : grid2.Coords, EltTy.bits .f32 = 32 ∨ (Rect.block (s := S256x128) S256x128.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .f32 = 32 ∨ (Rect.block (s := S256x128) S256x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S384x128.size a ≤ S384x128.size a
  hwx2_3 : ∀ i : grid2.Coords, EltTy.bits .f32 = 32 ∨ (Rect.block (s := S384x128) S384x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128.size a ≤ S128.size a
  hwx2_8 : ∀ i : grid2.Coords, EltTy.bits .f32 = 32 ∨ (Rect.block (s := S128) S128.size (cc2_transform_8 i) (hinb2_8 i)).WholeWords (EltTy.packing .f32)
  hstage2_9 : ∀ j, (stage2_9 j).IsWhole
  nbuf2_9 : grid2.bufCount reads2_9 false = 1
  hreads2_9 : ∀ i i' : grid2.Coords, (∀ a, reads2_9 a = true → i a = i' a) → cc2_transform_9 i = cc2_transform_9 i'
  hinb2_9 : ∀ (i : grid2.Coords) a, (cc2_transform_9 i a + 1) * S256x128.size a ≤ S256x128.size a
  hwx2_9 : ∀ i : grid2.Coords, EltTy.bits .f32 = 32 ∨ (Rect.block (s := S256x128) S256x128.size (cc2_transform_9 i) (hinb2_9 i)).WholeWords (EltTy.packing .f32)

variable [Facts₀]

def gather_S50000_S400000x1_S400000_n_0_n_n_0_1_1 : GatherDims S50000 S400000x1 S400000 where
  offsetDims := []
  collapsedSliceDims := [0]
  operandBatchingDims := []
  startIndicesBatchingDims := []
  startIndexMap := [0]
  indexVectorDim := 1
  sliceSizes := ![1]
  wf := gather_S50000_S400000x1_S400000_n_0_n_n_0_1_1_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def gather_S256x128_S400000x1_S400000x128_1_0_n_n_0_1_1128 : GatherDims S256x128 S400000x1 S400000x128 where
  offsetDims := [1]
  collapsedSliceDims := [0]
  operandBatchingDims := []
  startIndicesBatchingDims := []
  startIndexMap := [0]
  indexVectorDim := 1
  sliceSizes := ![1, 128]
  wf := gather_S256x128_S400000x1_S400000x128_1_0_n_n_0_1_1128_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S256x128_S50000x1_S50000x128_1_0_n_n_0_1_1128 : GatherDims S256x128 S50000x1 S50000x128 where
  offsetDims := [1]
  collapsedSliceDims := [0]
  operandBatchingDims := []
  startIndicesBatchingDims := []
  startIndexMap := [0]
  indexVectorDim := 1
  sliceSizes := ![1, 128]
  wf := gather_S256x128_S50000x1_S50000x128_1_0_n_n_0_1_1128_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def scatter_S256x128_S400000x1_S400000x128_1_0_0_1 : ScatterDims S256x128 S400000x1 S400000x128 where
  updateWindowDims := [1]
  insertedWindowDims := [0]
  scatterDimsToOperandDims := [0]
  indexVectorDim := 1
  wf := scatter_S256x128_S400000x1_S400000x128_1_0_0_1_wf
def scatter_S256_S400000x1_S400000_n_0_0_1 : ScatterDims S256 S400000x1 S400000 where
  updateWindowDims := []
  insertedWindowDims := [0]
  scatterDimsToOperandDims := [0]
  indexVectorDim := 1
  wf := scatter_S256_S400000x1_S400000_n_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_v17) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S3200x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S3200x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v32) S3200x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S384x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg14) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg15) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg16) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v52) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v64) S256x128.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_v76) S256x128.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S256x128.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_arg17) S384x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg18) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg19) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg20) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg21) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg22) S128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v77) S256x128.size cc2_transform_9 reads2_9 true false 1 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S50000x128 : Shape := ⟨2, ![50000, 128]⟩
abbrev S400000x128 : Shape := ⟨2, ![400000, 128]⟩
abbrev S256x128 : Shape := ⟨2, ![256, 128]⟩
abbrev S400000x2 : Shape := ⟨2, ![400000, 2]⟩
abbrev S50000 : Shape := ⟨1, ![50000]⟩
abbrev S512x128 : Shape := ⟨2, ![512, 128]⟩
abbrev S128 : Shape := ⟨1, ![128]⟩
abbrev S128x128 : Shape := ⟨2, ![128, 128]⟩
abbrev S384x128 : Shape := ⟨2, ![384, 128]⟩
abbrev S400000x1 : Shape := ⟨2, ![400000, 1]⟩
abbrev S400000 : Shape := ⟨1, ![400000]⟩
abbrev S_ : Shape := ⟨0, ![]⟩
abbrev S400000x512 : Shape := ⟨2, ![400000, 512]⟩
abbrev S1x128 : Shape := ⟨2, ![1, 128]⟩
abbrev S50000x1 : Shape := ⟨2, ![50000, 1]⟩
abbrev S50000x384 : Shape := ⟨2, ![50000, 384]⟩
abbrev S256 : Shape := ⟨1, ![256]⟩
abbrev S256x1 : Shape := ⟨2, ![256, 1]⟩
abbrev S256x384 : Shape := ⟨2, ![256, 384]⟩

abbrev nBuf : Space → Nat
  | .hbm => 183
  | .vmem => 0
  | .smem => 0
  | _ => 0

abbrev hbmTy0_0 (i : Nat) : BufTy := match i % 128 with
  | 0 => ⟨S50000x128, .f32⟩
  | 1 => ⟨S400000x128, .f32⟩
  | 2 => ⟨S256x128, .f32⟩
  | 3 => ⟨S400000x2, .i32⟩
  | 4 => ⟨S50000, .i32⟩
  | 5 => ⟨S512x128, .f32⟩
  | 6 => ⟨S128, .f32⟩
  | 7 => ⟨S128, .f32⟩
  | 8 => ⟨S128x128, .f32⟩
  | 9 => ⟨S128, .f32⟩
  | 10 => ⟨S128, .f32⟩
  | 11 => ⟨S384x128, .f32⟩
  | 12 => ⟨S128, .f32⟩
  | 13 => ⟨S128, .f32⟩
  | 14 => ⟨S128x128, .f32⟩
  | 15 => ⟨S128, .f32⟩
  | 16 => ⟨S128, .f32⟩
  | 17 => ⟨S384x128, .f32⟩
  | 18 => ⟨S128, .f32⟩
  | 19 => ⟨S128, .f32⟩
  | 20 => ⟨S128x128, .f32⟩
  | 21 => ⟨S128, .f32⟩
  | 22 => ⟨S128, .f32⟩
  | 23 => ⟨S400000x1, .i32⟩
  | 24 => ⟨S400000, .i32⟩
  | 25 => ⟨S400000x1, .i32⟩
  | 26 => ⟨S400000, .i32⟩
  | 27 => ⟨S_, .i32⟩
  | 28 => ⟨S400000, .i32⟩
  | 29 => ⟨S400000, .i1⟩
  | 30 => ⟨S_, .i32⟩
  | 31 => ⟨S400000, .i32⟩
  | 32 => ⟨S400000, .i32⟩
  | 33 => ⟨S400000, .i32⟩
  | 34 => ⟨S400000x1, .i32⟩
  | 35 => ⟨S400000, .i32⟩
  | 36 => ⟨S_, .i32⟩
  | 37 => ⟨S400000, .i32⟩
  | 38 => ⟨S400000, .i1⟩
  | 39 => ⟨S_, .i32⟩
  | 40 => ⟨S400000, .i32⟩
  | 41 => ⟨S400000, .i32⟩
  | 42 => ⟨S400000, .i32⟩
  | 43 => ⟨S400000x1, .i32⟩
  | 44 => ⟨S400000x128, .f32⟩
  | 45 => ⟨S_, .i32⟩
  | 46 => ⟨S400000, .i32⟩
  | 47 => ⟨S400000, .i1⟩
  | 48 => ⟨S_, .i32⟩
  | 49 => ⟨S400000, .i32⟩
  | 50 => ⟨S400000, .i32⟩
  | 51 => ⟨S400000, .i32⟩
  | 52 => ⟨S400000x1, .i32⟩
  | 53 => ⟨S400000x128, .f32⟩
  | 54 => ⟨S_, .i32⟩
  | 55 => ⟨S400000, .i32⟩
  | 56 => ⟨S400000, .i1⟩
  | 57 => ⟨S_, .i32⟩
  | 58 => ⟨S400000, .i32⟩
  | 59 => ⟨S400000, .i32⟩
  | 60 => ⟨S400000, .i32⟩
  | 61 => ⟨S400000x1, .i32⟩
  | 62 => ⟨S400000x128, .f32⟩
  | 63 => ⟨S400000x512, .f32⟩
  | 64 => ⟨S400000x128, .f32⟩
  | 65 => ⟨S1x128, .f32⟩
  | 66 => ⟨S400000x128, .f32⟩
  | 67 => ⟨S400000x128, .f32⟩
  | 68 => ⟨S1x128, .f32⟩
  | 69 => ⟨S400000x128, .f32⟩
  | 70 => ⟨S400000x128, .f32⟩
  | 71 => ⟨S_, .f32⟩
  | 72 => ⟨S400000x128, .f32⟩
  | 73 => ⟨S400000x128, .f32⟩
  | 74 => ⟨S400000x128, .f32⟩
  | 75 => ⟨S1x128, .f32⟩
  | 76 => ⟨S400000x128, .f32⟩
  | 77 => ⟨S400000x128, .f32⟩
  | 78 => ⟨S1x128, .f32⟩
  | 79 => ⟨S400000x128, .f32⟩
  | 80 => ⟨S400000x128, .f32⟩
  | 81 => ⟨S_, .f32⟩
  | 82 => ⟨S400000x128, .f32⟩
  | 83 => ⟨S400000x128, .f32⟩
  | 84 => ⟨S_, .f32⟩
  | 85 => ⟨S50000x128, .f32⟩
  | 86 => ⟨S400000x1, .i32⟩
  | 87 => ⟨S50000x128, .f32⟩
  | 88 => ⟨S_, .f32⟩
  | 89 => ⟨S400000, .f32⟩
  | 90 => ⟨S_, .f32⟩
  | 91 => ⟨S50000, .f32⟩
  | 92 => ⟨S400000x1, .i32⟩
  | 93 => ⟨S50000, .f32⟩
  | 94 => ⟨S_, .f32⟩
  | 95 => ⟨S50000, .f32⟩
  | 96 => ⟨S50000, .f32⟩
  | 97 => ⟨S50000x1, .f32⟩
  | 98 => ⟨S50000x128, .f32⟩
  | 99 => ⟨S50000x128, .f32⟩
  | 100 => ⟨S_, .i32⟩
  | 101 => ⟨S50000, .i32⟩
  | 102 => ⟨S50000, .i1⟩
  | 103 => ⟨S_, .i32⟩
  | 104 => ⟨S50000, .i32⟩
  | 105 => ⟨S50000, .i32⟩
  | 106 => ⟨S50000, .i32⟩
  | 107 => ⟨S50000x1, .i32⟩
  | 108 => ⟨S50000x128, .f32⟩
  | 109 => ⟨S50000x384, .f32⟩
  | 110 => ⟨S50000x128, .f32⟩
  | 111 => ⟨S1x128, .f32⟩
  | 112 => ⟨S50000x128, .f32⟩
  | 113 => ⟨S50000x128, .f32⟩
  | 114 => ⟨S1x128, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S50000x128, .f32⟩
  | 121 => ⟨S1x128, .f32⟩
  | 122 => ⟨S50000x128, .f32⟩
  | 123 => ⟨S50000x128, .f32⟩
  | 124 => ⟨S1x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S256x128, .f32⟩
  | 4 => ⟨S50000x1, .i32⟩
  | 5 => ⟨S256x128, .f32⟩
  | 6 => ⟨S_, .f32⟩
  | 7 => ⟨S50000, .f32⟩
  | 8 => ⟨S_, .f32⟩
  | 9 => ⟨S256, .f32⟩
  | 10 => ⟨S50000x1, .i32⟩
  | 11 => ⟨S256, .f32⟩
  | 12 => ⟨S_, .f32⟩
  | 13 => ⟨S256, .f32⟩
  | 14 => ⟨S256, .f32⟩
  | 15 => ⟨S256x1, .f32⟩
  | 16 => ⟨S256x128, .f32⟩
  | 17 => ⟨S256x128, .f32⟩
  | 18 => ⟨S_, .f32⟩
  | 19 => ⟨S256x128, .f32⟩
  | 20 => ⟨S400000x1, .i32⟩
  | 21 => ⟨S256x128, .f32⟩
  | 22 => ⟨S_, .f32⟩
  | 23 => ⟨S400000, .f32⟩
  | 24 => ⟨S_, .f32⟩
  | 25 => ⟨S256, .f32⟩
  | 26 => ⟨S400000x1, .i32⟩
  | 27 => ⟨S256, .f32⟩
  | 28 => ⟨S_, .f32⟩
  | 29 => ⟨S256, .f32⟩
  | 30 => ⟨S256, .f32⟩
  | 31 => ⟨S256x1, .f32⟩
  | 32 => ⟨S256x128, .f32⟩
  | 33 => ⟨S256x128, .f32⟩
  | 34 => ⟨S256x384, .f32⟩
  | 35 => ⟨S256x128, .f32⟩
  | 36 => ⟨S1x128, .f32⟩
  | 37 => ⟨S256x128, .f32⟩
  | 38 => ⟨S256x128, .f32⟩
  | 39 => ⟨S1x128, .f32⟩
  | 40 => ⟨S256x128, .f32⟩
  | 41 => ⟨S256x128, .f32⟩
  | 42 => ⟨S_, .f32⟩
  | 43 => ⟨S256x128, .f32⟩
  | 44 => ⟨S256x128, .f32⟩
  | 45 => ⟨S256x128, .f32⟩
  | 46 => ⟨S1x128, .f32⟩
  | 47 => ⟨S256x128, .f32⟩
  | 48 => ⟨S256x128, .f32⟩
  | 49 => ⟨S1x128, .f32⟩
  | 50 => ⟨S256x128, .f32⟩
  | 51 => ⟨S256x128, .f32⟩
  | 52 => ⟨S_, .f32⟩
  | 53 => ⟨S256x128, .f32⟩
  | 54 => ⟨S256x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c_1 : Ref sig .tc := ⟨.hbm, 36, rfl⟩
abbrev main_v11 : Ref sig .tc := ⟨.hbm, 37, rfl⟩
abbrev main_v12 : Ref sig .tc := ⟨.hbm, 38, rfl⟩
abbrev main_c_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c_3 : Ref sig .tc := ⟨.hbm, 45, rfl⟩
abbrev main_v18 : Ref sig .tc := ⟨.hbm, 46, rfl⟩
abbrev main_v19 : Ref sig .tc := ⟨.hbm, 47, rfl⟩
abbrev main_c_4 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_c_5 : Ref sig .tc := ⟨.hbm, 54, rfl⟩
abbrev main_v25 : Ref sig .tc := ⟨.hbm, 55, rfl⟩
abbrev main_v26 : Ref sig .tc := ⟨.hbm, 56, rfl⟩
abbrev main_c_6 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_call0_cst : Ref sig .tc := ⟨.hbm, 71, rfl⟩
abbrev main_call0_v0 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_call1_cst : Ref sig .tc := ⟨.hbm, 81, rfl⟩
abbrev main_call1_v0 : Ref sig .tc := ⟨.hbm, 82, rfl⟩
abbrev main_v48 : Ref sig .tc := ⟨.hbm, 83, rfl⟩
abbrev main_cst : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_7 : Ref sig .tc := ⟨.hbm, 88, rfl⟩
abbrev main_v52 : Ref sig .tc := ⟨.hbm, 89, rfl⟩
abbrev main_cst_8 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_9 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_c_10 : Ref sig .tc := ⟨.hbm, 100, rfl⟩
abbrev main_v61 : Ref sig .tc := ⟨.hbm, 101, rfl⟩
abbrev main_v62 : Ref sig .tc := ⟨.hbm, 102, rfl⟩
abbrev main_c_11 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_call2_cst : Ref sig .tc := ⟨.hbm, 117, rfl⟩
abbrev main_call2_v0 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_call3_cst : Ref sig .tc := ⟨.hbm, 127, rfl⟩
abbrev main_call3_v0 : Ref sig .tc := ⟨.hbm, 128, rfl⟩
abbrev main_v84 : Ref sig .tc := ⟨.hbm, 129, rfl⟩
abbrev main_cst_12 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_cst_13 : Ref sig .tc := ⟨.hbm, 134, rfl⟩
abbrev main_v88 : Ref sig .tc := ⟨.hbm, 135, rfl⟩
abbrev main_cst_14 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_cst_15 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_cst_16 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_cst_17 : Ref sig .tc := ⟨.hbm, 150, rfl⟩
abbrev main_v100 : Ref sig .tc := ⟨.hbm, 151, rfl⟩
abbrev main_cst_18 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_cst_19 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_call4_cst : Ref sig .tc := ⟨.hbm, 170, rfl⟩
abbrev main_call4_v0 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_call5_cst : Ref sig .tc := ⟨.hbm, 180, rfl⟩
abbrev main_call5_v0 : Ref sig .tc := ⟨.hbm, 181, rfl⟩
abbrev main_v125 : Ref sig .tc := ⟨.hbm, 182, rfl⟩

abbrev nD : Nat := 1
abbrev τ : Topo := Topo.v7x

variable {F : FTy → Type} [FloatOps F]

class Facts₀ : Prop where
  slices_S400000x2_S400000x1_0_0 : S400000x2.Slices ![0, 0] S400000x1
  shapeCasts_S400000x1_S400000 : S400000x1.ShapeCasts S400000
  slices_S400000x2_S400000x1_0_1 : S400000x2.Slices ![0, 1] S400000x1
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x128_S400000x128_S400000x512_d1 : Shape.Concatenates [S400000x128, S400000x128, S400000x128, S400000x128] S400000x512 1
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x128_S50000x384_d1 : Shape.Concatenates [S50000x128, S50000x128, S50000x128] S50000x384 1
  bcast_S1x128_S50000x128_0_1 : S1x128.BroadcastsInDim S50000x128 (![0, 1] : Fin 2 → Fin S50000x128.rank)
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  concatenates_S256x128_S256x128_S256x128_S256x384_d1 : Shape.Concatenates [S256x128, S256x128, S256x128] S256x384 1
  bcast_S1x128_S256x128_0_1 : S1x128.BroadcastsInDim S256x128 (![0, 1] : Fin 2 → Fin S256x128.rank)
  gather_S50000_S400000x1_S400000_n_0_n_n_0_1_1_wf : GatherDims.WF S50000 S400000x1 S400000 [] [0] [] [0] [] 1 ![1]
  gather_S50000x128_S400000x1_S400000x128_1_0_n_n_0_1_1128_wf : GatherDims.WF S50000x128 S400000x1 S400000x128 [1] [0] [] [0] [] 1 ![1, 128]
  gather_S256x128_S400000x1_S400000x128_1_0_n_n_0_1_1128_wf : GatherDims.WF S256x128 S400000x1 S400000x128 [1] [0] [] [0] [] 1 ![1, 128]
  dot_S400000x512_S512x128_S400000x128_1_0_0_1_n_n_wf : DotDims.WF S400000x512 S512x128 S400000x128 [1] [0] [0] [1] [] []
  dot_S400000x128_S128x128_S400000x128_1_0_0_1_n_n_wf : DotDims.WF S400000x128 S128x128 S400000x128 [1] [0] [0] [1] [] []
  scatter_S50000x128_S400000x1_S400000x128_1_0_0_1_wf : ScatterDims.WF S50000x128 S400000x1 S400000x128 [1] [0] [0] 1
  scatter_S50000_S400000x1_S400000_n_0_0_1_wf : ScatterDims.WF S50000 S400000x1 S400000 [] [0] [0] 1
  gather_S256x128_S50000x1_S50000x128_1_0_n_n_0_1_1128_wf : GatherDims.WF S256x128 S50000x1 S50000x128 [1] [0] [] [0] [] 1 ![1, 128]
  dot_S50000x384_S384x128_S50000x128_1_0_0_1_n_n_wf : DotDims.WF S50000x384 S384x128 S50000x128 [1] [0] [0] [1] [] []
  dot_S50000x128_S128x128_S50000x128_1_0_0_1_n_n_wf : DotDims.WF S50000x128 S128x128 S50000x128 [1] [0] [0] [1] [] []
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  scatter_S256x128_S400000x1_S400000x128_1_0_0_1_wf : ScatterDims.WF S256x128 S400000x1 S400000x128 [1] [0] [0] 1
  scatter_S256_S400000x1_S400000_n_0_0_1_wf : ScatterDims.WF S256 S400000x1 S400000 [] [0] [0] 1
  dot_S256x384_S384x128_S256x128_1_0_0_1_n_n_wf : DotDims.WF S256x384 S384x128 S256x128 [1] [0] [0] [1] [] []
  dot_S256x128_S128x128_S256x128_1_0_0_1_n_n_wf : DotDims.WF S256x128 S128x128 S256x128 [1] [0] [0] [1] [] []

variable [Facts₀]

def gather_S50000_S400000x1_S400000_n_0_n_n_0_1_1 : GatherDims S50000 S400000x1 S400000 where
  offsetDims := []
  collapsedSliceDims := [0]
  operandBatchingDims := []
  startIndicesBatchingDims := []
  startIndexMap := [0]
  indexVectorDim := 1
  sliceSizes := ![1]
  wf := gather_S50000_S400000x1_S400000_n_0_n_n_0_1_1_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def gather_S256x128_S400000x1_S400000x128_1_0_n_n_0_1_1128 : GatherDims S256x128 S400000x1 S400000x128 where
  offsetDims := [1]
  collapsedSliceDims := [0]
  operandBatchingDims := []
  startIndicesBatchingDims := []
  startIndexMap := [0]
  indexVectorDim := 1
  sliceSizes := ![1, 128]
  wf := gather_S256x128_S400000x1_S400000x128_1_0_n_n_0_1_1128_wf
def dot_S400000x512_S512x128_S400000x128_1_0_0_1_n_n : DotDims S400000x512 S512x128 S400000x128 where
  lhsContracting := [1]
  rhsContracting := [0]
  lhsNonContracting := [0]
  rhsNonContracting := [1]
  lhsBatch := []
  rhsBatch := []
  wf := dot_S400000x512_S512x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S256x128_S50000x1_S50000x128_1_0_n_n_0_1_1128 : GatherDims S256x128 S50000x1 S50000x128 where
  offsetDims := [1]
  collapsedSliceDims := [0]
  operandBatchingDims := []
  startIndicesBatchingDims := []
  startIndexMap := [0]
  indexVectorDim := 1
  sliceSizes := ![1, 128]
  wf := gather_S256x128_S50000x1_S50000x128_1_0_n_n_0_1_1128_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def scatter_S256x128_S400000x1_S400000x128_1_0_0_1 : ScatterDims S256x128 S400000x1 S400000x128 where
  updateWindowDims := [1]
  insertedWindowDims := [0]
  scatterDimsToOperandDims := [0]
  indexVectorDim := 1
  wf := scatter_S256x128_S400000x1_S400000x128_1_0_0_1_wf
def scatter_S256_S400000x1_S400000_n_0_0_1 : ScatterDims S256 S400000x1 S400000 where
  updateWindowDims := []
  insertedWindowDims := [0]
  scatterDimsToOperandDims := [0]
  indexVectorDim := 1
  wf := scatter_S256_S400000x1_S400000_n_0_0_1_wf
def dot_S256x384_S384x128_S256x128_1_0_0_1_n_n : DotDims S256x384 S384x128 S256x128 where
  lhsContracting := [1]
  rhsContracting := [0]
  lhsNonContracting := [0]
  rhsNonContracting := [1]
  lhsBatch := []
  rhsBatch := []
  wf := dot_S256x384_S384x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

class Facts : Prop extends Facts₀ where

variable [Facts]
-- ==== Proof.KernelRun.lean ====
/-
  The idealized kernel's run with its three results NAMED.

  @main is six segments: a stretch of host operations, the edge kernel, a stretch, the node kernel, a stretch, the
  graph kernel.  The generated frame module folds the buffer contents through them: W0 (the launch memory), W1 (after the
  first stretch), W2 (after the edge kernel: its output array at what the write-backs leave, every other buffer as
  entered), W3, W4, W5 and W6 likewise.  Every weakly fair execution terminates with every unscoped buffer at W6's
  contents; read at the three result buffers this names the results, and at the arguments it gives them back unchanged.
  What W6 holds at a result buffer, as a function of the arguments, is the business of the modules that import this one.
-/
import proofs.«174078_j47974784696350_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the node, edge and graph results at the
    last boundary's contents W6 and the arguments as launched. -/
theorem run : θ_run defs (onTc (τ := τ) (main (F := F))) ⟨m, fun _ => 0, ρ⟩ (fun r => ∀ c : Dev nD,
      r.2.mem ((c.tc : Thread nD τ).loc main_v52) = W6 m ρ c (Proc.devRef .tc main_v52)
      ∧ r.2.mem ((c.tc : Thread nD τ).loc main_v32) = W6 m ρ c (Proc.devRef .tc main_v32)
      ∧ r.2.mem ((c.tc : Thread nD τ).loc main_v77) = W6 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v52 (by decide)),
       h c _ (mem_uc main_v32 (by decide)),
       h c _ (mem_uc main_v77 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c),
       (h c _ (mem_uc main_arg20 (by decide))).trans (W6_main_arg20 m ρ c),
       (h c _ (mem_uc main_arg21 (by decide))).trans (W6_main_arg21 m ρ c),
       (h c _ (mem_uc main_arg22 (by decide))).trans (W6_main_arg22 m ρ c)⟩)

end Cert.KernelIdeal.Named

end
-- ==== Proof.RowMlp.lean ====
/-
  One row of the two-layer perceptron that all three kernels of this program compute, on the extended reals.

  A row of the first layer's input is the concatenation of k = 4 (edges) or k = 3 (nodes, graphs) feature rows of
  length 128.  The kernel never forms the concatenation: it multiplies piece p by rows 128 p … 128 p + 127 of the
  weight matrix and adds the k partial products up, left to right, starting from the zero word.  The reference
  forms the concatenated row of length 128 k and takes ONE product.  The two agree because a finite sum over
  Fin (128 k) is the sum of its k consecutive runs of 128 terms — a regrouping, which on the extended reals needs
  only that addition is commutative and associative (no distributivity, so no finiteness).

  The second layer is the same on both sides.
-/
import Mathlib.Algebra.BigOperators.Fin
import Idealize.ShloMosaic.PureOps.Ideal
import Idealize.ShloMosaic.PureOps.Ideal.Laws
import Idealize.ShloMosaic.Lib.ValueIdx

noncomputable section

namespace Cert.RowMlp

open Idealize.ShloMosaic Idealize.ShloMosaic.ValueIdx

/-- The float word of +0.0, read on the extended reals (kept as a word: both programs splat this same word). -/
abbrev zw : EReal := Ideal.ofBits .f32 0x00000000#32

theorem zw_eq : zw = 0 := Ideal.ofBits_zero_f32

/-- Position l of run 0 of a row of length n ≥ 128. -/
abbrev at0 {n : Nat} (h : 128 ≤ n) (l : Fin 128) : Fin n := ⟨l.val, by omega⟩
/-- Position l of run 1 (offset 128). -/
abbrev at1 {n : Nat} (h : 256 ≤ n) (l : Fin 128) : Fin n := ⟨128 + l.val, by omega⟩
/-- Position l of run 2 (offset 256). -/
abbrev at2 {n : Nat} (h : 384 ≤ n) (l : Fin 128) : Fin n := ⟨256 + l.val, by omega⟩
/-- Position l of run 3 (offset 384). -/
abbrev at3 {n : Nat} (h : 512 ≤ n) (l : Fin 128) : Fin n := ⟨384 + l.val, by omega⟩

/-- A sum over Fin (m + n) is the sum of its first m terms plus the sum of its last n. -/
theorem sum_two (m n : Nat) (f : Fin (m + n) → EReal) :
    ∑ q, f q = ∑ i : Fin m, f (Fin.castAdd n i) + ∑ i : Fin n, f (Fin.natAdd m i) := Fin.sum_univ_add f

/-- A sum of 384 terms is the sum of its three runs of 128. -/
theorem sum_runs3 (f : Fin 384 → EReal) :
    ∑ q : Fin 384, f q
      = ((∑ l : Fin 128, f (at0 (by decide) l)) + ∑ l : Fin 128, f (at1 (by decide) l)) + ∑ l : Fin 128, f (at2 (by decide) l) := by
  refine (sum_two 256 128 f).trans ?_
  refine congrArg₂ (· + ·) ?_ rfl
  exact sum_two 128 128 fun q => f (Fin.castAdd 128 q)

/-- A sum of 512 terms is the sum of its four runs of 128. -/
theorem sum_runs4 (f : Fin 512 → EReal) :
    ∑ q : Fin 512, f q
      = (((∑ l : Fin 128, f (at0 (by decide) l)) + ∑ l : Fin 128, f (at1 (by decide) l)) + ∑ l : Fin 128, f (at2 (by decide) l))
          + ∑ l : Fin 128, f (at3 (by decide) l) := by
  refine (sum_two 384 128 f).trans ?_
  refine congrArg₂ (· + ·) ?_ rfl
  exact sum_runs3 fun q => f (Fin.castAdd 128 q)

/-- The affine map and the rectifier that end each layer: max (a · s + t, 0-word). -/
def act (a s t : EReal) : EReal := max (a * s + t) zw

/-- Second layer, column j: the hidden row against column j of the 128 × 128 weight, then the affine rectifier. -/
def outRow (h : Fin 128 → EReal) (W2 : Fin 128 → Fin 128 → EReal) (s2 t2 : Fin 128 → EReal) (j : Fin 128) : EReal :=
  act (∑ k : Fin 128, h k * W2 k j) (s2 j) (t2 j)

/-- First layer as the reference computes it: one product of the concatenated row of length n with the n × 128 weight. -/
def hidCat {n : Nat} (X : Fin n → EReal) (W1 : Fin n → Fin 128 → EReal) (s1 t1 : Fin 128 → EReal) (k : Fin 128) : EReal :=
  act (∑ q : Fin n, X q * W1 q k) (s1 k) (t1 k)

/-- First layer as the kernels with three pieces compute it: partial products added up from the zero word. -/
def hid3 (x0 x1 x2 : Fin 128 → EReal) (W1 : Fin 384 → Fin 128 → EReal) (s1 t1 : Fin 128 → EReal) (k : Fin 128) : EReal :=
  act (((zw + ∑ l : Fin 128, x0 l * W1 (at0 (by decide) l) k) + ∑ l : Fin 128, x1 l * W1 (at1 (by decide) l) k)
        + ∑ l : Fin 128, x2 l * W1 (at2 (by decide) l) k) (s1 k) (t1 k)

/-- First layer as the kernel with four pieces computes it. -/
def hid4 (x0 x1 x2 x3 : Fin 128 → EReal) (W1 : Fin 512 → Fin 128 → EReal) (s1 t1 : Fin 128 → EReal) (k : Fin 128) : EReal :=
  act ((((zw + ∑ l : Fin 128, x0 l * W1 (at0 (by decide) l) k) + ∑ l : Fin 128, x1 l * W1 (at1 (by decide) l) k)
        + ∑ l : Fin 128, x2 l * W1 (at2 (by decide) l) k) + ∑ l : Fin 128, x3 l * W1 (at3 (by decide) l) k) (s1 k) (t1 k)

/-- Three pieces: the product with the concatenated row is the sum of the three partial products. -/
theorem hidCat_eq_hid3 (X : Fin 384 → EReal) (x0 x1 x2 : Fin 128 → EReal) (W1 : Fin 384 → Fin 128 → EReal)
    (s1 t1 : Fin 128 → EReal) (k : Fin 128)
    (h0 : ∀ l, X (at0 (by decide) l) = x0 l) (h1 : ∀ l, X (at1 (by decide) l) = x1 l) (h2 : ∀ l, X (at2 (by decide) l) = x2 l) :
    hidCat X W1 s1 t1 k = hid3 x0 x1 x2 W1 s1 t1 k := by
  unfold hidCat hid3
  rw [sum_runs3, zw_eq, zero_add]
  simp only [h0, h1, h2]

/-- Four pieces: the product with the concatenated row is the sum of the four partial products. -/
theorem hidCat_eq_hid4 (X : Fin 512 → EReal) (x0 x1 x2 x3 : Fin 128 → EReal) (W1 : Fin 512 → Fin 128 → EReal)
    (s1 t1 : Fin 128 → EReal) (k : Fin 128)
    (h0 : ∀ l, X (at0 (by decide) l) = x0 l) (h1 : ∀ l, X (at1 (by decide) l) = x1 l) (h2 : ∀ l, X (at2 (by decide) l) = x2 l)
    (h3 : ∀ l, X (at3 (by decide) l) = x3 l) :
    hidCat X W1 s1 t1 k = hid4 x0 x1 x2 x3 W1 s1 t1 k := by
  unfold hidCat hid4
  rw [sum_runs4, zw_eq, zero_add]
  simp only [h0, h1, h2, h3]

/-! ## The perceptron applied row by row to arrays -/

/-- An [R, 128] array, a weight matrix and a length-128 vector, as functions of their indices. -/
abbrev Arr (R : Nat) : Type := (⟨2, ![R, 128]⟩ : Shape).Idx → EReal
abbrev Vec128 : Type := (⟨1, ![128]⟩ : Shape).Idx → EReal

/-- Row r of an [R, 128] array. -/
abbrev rowOf {R : Nat} (a : Arr R) (r : Fin R) : Fin 128 → EReal := fun l => a (ix2 r l)
/-- A matrix by its two coordinates, a vector by its one. -/
abbrev mat {n : Nat} (W : (⟨2, ![n, 128]⟩ : Shape).Idx → EReal) : Fin n → Fin 128 → EReal := fun q c => W (ix2 q c)
abbrev vec (v : Vec128) : Fin 128 → EReal := fun c => v (ix1 c)

/-- The three-piece perceptron applied to every row of three [R, 128] arrays. -/
def rows3 {R : Nat} (a b c : Arr R) (W1 : (⟨2, ![384, 128]⟩ : Shape).Idx → EReal) (s1 t1 : Vec128)
    (W2 : (⟨2, ![128, 128]⟩ : Shape).Idx → EReal) (s2 t2 : Vec128) : Arr R := fun i =>
  outRow (hid3 (rowOf a (i 0)) (rowOf b (i 0)) (rowOf c (i 0)) (mat W1) (vec s1) (vec t1)) (mat W2) (vec s2) (vec t2) (i 1)

/-- The four-piece perceptron applied to every row of four [R, 128] arrays. -/
def rows4 {R : Nat} (a b c d : Arr R) (W1 : (⟨2, ![512, 128]⟩ : Shape).Idx → EReal) (s1 t1 : Vec128)
    (W2 : (⟨2, ![128, 128]⟩ : Shape).Idx → EReal) (s2 t2 : Vec128) : Arr R := fun i =>
  outRow (hid4 (rowOf a (i 0)) (rowOf b (i 0)) (rowOf c (i 0)) (rowOf d (i 0)) (mat W1) (vec s1) (vec t1)) (mat W2) (vec s2) (vec t2) (i 1)

end Cert.RowMlp

end
-- ==== Proof.KerGraphBlock.lean ====
/-
  One block of the graph kernel: what the body leaves in the output block, entry by entry.

  The body loads 3 blocks of 256 rows, the 384 × 128 first-layer weight in 3 slices of 128 rows, and the affine
  vectors; it adds the 3 partial products up from the zero word, applies the affine rectifier, multiplies by the
  128 × 128 second-layer weight and applies the second affine rectifier.  A change of float format is the identity on
  the extended reals, and a product into a zero accumulator is the plain sum.  So entry (r, j) of the output block is
  the row perceptron (RowMlp) of row r of the 3 input blocks.
-/
import proofs.«174078_j47974784696350_1_alg».proof.Proof.Gen.KernelIdeal.Frame
import proofs.«174078_j47974784696350_1_alg».proof.Proof.RowMlp
import Idealize.ShloMosaic.Lib.Pipeline.Value
import Idealize.ShloMosaic.Lib.ValueIdx
import Idealize.ShloMosaic.Lib.ValueLayout
import Idealize.ShloMosaic.PureOps.Ideal.Laws

noncomputable section

namespace Cert.KerGraphBlock

open Cert.KernelIdeal Cert.KernelIdeal.Gen Idealize.ShloMosaic Idealize.ShloMosaic.ValueIdx Cert.RowMlp

theorem hz2 : (![0, 0] : Fin 2 → Nat) = fun _ => 0 := funext fun a => by fin_cases a <;> rfl
theorem hz1 : (![0] : Fin 1 → Nat) = fun _ => 0 := funext fun a => by fin_cases a <;> rfl

theorem lhs0 (i : S256x128.Idx) (q : dot_S256x128_S128x128_S256x128_1_0_0_1_n_n.contr.Idx) : (dot_S256x128_S128x128_S256x128_1_0_0_1_n_n.lhsIdx i q 0).val = (i 0).val := by
  unfold DotDims.lhsIdx
  rw [dif_neg (show ¬(0 : Fin S256x128.rank) ∈ dot_S256x128_S128x128_S256x128_1_0_0_1_n_n.lhsBatch by decide), dif_pos (show (0 : Fin S256x128.rank) ∈ dot_S256x128_S128x128_S256x128_1_0_0_1_n_n.lhsNonContracting by decide)]
  rfl
theorem lhs1 (i : S256x128.Idx) (q : dot_S256x128_S128x128_S256x128_1_0_0_1_n_n.contr.Idx) : (dot_S256x128_S128x128_S256x128_1_0_0_1_n_n.lhsIdx i q 1).val = (q ⟨0, by decide⟩).val :=
  dot_S256x128_S128x128_S256x128_1_0_0_1_n_n.lhsIdx_val_of_single rfl i q
theorem rhs0 (i : S256x128.Idx) (q : dot_S256x128_S128x128_S256x128_1_0_0_1_n_n.contr.Idx) : (dot_S256x128_S128x128_S256x128_1_0_0_1_n_n.rhsIdx i q 0).val = (q ⟨0, by decide⟩).val :=
  dot_S256x128_S128x128_S256x128_1_0_0_1_n_n.rhsIdx_val_of_single rfl i q
theorem rhs1 (i : S256x128.Idx) (q : dot_S256x128_S128x128_S256x128_1_0_0_1_n_n.contr.Idx) : (dot_S256x128_S128x128_S256x128_1_0_0_1_n_n.rhsIdx i q 1).val = (i 1).val := by
  unfold DotDims.rhsIdx
  rw [dif_neg (show ¬(1 : Fin S128x128.rank) ∈ dot_S256x128_S128x128_S256x128_1_0_0_1_n_n.rhsBatch by decide), dif_pos (show (1 : Fin S128x128.rank) ∈ dot_S256x128_S128x128_S256x128_1_0_0_1_n_n.rhsNonContracting by decide)]
  rfl

/-- The kernel's matrix product into a zero accumulator, at (r, j): row r of the left block against column j of the right. -/
theorem mm_apply {φ₁ φ₂ : FTy} (A : FVec Ideal S256x128 φ₁) (B : FVec Ideal S128x128 φ₂) (r : Fin 256) (j : Fin 128) :
    matmul dot_S256x128_S128x128_S256x128_1_0_0_1_n_n none A B (constant S256x128 .f32 0x00000000#32) (ix2 r j) = ∑ l : Fin 128, A (ix2 r l) * B (ix2 l j) := by
  show FloatOps.matmul dot_S256x128_S128x128_S256x128_1_0_0_1_n_n none A B (constant S256x128 .f32 0x00000000#32) (ix2 r j) = _
  rw [Ideal.matmul_constant_zero_apply, ← Equiv.sum_comp (contrEquiv1 dot_S256x128_S128x128_S256x128_1_0_0_1_n_n 128 rfl rfl).symm]
  refine Finset.sum_congr rfl fun l _ => ?_
  have hl := contrEquiv1_symm_val dot_S256x128_S128x128_S256x128_1_0_0_1_n_n 128 rfl rfl l
  have el : dot_S256x128_S128x128_S256x128_1_0_0_1_n_n.lhsIdx (ix2 r j) ((contrEquiv1 dot_S256x128_S128x128_S256x128_1_0_0_1_n_n 128 rfl rfl).symm l) = ix2 r l := funext fun a => Fin.ext (by
    match a with
    | ⟨0, _⟩ => exact lhs0 _ _
    | ⟨1, _⟩ => exact (lhs1 _ _).trans hl)
  have er : dot_S256x128_S128x128_S256x128_1_0_0_1_n_n.rhsIdx (ix2 r j) ((contrEquiv1 dot_S256x128_S128x128_S256x128_1_0_0_1_n_n 128 rfl rfl).symm l) = ix2 l j := funext fun a => Fin.ext (by
    match a with
    | ⟨0, _⟩ => exact (rhs0 _ _).trans hl
    | ⟨1, _⟩ => exact rhs1 _ _)
  rw [el, er]

/-- A length-128 vector laid out as one row and repeated down the block holds its entry j in column j. -/
theorem row_apply {α : Type} (v : S128.Idx → α) (r : Fin 256) (j : Fin 128) :
    broadcastTo S256x128 (shapeCast S1x128 v Gen.shapeCasts_S128_S1x128) Gen.broadcasts_S1x128_S256x128 (ix2 r j) = v (ix1 j) :=
  (broadcastTo_1b_ab_apply _ Gen.broadcasts_S1x128_S256x128 r j).trans (shapeCast_a_1a_apply v Gen.shapeCasts_S128_S1x128 0 j)

/-- The weight rows the kernel loads for piece 0: rows 0 … 127. -/
theorem w1_run0 (W : Vec Ideal S384x128 .f32) :
    View.ld W r2_1 = fun y => W (ix2 (at0 (by decide) (y 0)) (y 1)) :=
  funext fun y => congrArg W (funext fun a => Fin.ext (by
    match a with
    | ⟨0, _⟩ => show 0 + 1 * (y 0).val = (y 0).val; omega
    | ⟨1, _⟩ => show 0 + 1 * (y 1).val = (y 1).val; omega))

/-- The weight rows the kernel loads for piece 1: rows 128 … 255. -/
theorem w1_run1 (W : Vec Ideal S384x128 .f32) :
    View.ld W r2_2 = fun y => W (ix2 (at1 (by decide) (y 0)) (y 1)) :=
  funext fun y => congrArg W (funext fun a => Fin.ext (by
    match a with
    | ⟨0, _⟩ => show 128 + 1 * (y 0).val = 128 + (y 0).val; omega
    | ⟨1, _⟩ => show 0 + 1 * (y 1).val = (y 1).val; omega))

/-- The weight rows the kernel loads for piece 2: rows 256 … 383. -/
theorem w1_run2 (W : Vec Ideal S384x128 .f32) :
    View.ld W r2_3 = fun y => W (ix2 (at2 (by decide) (y 0)) (y 1)) :=
  funext fun y => congrArg W (funext fun a => Fin.ext (by
    match a with
    | ⟨0, _⟩ => show 256 + 1 * (y 0).val = 256 + (y 0).val; omega
    | ⟨1, _⟩ => show 0 + 1 * (y 1).val = (y 1).val; omega))

/-- Entry (r, j) of the output block is the row perceptron of row r of the input blocks. -/
theorem block_apply (x0 x1 x2 : Vec Ideal S256x128 .f32) (x3 : Vec Ideal S384x128 .f32) (x4 x5 : Vec Ideal S128 .f32) (x6 : Vec Ideal S128x128 .f32) (x7 x8 : Vec Ideal S128 .f32) (r : Fin 256) (j : Fin 128) :
    out2_9 x0 x1 x2 x3 x4 x5 x6 x7 x8 (ix2 r j)
      = outRow (hid3 (fun l => x0 (ix2 r l)) (fun l => x1 (ix2 r l)) (fun l => x2 (ix2 r l)) (fun q n => x3 (ix2 q n)) (fun n => x4 (ix1 n)) (fun n => x5 (ix1 n)))
          (fun q n => x6 (ix2 q n)) (fun n => x7 (ix1 n)) (fun n => x8 (ix1 n)) j := by
  unfold out2_9
  rw [View.canon_unit_zero hz2]
  simp only [View.ld_unit_zero (S := S256x128) hz2, View.ld_unit_zero (S := S128) hz1, View.ld_unit_zero (S := S128x128) hz2]
  rw [w1_run0 x3, w1_run1 x3, w1_run2 x3]
  unfold k2_pay1 k2_pay2
  simp only [shapeCast_self, maximumf_apply, addf_apply, mulf_apply, mm_apply, row_apply, truncf_apply, broadcast_apply]
  rfl

/-- The output block IS the row perceptron applied to every row of the input blocks. -/
theorem block_eq (x0 x1 x2 : Vec Ideal S256x128 .f32) (x3 : Vec Ideal S384x128 .f32) (x4 x5 : Vec Ideal S128 .f32) (x6 : Vec Ideal S128x128 .f32) (x7 x8 : Vec Ideal S128 .f32) :
    out2_9 x0 x1 x2 x3 x4 x5 x6 x7 x8 = rows3 x0 x1 x2 x3 x4 x5 x6 x7 x8 :=
  funext fun y => by
    obtain ⟨r, j, rfl⟩ : ∃ (r : Fin 256) (j : Fin 128), y = ix2 r j := ⟨y 0, y 1, eq_ix2 y⟩
    exact block_apply x0 x1 x2 x3 x4 x5 x6 x7 x8 r j

end Cert.KerGraphBlock

end
-- ==== Proof.KerGraphArray.lean ====
/-
  The graph kernel's output ARRAY after its region, as one function of the arrays the region is entered with.

  The grid has 1 point; point t stages rows 256 t … 256 t + 255 of each of the 3 row operands (and the weights and
  affine vectors whole) and writes back rows 256 t … 256 t + 255 of the result.  What a point writes back is the row
  perceptron of its input rows (the block module), so it is that block of the row perceptron applied to the WHOLE operand
  arrays; the blocks cover the result array (row i lies in block i / 256); hence the array ends at the row perceptron of
  the operand arrays.  Stated for ANY entry contents V, which the run module instantiates.
-/
import proofs.«174078_j47974784696350_1_alg».proof.Proof.Gen.KernelIdeal.Frame
import proofs.«174078_j47974784696350_1_alg».proof.Proof.KerGraphBlock

set_option maxRecDepth 16384

noncomputable section

namespace Cert.KerGraphArray

open Cert.KernelIdeal Cert.KernelIdeal.Gen Idealize.ShloMosaic Idealize.ShloMosaic.TcCoe Idealize.ShloMosaic.ValueIdx Idealize.SL.Sem Cert.RowMlp
open Idealize.ShloMosaic.Pipeline (Dat Cfg Window)

variable (V : (c : Dev nD) → (b : Ref sig .tc) → Buf (Elt Ideal) ((c : Thread nD τ).loc b))

/-- The printed index maps, decided over the grid: a row operand's (and the result's) block index is the point
    itself on the row axis and 0 on the column axis; the weights and vectors sit at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 1) = 0
    ∧ win2_6.index t (0 : Fin 2) = 0 ∧ win2_6.index t (1 : Fin 2) = 0
    ∧ win2_7.index t (0 : Fin 1) = 0
    ∧ win2_8.index t (0 : Fin 1) = 0
    ∧ win2_9.index t (0 : Fin 2) = t.val ∧ win2_9.index t (1 : Fin 2) = 0 :=
  (by decide +kernel : ∀ t : Fin grid2.N, _)

/-- Block t of operand 0 is rows 256 t … 256 t + 255 of its array. -/
theorem in0 (c : Dev nD) (t : Fin cfg2.N) (r : Fin 256) (l : Fin 128) (R : Fin 256) (hR : R.val = 256 * t.val + r.val) :
    (iblk2 (F := Ideal) V c 0 t : S256x128.Idx → EReal) (ix2 r l) = (V c main_v64 : S256x128.Idx → EReal) (ix2 R l) := by
  obtain ⟨f0_0, f0_1, f1_0, f1_1, f2_0, f2_1, f3_0, f3_1, f4_0, f5_0, f6_0, f6_1, f7_0, f8_0, f9_0, f9_1⟩ := idx_facts t
  unfold iblk2
  rw [View.read_apply]
  show V c main_v64 _ = V c main_v64 _
  refine congrArg (V c main_v64) (funext fun a => Fin.ext ?_)
  match a with
  | ⟨0, _⟩ => show win2_0.index t (0 : Fin 2) * 256 + 1 * r.val = R.val; rw [f0_0, hR]; omega
  | ⟨1, _⟩ => show win2_0.index t (1 : Fin 2) * 128 + 1 * l.val = l.val; rw [f0_1]; omega

/-- Block t of operand 1 is rows 256 t … 256 t + 255 of its array. -/
theorem in1 (c : Dev nD) (t : Fin cfg2.N) (r : Fin 256) (l : Fin 128) (R : Fin 256) (hR : R.val = 256 * t.val + r.val) :
    (iblk2 (F := Ideal) V c 1 t : S256x128.Idx → EReal) (ix2 r l) = (V c main_v76 : S256x128.Idx → EReal) (ix2 R l) := by
  obtain ⟨f0_0, f0_1, f1_0, f1_1, f2_0, f2_1, f3_0, f3_1, f4_0, f5_0, f6_0, f6_1, f7_0, f8_0, f9_0, f9_1⟩ := idx_facts t
  unfold iblk2
  rw [View.read_apply]
  show V c main_v76 _ = V c main_v76 _
  refine congrArg (V c main_v76) (funext fun a => Fin.ext ?_)
  match a with
  | ⟨0, _⟩ => show win2_1.index t (0 : Fin 2) * 256 + 1 * r.val = R.val; rw [f1_0, hR]; omega
  | ⟨1, _⟩ => show win2_1.index t (1 : Fin 2) * 128 + 1 * l.val = l.val; rw [f1_1]; omega

/-- Block t of operand 2 is rows 256 t … 256 t + 255 of its array. -/
theorem in2 (c : Dev nD) (t : Fin cfg2.N) (r : Fin 256) (l : Fin 128) (R : Fin 256) (hR : R.val = 256 * t.val + r.val) :
    (iblk2 (F := Ideal) V c 2 t : S256x128.Idx → EReal) (ix2 r l) = (V c main_arg2 : S256x128.Idx → EReal) (ix2 R l) := by
  obtain ⟨f0_0, f0_1, f1_0, f1_1, f2_0, f2_1, f3_0, f3_1, f4_0, f5_0, f6_0, f6_1, f7_0, f8_0, f9_0, f9_1⟩ := idx_facts t
  unfold iblk2
  rw [View.read_apply]
  show V c main_arg2 _ = V c main_arg2 _
  refine congrArg (V c main_arg2) (funext fun a => Fin.ext ?_)
  match a with
  | ⟨0, _⟩ => show win2_2.index t (0 : Fin 2) * 256 + 1 * r.val = R.val; rw [f2_0, hR]; omega
  | ⟨1, _⟩ => show win2_2.index t (1 : Fin 2) * 128 + 1 * l.val = l.val; rw [f2_1]; omega

/-- Operand 3 is staged whole at every point. -/
theorem in3 (c : Dev nD) (t : Fin cfg2.N) (q : Fin 384) (n : Fin 128) :
    (iblk2 (F := Ideal) V c 3 t : S384x128.Idx → EReal) (ix2 q n) = (V c main_arg17 : S384x128.Idx → EReal) (ix2 q n) := by
  obtain ⟨f0_0, f0_1, f1_0, f1_1, f2_0, f2_1, f3_0, f3_1, f4_0, f5_0, f6_0, f6_1, f7_0, f8_0, f9_0, f9_1⟩ := idx_facts t
  unfold iblk2
  rw [View.read_apply]
  show V c main_arg17 _ = V c main_arg17 _
  refine congrArg (V c main_arg17) (funext fun a => Fin.ext ?_)
  match a with
  | ⟨0, _⟩ => show win2_3.index t (0 : Fin 2) * 384 + 1 * q.val = q.val; rw [f3_0]; omega
  | ⟨1, _⟩ => show win2_3.index t (1 : Fin 2) * 128 + 1 * n.val = n.val; rw [f3_1]; omega

/-- Operand 6 is staged whole at every point. -/
theorem in6 (c : Dev nD) (t : Fin cfg2.N) (q : Fin 128) (n : Fin 128) :
    (iblk2 (F := Ideal) V c 6 t : S128x128.Idx → EReal) (ix2 q n) = (V c main_arg20 : S128x128.Idx → EReal) (ix2 q n) := by
  obtain ⟨f0_0, f0_1, f1_0, f1_1, f2_0, f2_1, f3_0, f3_1, f4_0, f5_0, f6_0, f6_1, f7_0, f8_0, f9_0, f9_1⟩ := idx_facts t
  unfold iblk2
  rw [View.read_apply]
  show V c main_arg20 _ = V c main_arg20 _
  refine congrArg (V c main_arg20) (funext fun a => Fin.ext ?_)
  match a with
  | ⟨0, _⟩ => show win2_6.index t (0 : Fin 2) * 128 + 1 * q.val = q.val; rw [f6_0]; omega
  | ⟨1, _⟩ => show win2_6.index t (1 : Fin 2) * 128 + 1 * n.val = n.val; rw [f6_1]; omega

/-- Operand 4 is staged whole at every point. -/
theorem in4 (c : Dev nD) (t : Fin cfg2.N) (n : Fin 128) :
    (iblk2 (F := Ideal) V c 4 t : S128.Idx → EReal) (ix1 n) = (V c main_arg18 : S128.Idx → EReal) (ix1 n) := by
  obtain ⟨f0_0, f0_1, f1_0, f1_1, f2_0, f2_1, f3_0, f3_1, f4_0, f5_0, f6_0, f6_1, f7_0, f8_0, f9_0, f9_1⟩ := idx_facts t
  unfold iblk2
  rw [View.read_apply]
  show V c main_arg18 _ = V c main_arg18 _
  refine congrArg (V c main_arg18) (funext fun a => Fin.ext ?_)
  match a with
  | ⟨0, _⟩ => show win2_4.index t (0 : Fin 1) * 128 + 1 * n.val = n.val; rw [f4_0]; omega

/-- Operand 5 is staged whole at every point. -/
theorem in5 (c : Dev nD) (t : Fin cfg2.N) (n : Fin 128) :
    (iblk2 (F := Ideal) V c 5 t : S128.Idx → EReal) (ix1 n) = (V c main_arg19 : S128.Idx → EReal) (ix1 n) := by
  obtain ⟨f0_0, f0_1, f1_0, f1_1, f2_0, f2_1, f3_0, f3_1, f4_0, f5_0, f6_0, f6_1, f7_0, f8_0, f9_0, f9_1⟩ := idx_facts t
  unfold iblk2
  rw [View.read_apply]
  show V c main_arg19 _ = V c main_arg19 _
  refine congrArg (V c main_arg19) (funext fun a => Fin.ext ?_)
  match a with
  | ⟨0, _⟩ => show win2_5.index t (0 : Fin 1) * 128 + 1 * n.val = n.val; rw [f5_0]; omega

/-- Operand 7 is staged whole at every point. -/
theorem in7 (c : Dev nD) (t : Fin cfg2.N) (n : Fin 128) :
    (iblk2 (F := Ideal) V c 7 t : S128.Idx → EReal) (ix1 n) = (V c main_arg21 : S128.Idx → EReal) (ix1 n) := by
  obtain ⟨f0_0, f0_1, f1_0, f1_1, f2_0, f2_1, f3_0, f3_1, f4_0, f5_0, f6_0, f6_1, f7_0, f8_0, f9_0, f9_1⟩ := idx_facts t
  unfold iblk2
  rw [View.read_apply]
  show V c main_arg21 _ = V c main_arg21 _
  refine congrArg (V c main_arg21) (funext fun a => Fin.ext ?_)
  match a with
  | ⟨0, _⟩ => show win2_7.index t (0 : Fin 1) * 128 + 1 * n.val = n.val; rw [f7_0]; omega

/-- Operand 8 is staged whole at every point. -/
theorem in8 (c : Dev nD) (t : Fin cfg2.N) (n : Fin 128) :
    (iblk2 (F := Ideal) V c 8 t : S128.Idx → EReal) (ix1 n) = (V c main_arg22 : S128.Idx → EReal) (ix1 n) := by
  obtain ⟨f0_0, f0_1, f1_0, f1_1, f2_0, f2_1, f3_0, f3_1, f4_0, f5_0, f6_0, f6_1, f7_0, f8_0, f9_0, f9_1⟩ := idx_facts t
  unfold iblk2
  rw [View.read_apply]
  show V c main_arg22 _ = V c main_arg22 _
  refine congrArg (V c main_arg22) (funext fun a => Fin.ext ?_)
  match a with
  | ⟨0, _⟩ => show win2_8.index t (0 : Fin 1) * 128 + 1 * n.val = n.val; rw [f8_0]; omega

/-- The row perceptron of the operand arrays as the region finds them. -/
def G (c : Dev nD) : S256x128.Idx → EReal := rows3 (V c main_v64 : S256x128.Idx → EReal) (V c main_v76 : S256x128.Idx → EReal) (V c main_arg2 : S256x128.Idx → EReal) (V c main_arg17 : S384x128.Idx → EReal) (V c main_arg18 : S128.Idx → EReal) (V c main_arg19 : S128.Idx → EReal) (V c main_arg20 : S128x128.Idx → EReal) (V c main_arg21 : S128.Idx → EReal) (V c main_arg22 : S128.Idx → EReal)

/-- The array row that row r of block t is. -/
def rowAt (t : Fin cfg2.N) (r : Fin 256) : Fin 256 := ⟨256 * t.val + r.val, by
  have hN : cfg2.N = 1 := N_2
  have ht : t.val < 1 := hN ▸ t.isLt
  have hr : r.val < 256 := r.isLt
  omega⟩

/-- Where entry (r, j) of the result's block t sits in the result array. -/
theorem emb_out (t : Fin cfg2.N) (r : Fin 256) (j : Fin 128) :
    ((cfg2.win 9).blk t).view.emb (ix2 r j) = (ix2 (rowAt t r) j : S256x128.Idx) := by
  obtain ⟨f0_0, f0_1, f1_0, f1_1, f2_0, f2_1, f3_0, f3_1, f4_0, f5_0, f6_0, f6_1, f7_0, f8_0, f9_0, f9_1⟩ := idx_facts t
  refine funext fun a => Fin.ext ?_
  match a with
  | ⟨0, _⟩ => show win2_9.index t (0 : Fin 2) * 256 + 1 * r.val = 256 * t.val + r.val; rw [f9_0]; omega
  | ⟨1, _⟩ => show win2_9.index t (1 : Fin 2) * 128 + 1 * j.val = j.val; rw [f9_1]; omega

/-- WHAT POINT t WRITES BACK is block t of the row perceptron of the operand arrays. -/
theorem flushed_eq (c : Dev nD) (t : Fin cfg2.N) :
    (dat2 (F := Ideal) V c).flushed 9 t = ((cfg2.win 9).blk t).view.read (Elt Ideal) (G V c) := by
  show (cfg2.win 9).cut (grid2.coords t) ((dat2 (F := Ideal) V c).after 9 t) = _
  rw [after2_9]
  funext y
  show out2_9 (iblk2 (F := Ideal) V c 0 t) (iblk2 (F := Ideal) V c 1 t) (iblk2 (F := Ideal) V c 2 t) (iblk2 (F := Ideal) V c 3 t) (iblk2 (F := Ideal) V c 4 t) (iblk2 (F := Ideal) V c 5 t) (iblk2 (F := Ideal) V c 6 t) (iblk2 (F := Ideal) V c 7 t) (iblk2 (F := Ideal) V c 8 t) y = G V c (((cfg2.win 9).blk t).view.emb y)
  obtain ⟨r, j, rfl⟩ : ∃ (r : Fin 256) (j : Fin 128), y = ix2 r j := ⟨y 0, y 1, eq_ix2 y⟩
  rw [emb_out]
  refine (Cert.KerGraphBlock.block_apply (iblk2 (F := Ideal) V c 0 t) (iblk2 (F := Ideal) V c 1 t) (iblk2 (F := Ideal) V c 2 t) (iblk2 (F := Ideal) V c 3 t) (iblk2 (F := Ideal) V c 4 t) (iblk2 (F := Ideal) V c 5 t) (iblk2 (F := Ideal) V c 6 t) (iblk2 (F := Ideal) V c 7 t) (iblk2 (F := Ideal) V c 8 t) r j).trans ?_
  unfold G rows3
  show outRow (hid3 (fun l => (iblk2 (F := Ideal) V c 0 t : S256x128.Idx → EReal) (ix2 r l)) (fun l => (iblk2 (F := Ideal) V c 1 t : S256x128.Idx → EReal) (ix2 r l)) (fun l => (iblk2 (F := Ideal) V c 2 t : S256x128.Idx → EReal) (ix2 r l))
      (fun q n => (iblk2 (F := Ideal) V c 3 t : S384x128.Idx → EReal) (ix2 q n)) (fun n => (iblk2 (F := Ideal) V c 4 t : S128.Idx → EReal) (ix1 n)) (fun n => (iblk2 (F := Ideal) V c 5 t : S128.Idx → EReal) (ix1 n)))
      (fun q n => (iblk2 (F := Ideal) V c 6 t : S128x128.Idx → EReal) (ix2 q n)) (fun n => (iblk2 (F := Ideal) V c 7 t : S128.Idx → EReal) (ix1 n)) (fun n => (iblk2 (F := Ideal) V c 8 t : S128.Idx → EReal) (ix1 n)) j
    = outRow (hid3 (fun l => (V c main_v64 : S256x128.Idx → EReal) (ix2 (rowAt t r) l)) (fun l => (V c main_v76 : S256x128.Idx → EReal) (ix2 (rowAt t r) l)) (fun l => (V c main_arg2 : S256x128.Idx → EReal) (ix2 (rowAt t r) l))
      (fun q n => (V c main_arg17 : S384x128.Idx → EReal) (ix2 q n)) (fun n => (V c main_arg18 : S128.Idx → EReal) (ix1 n)) (fun n => (V c main_arg19 : S128.Idx → EReal) (ix1 n)))
      (fun q n => (V c main_arg20 : S128x128.Idx → EReal) (ix2 q n)) (fun n => (V c main_arg21 : S128.Idx → EReal) (ix1 n)) (fun n => (V c main_arg22 : S128.Idx → EReal) (ix1 n)) j
  simp only [in0 V c t _ _ (rowAt t r) rfl, in1 V c t _ _ (rowAt t r) rfl, in2 V c t _ _ (rowAt t r) rfl, in3 V c t, in6 V c t, in4 V c t, in5 V c t, in7 V c t, in8 V c t]

/-- An index of the result array is in point t's block iff its row is among the block's rows. -/
theorem mem_blk (t : Fin cfg2.N) (i : S256x128.Idx) :
    i ∈ ((cfg2.win 9).blk t).view.set ↔ ∀ a : Fin 2, win2_9.index t a * S256x128.size a ≤ (i a).val ∧ (i a).val < win2_9.index t a * S256x128.size a + S256x128.size a := by
  show i ∈ ((View.whole main_v77).slice (win2_9.rect t)).set ↔ _
  rw [View.set_slice_whole, Rect.mem_set_unit]
  exact Iff.rfl

/-- Every index of the result array lies in the block of the point its row names. -/
theorem cover (i : S256x128.Idx) : ∃ t : Fin cfg2.N, (cfg2.win 9).flush t = true ∧ i ∈ ((cfg2.win 9).blk t).view.set := by
  have hN : cfg2.N = 1 := N_2
  have hi0 : (i 0).val < 256 := idx2_lt0 i
  have hi1 : (i 1).val < 128 := idx2_lt1 i
  let t : Fin cfg2.N := ⟨(i 0).val / 256, by rw [hN]; omega⟩
  obtain ⟨f0_0, f0_1, f1_0, f1_1, f2_0, f2_1, f3_0, f3_1, f4_0, f5_0, f6_0, f6_1, f7_0, f8_0, f9_0, f9_1⟩ := idx_facts t
  have ht : t.val = (i 0).val / 256 := rfl
  refine ⟨t, flush2_9 t, ?_⟩
  rw [mem_blk]
  intro a
  match a with
  | ⟨0, _⟩ => show win2_9.index t (0 : Fin 2) * 256 ≤ (i 0).val ∧ (i 0).val < win2_9.index t (0 : Fin 2) * 256 + 256; rw [f9_0, ht]; omega
  | ⟨1, _⟩ => show win2_9.index t (1 : Fin 2) * 128 ≤ (i 1).val ∧ (i 1).val < win2_9.index t (1 : Fin 2) * 128 + 128; rw [f9_1]; omega

/-- THE RESULT ARRAY after the region: the row perceptron of the operand arrays as the region finds them. -/
theorem array_eq (c : Dev nD) : (dat2 (F := Ideal) V c).arrAt 9 cfg2.N = G V c :=
  (dat2 (F := Ideal) V c).arrAt_eq_of_cover 9 (G V c) (fun t _ => flushed_eq V c t) (cover)

end Cert.KerGraphArray

end
-- ==== Proof.KerNodeBlock.lean ====
/-
  One block of the node kernel: what the body leaves in the output block, entry by entry.

  The body loads 3 blocks of 2000 rows, the 384 × 128 first-layer weight in 3 slices of 128 rows, and the affine
  vectors; it adds the 3 partial products up from the zero word, applies the affine rectifier, multiplies by the
  128 × 128 second-layer weight and applies the second affine rectifier.  A change of float format is the identity on
  the extended reals, and a product into a zero accumulator is the plain sum.  So entry (r, j) of the output block is
  the row perceptron (RowMlp) of row r of the 3 input blocks.
-/
import proofs.«174078_j47974784696350_1_alg».proof.Proof.Gen.KernelIdeal.Frame
import proofs.«174078_j47974784696350_1_alg».proof.Proof.RowMlp
import Idealize.ShloMosaic.Lib.Pipeline.Value
import Idealize.ShloMosaic.Lib.ValueIdx
import Idealize.ShloMosaic.Lib.ValueLayout
import Idealize.ShloMosaic.PureOps.Ideal.Laws

noncomputable section

namespace Cert.KerNodeBlock

open Cert.KernelIdeal Cert.KernelIdeal.Gen Idealize.ShloMosaic Idealize.ShloMosaic.ValueIdx Cert.RowMlp

theorem hz2 : (![0, 0] : Fin 2 → Nat) = fun _ => 0 := funext fun a => by fin_cases a <;> rfl
theorem hz1 : (![0] : Fin 1 → Nat) = fun _ => 0 := funext fun a => by fin_cases a <;> rfl

theorem lhs0 (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs1 (i : S2000x128.Idx) (q : dot_S2000x128_S128x128_S2000x128_1_0_0_1_n_n.contr.Idx) : (dot_S2000x128_S128x128_S2000x128_1_0_0_1_n_n.lhsIdx i q 1).val = (q ⟨0, by decide⟩).val :=
  dot_S2000x128_S128x128_S2000x128_1_0_0_1_n_n.lhsIdx_val_of_single rfl i q
theorem rhs0 (i : S2000x128.Idx) (q : dot_S2000x128_S128x128_S2000x128_1_0_0_1_n_n.contr.Idx) : (dot_S2000x128_S128x128_S2000x128_1_0_0_1_n_n.rhsIdx i q 0).val = (q ⟨0, by decide⟩).val :=
  dot_S2000x128_S128x128_S2000x128_1_0_0_1_n_n.rhsIdx_val_of_single rfl i q
theorem rhs1 (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The kernel's matrix product into a zero accumulator, at (r, j): row r of the left block against column j of the right. -/
theorem mm_apply {φ₁ φ₂ : FTy} (A : FVec Ideal S2000x128 φ₁) (B : FVec Ideal S128x128 φ₂) (r : Fin 2000) (j : Fin 128) :
    matmul dot_S2000x128_S128x128_S2000x128_1_0_0_1_n_n none A B (constant S2000x128 .f32 0x00000000#32) (ix2 r j) = ∑ l : Fin 128, A (ix2 r l) * B (ix2 l j) := by
  show FloatOps.matmul dot_S2000x128_S128x128_S2000x128_1_0_0_1_n_n none A B (constant S2000x128 .f32 0x00000000#32) (ix2 r j) = _
  rw [Ideal.matmul_constant_zero_apply, ← Equiv.sum_comp (contrEquiv1 dot_S2000x128_S128x128_S2000x128_1_0_0_1_n_n 128 rfl rfl).symm]
  refine Finset.sum_congr rfl fun l _ => ?_
  have hl := contrEquiv1_symm_val dot_S2000x128_S128x128_S2000x128_1_0_0_1_n_n 128 rfl rfl l
  have el : dot_S2000x128_S128x128_S2000x128_1_0_0_1_n_n.lhsIdx (ix2 r j) ((contrEquiv1 dot_S2000x128_S128x128_S2000x128_1_0_0_1_n_n 128 rfl rfl).symm l) = ix2 r l := funext fun a => Fin.ext (by
    match a with
    | ⟨0, _⟩ => exact lhs0 _ _
    | ⟨1, _⟩ => exact (lhs1 _ _).trans hl)
  have er : dot_S2000x128_S128x128_S2000x128_1_0_0_1_n_n.rhsIdx (ix2 r j) ((contrEquiv1 dot_S2000x128_S128x128_S2000x128_1_0_0_1_n_n 128 rfl rfl).symm l) = ix2 l j := funext fun a => Fin.ext (by
    match a with
    | ⟨0, _⟩ => exact (rhs0 _ _).trans hl
    | ⟨1, _⟩ => exact rhs1 _ _)
  rw [el, er]

/-- A length-128 vector laid out as one row and repeated down the block holds its entry j in column j. -/
theorem row_apply {α : Type} (v : S128.Idx → α) (r : Fin 2000) (j : Fin 128) :
    broadcastTo S2000x128 (shapeCast S1x128 v Gen.shapeCasts_S128_S1x128) Gen.broadcasts_S1x128_S2000x128 (ix2 r j) = v (ix1 j) :=
  (broadcastTo_1b_ab_apply _ Gen.broadcasts_S1x128_S2000x128 r j).trans (shapeCast_a_1a_apply v Gen.shapeCasts_S128_S1x128 0 j)

/-- The weight rows the kernel loads for piece 0: rows 0 … 127. -/
theorem w1_run0 (W : Vec Ideal S384x128 .f32) :
    View.ld W r1_1 = fun y => W (ix2 (at0 (by decide) (y 0)) (y 1)) :=
  funext fun y => congrArg W (funext fun a => Fin.ext (by
    match a with
    | ⟨0, _⟩ => show 0 + 1 * (y 0).val = (y 0).val; omega
    | ⟨1, _⟩ => show 0 + 1 * (y 1).val = (y 1).val; omega))

/-- The weight rows the kernel loads for piece 1: rows 128 … 255. -/
theorem w1_run1 (W : Vec Ideal S384x128 .f32) :
    View.ld W r1_2 = fun y => W (ix2 (at1 (by decide) (y 0)) (y 1)) :=
  funext fun y => congrArg W (funext fun a => Fin.ext (by
    match a with
    | ⟨0, _⟩ => show 128 + 1 * (y 0).val = 128 + (y 0).val; omega
    | ⟨1, _⟩ => show 0 + 1 * (y 1).val = (y 1).val; omega))

/-- The weight rows the kernel loads for piece 2: rows 256 … 383. -/
theorem w1_run2 (W : Vec Ideal S384x128 .f32) :
    View.ld W r1_3 = fun y => W (ix2 (at2 (by decide) (y 0)) (y 1)) :=
  funext fun y => congrArg W (funext fun a => Fin.ext (by
    match a with
    | ⟨0, _⟩ => show 256 + 1 * (y 0).val = 256 + (y 0).val; omega
    | ⟨1, _⟩ => show 0 + 1 * (y 1).val = (y 1).val; omega))

/-- Entry (r, j) of the output block is the row perceptron of row r of the input blocks. -/
theorem block_apply (x0 x1 x2 : Vec Ideal S2000x128 .f32) (x3 : Vec Ideal S384x128 .f32) (x4 x5 : Vec Ideal S128 .f32) (x6 : Vec Ideal S128x128 .f32) (x7 x8 : Vec Ideal S128 .f32) (r : Fin 2000) (j : Fin 128) :
    out1_9 x0 x1 x2 x3 x4 x5 x6 x7 x8 (ix2 r j)
      = outRow (hid3 (fun l => x0 (ix2 r l)) (fun l => x1 (ix2 r l)) (fun l => x2 (ix2 r l)) (fun q n => x3 (ix2 q n)) (fun n => x4 (ix1 n)) (fun n => x5 (ix1 n)))
          (fun q n => x6 (ix2 q n)) (fun n => x7 (ix1 n)) (fun n => x8 (ix1 n)) j := by
  unfold out1_9
  rw [View.canon_unit_zero hz2]
  simp only [View.ld_unit_zero (S := S2000x128) hz2, View.ld_unit_zero (S := S128) hz1, View.ld_unit_zero (S := S128x128) hz2]
  rw [w1_run0 x3, w1_run1 x3, w1_run2 x3]
  unfold k1_pay1 k1_pay2
  simp only [shapeCast_self, maximumf_apply, addf_apply, mulf_apply, mm_apply, row_apply, truncf_apply, broadcast_apply]
  rfl

/-- The output block IS the row perceptron applied to every row of the input blocks. -/
theorem block_eq (x0 x1 x2 : Vec Ideal S2000x128 .f32) (x3 : Vec Ideal S384x128 .f32) (x4 x5 : Vec Ideal S128 .f32) (x6 : Vec Ideal S128x128 .f32) (x7 x8 : Vec Ideal S128 .f32) :
    out1_9 x0 x1 x2 x3 x4 x5 x6 x7 x8 = rows3 x0 x1 x2 x3 x4 x5 x6 x7 x8 :=
  funext fun y => by
    obtain ⟨r, j, rfl⟩ : ∃ (r : Fin 2000) (j : Fin 128), y = ix2 r j := ⟨y 0, y 1, eq_ix2 y⟩
    exact block_apply x0 x1 x2 x3 x4 x5 x6 x7 x8 r j

end Cert.KerNodeBlock

end
-- ==== Proof.KerNodeArray.lean ====
/-
  The node kernel's output ARRAY after its region, as one function of the arrays the region is entered with.

  The grid has 25 points; point t stages rows 2000 t … 2000 t + 1999 of each of the 3 row operands (and the weights and
  affine vectors whole) and writes back rows 2000 t … 2000 t + 1999 of the result.  What a point writes back is the row
  perceptron of its input rows (the block module), so it is that block of the row perceptron applied to the WHOLE operand
  arrays; the blocks cover the result array (row i lies in block i / 2000); hence the array ends at the row perceptron of
  the operand arrays.  Stated for ANY entry contents V, which the run module instantiates.
-/
import proofs.«174078_j47974784696350_1_alg».proof.Proof.Gen.KernelIdeal.Frame
import proofs.«174078_j47974784696350_1_alg».proof.Proof.KerNodeBlock

set_option maxRecDepth 16384

noncomputable section

namespace Cert.KerNodeArray

open Cert.KernelIdeal Cert.KernelIdeal.Gen Idealize.ShloMosaic Idealize.ShloMosaic.TcCoe Idealize.ShloMosaic.ValueIdx Idealize.SL.Sem Cert.RowMlp
open Idealize.ShloMosaic.Pipeline (Dat Cfg Window)

variable (V : (c : Dev nD) → (b : Ref sig .tc) → Buf (Elt Ideal) ((c : Thread nD τ).loc b))

/-- The printed index maps, decided over the grid: a row operand's (and the result's) block index is the point
    itself on the row axis and 0 on the column axis; the weights and vectors sit at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 1) = 0
    ∧ win1_6.index t (0 : Fin 2) = 0 ∧ win1_6.index t (1 : Fin 2) = 0
    ∧ win1_7.index t (0 : Fin 1) = 0
    ∧ win1_8.index t (0 : Fin 1) = 0
    ∧ win1_9.index t (0 : Fin 2) = t.val ∧ win1_9.index t (1 : Fin 2) = 0 :=
  (by decide +kernel : ∀ t : Fin grid1.N, _)

/-- Block t of operand 0 is rows 2000 t … 2000 t + 1999 of its array. -/
theorem in0 (c : Dev nD) (t : Fin cfg1.N) (r : Fin 2000) (l : Fin 128) (R : Fin 50000) (hR : R.val = 2000 * t.val + r.val) :
    (iblk1 (F := Ideal) V c 0 t : S2000x128.Idx → EReal) (ix2 r l) = (V c main_arg0 : S50000x128.Idx → EReal) (ix2 R l) := by
  obtain ⟨f0_0, f0_1, f1_0, f1_1, f2_0, f2_1, f3_0, f3_1, f4_0, f5_0, f6_0, f6_1, f7_0, f8_0, f9_0, f9_1⟩ := idx_facts t
  unfold iblk1
  rw [View.read_apply]
  show V c main_arg0 _ = V c main_arg0 _
  refine congrArg (V c main_arg0) (funext fun a => Fin.ext ?_)
  match a with
  | ⟨0, _⟩ => show win1_0.index t (0 : Fin 2) * 2000 + 1 * r.val = R.val; rw [f0_0, hR]; omega
  | ⟨1, _⟩ => show win1_0.index t (1 : Fin 2) * 128 + 1 * l.val = l.val; rw [f0_1]; omega

/-- Block t of operand 1 is rows 2000 t … 2000 t + 1999 of its array. -/
theorem in1 (c : Dev nD) (t : Fin cfg1.N) (r : Fin 2000) (l : Fin 128) (R : Fin 50000) (hR : R.val = 2000 * t.val + r.val) :
    (iblk1 (F := Ideal) V c 1 t : S2000x128.Idx → EReal) (ix2 r l) = (V c main_v44 : S50000x128.Idx → EReal) (ix2 R l) := by
  obtain ⟨f0_0, f0_1, f1_0, f1_1, f2_0, f2_1, f3_0, f3_1, f4_0, f5_0, f6_0, f6_1, f7_0, f8_0, f9_0, f9_1⟩ := idx_facts t
  unfold iblk1
  rw [View.read_apply]
  show V c main_v44 _ = V c main_v44 _
  refine congrArg (V c main_v44) (funext fun a => Fin.ext ?_)
  match a with
  | ⟨0, _⟩ => show win1_1.index t (0 : Fin 2) * 2000 + 1 * r.val = R.val; rw [f1_0, hR]; omega
  | ⟨1, _⟩ => show win1_1.index t (1 : Fin 2) * 128 + 1 * l.val = l.val; rw [f1_1]; omega

/-- Block t of operand 2 is rows 2000 t … 2000 t + 1999 of its array. -/
theorem in2 (c : Dev nD) (t : Fin cfg1.N) (r : Fin 2000) (l : Fin 128) (R : Fin 50000) (hR : R.val = 2000 * t.val + r.val) :
    (iblk1 (F := Ideal) V c 2 t : S2000x128.Idx → EReal) (ix2 r l) = (V c main_v51 : S50000x128.Idx → EReal) (ix2 R l) := by
  obtain ⟨f0_0, f0_1, f1_0, f1_1, f2_0, f2_1, f3_0, f3_1, f4_0, f5_0, f6_0, f6_1, f7_0, f8_0, f9_0, f9_1⟩ := idx_facts t
  unfold iblk1
  rw [View.read_apply]
  show V c main_v51 _ = V c main_v51 _
  refine congrArg (V c main_v51) (funext fun a => Fin.ext ?_)
  match a with
  | ⟨0, _⟩ => show win1_2.index t (0 : Fin 2) * 2000 + 1 * r.val = R.val; rw [f2_0, hR]; omega
  | ⟨1, _⟩ => show win1_2.index t (1 : Fin 2) * 128 + 1 * l.val = l.val; rw [f2_1]; omega

/-- Operand 3 is staged whole at every point. -/
theorem in3 (c : Dev nD) (t : Fin cfg1.N) (q : Fin 384) (n : Fin 128) :
    (iblk1 (F := Ideal) V c 3 t : S384x128.Idx → EReal) (ix2 q n) = (V c main_arg11 : S384x128.Idx → EReal) (ix2 q n) := by
  obtain ⟨f0_0, f0_1, f1_0, f1_1, f2_0, f2_1, f3_0, f3_1, f4_0, f5_0, f6_0, f6_1, f7_0, f8_0, f9_0, f9_1⟩ := idx_facts t
  unfold iblk1
  rw [View.read_apply]
  show V c main_arg11 _ = V c main_arg11 _
  refine congrArg (V c main_arg11) (funext fun a => Fin.ext ?_)
  match a with
  | ⟨0, _⟩ => show win1_3.index t (0 : Fin 2) * 384 + 1 * q.val = q.val; rw [f3_0]; omega
  | ⟨1, _⟩ => show win1_3.index t (1 : Fin 2) * 128 + 1 * n.val = n.val; rw [f3_1]; omega

/-- Operand 6 is staged whole at every point. -/
theorem in6 (c : Dev nD) (t : Fin cfg1.N) (q : Fin 128) (n : Fin 128) :
    (iblk1 (F := Ideal) V c 6 t : S128x128.Idx → EReal) (ix2 q n) = (V c main_arg14 : S128x128.Idx → EReal) (ix2 q n) := by
  obtain ⟨f0_0, f0_1, f1_0, f1_1, f2_0, f2_1, f3_0, f3_1, f4_0, f5_0, f6_0, f6_1, f7_0, f8_0, f9_0, f9_1⟩ := idx_facts t
  unfold iblk1
  rw [View.read_apply]
  show V c main_arg14 _ = V c main_arg14 _
  refine congrArg (V c main_arg14) (funext fun a => Fin.ext ?_)
  match a with
  | ⟨0, _⟩ => show win1_6.index t (0 : Fin 2) * 128 + 1 * q.val = q.val; rw [f6_0]; omega
  | ⟨1, _⟩ => show win1_6.index t (1 : Fin 2) * 128 + 1 * n.val = n.val; rw [f6_1]; omega

/-- Operand 4 is staged whole at every point. -/
theorem in4 (c : Dev nD) (t : Fin cfg1.N) (n : Fin 128) :
    (iblk1 (F := Ideal) V c 4 t : S128.Idx → EReal) (ix1 n) = (V c main_arg12 : S128.Idx → EReal) (ix1 n) := by
  obtain ⟨f0_0, f0_1, f1_0, f1_1, f2_0, f2_1, f3_0, f3_1, f4_0, f5_0, f6_0, f6_1, f7_0, f8_0, f9_0, f9_1⟩ := idx_facts t
  unfold iblk1
  rw [View.read_apply]
  show V c main_arg12 _ = V c main_arg12 _
  refine congrArg (V c main_arg12) (funext fun a => Fin.ext ?_)
  match a with
  | ⟨0, _⟩ => show win1_4.index t (0 : Fin 1) * 128 + 1 * n.val = n.val; rw [f4_0]; omega

/-- Operand 5 is staged whole at every point. -/
theorem in5 (c : Dev nD) (t : Fin cfg1.N) (n : Fin 128) :
    (iblk1 (F := Ideal) V c 5 t : S128.Idx → EReal) (ix1 n) = (V c main_arg13 : S128.Idx → EReal) (ix1 n) := by
  obtain ⟨f0_0, f0_1, f1_0, f1_1, f2_0, f2_1, f3_0, f3_1, f4_0, f5_0, f6_0, f6_1, f7_0, f8_0, f9_0, f9_1⟩ := idx_facts t
  unfold iblk1
  rw [View.read_apply]
  show V c main_arg13 _ = V c main_arg13 _
  refine congrArg (V c main_arg13) (funext fun a => Fin.ext ?_)
  match a with
  | ⟨0, _⟩ => show win1_5.index t (0 : Fin 1) * 128 + 1 * n.val = n.val; rw [f5_0]; omega

/-- Operand 7 is staged whole at every point. -/
theorem in7 (c : Dev nD) (t : Fin cfg1.N) (n : Fin 128) :
    (iblk1 (F := Ideal) V c 7 t : S128.Idx → EReal) (ix1 n) = (V c main_arg15 : S128.Idx → EReal) (ix1 n) := by
  obtain ⟨f0_0, f0_1, f1_0, f1_1, f2_0, f2_1, f3_0, f3_1, f4_0, f5_0, f6_0, f6_1, f7_0, f8_0, f9_0, f9_1⟩ := idx_facts t
  unfold iblk1
  rw [View.read_apply]
  show V c main_arg15 _ = V c main_arg15 _
  refine congrArg (V c main_arg15) (funext fun a => Fin.ext ?_)
  match a with
  | ⟨0, _⟩ => show win1_7.index t (0 : Fin 1) * 128 + 1 * n.val = n.val; rw [f7_0]; omega

/-- Operand 8 is staged whole at every point. -/
theorem in8 (c : Dev nD) (t : Fin cfg1.N) (n : Fin 128) :
    (iblk1 (F := Ideal) V c 8 t : S128.Idx → EReal) (ix1 n) = (V c main_arg16 : S128.Idx → EReal) (ix1 n) := by
  obtain ⟨f0_0, f0_1, f1_0, f1_1, f2_0, f2_1, f3_0, f3_1, f4_0, f5_0, f6_0, f6_1, f7_0, f8_0, f9_0, f9_1⟩ := idx_facts t
  unfold iblk1
  rw [View.read_apply]
  show V c main_arg16 _ = V c main_arg16 _
  refine congrArg (V c main_arg16) (funext fun a => Fin.ext ?_)
  match a with
  | ⟨0, _⟩ => show win1_8.index t (0 : Fin 1) * 128 + 1 * n.val = n.val; rw [f8_0]; omega

/-- The row perceptron of the operand arrays as the region finds them. -/
def G (c : Dev nD) : S50000x128.Idx → EReal := rows3 (V c main_arg0 : S50000x128.Idx → EReal) (V c main_v44 : S50000x128.Idx → EReal) (V c main_v51 : S50000x128.Idx → EReal) (V c main_arg11 : S384x128.Idx → EReal) (V c main_arg12 : S128.Idx → EReal) (V c main_arg13 : S128.Idx → EReal) (V c main_arg14 : S128x128.Idx → EReal) (V c main_arg15 : S128.Idx → EReal) (V c main_arg16 : S128.Idx → EReal)

/-- The array row that row r of block t is. -/
def rowAt (t : Fin cfg1.N) (r : Fin 2000) : Fin 50000 := ⟨2000 * t.val + r.val, by
  have hN : cfg1.N = 25 := N_1
  have ht : t.val < 25 := hN ▸ t.isLt
  have hr : r.val < 2000 := r.isLt
  omega⟩

/-- Where entry (r, j) of the result's block t sits in the result array. -/
theorem emb_out (t : Fin cfg1.N) (r : Fin 2000) (j : Fin 128) :
    ((cfg1.win 9).blk t).view.emb (ix2 r j) = (ix2 (rowAt t r) j : S50000x128.Idx) := by
  obtain ⟨f0_0, f0_1, f1_0, f1_1, f2_0, f2_1, f3_0, f3_1, f4_0, f5_0, f6_0, f6_1, f7_0, f8_0, f9_0, f9_1⟩ := idx_facts t
  refine funext fun a => Fin.ext ?_
  match a with
  | ⟨0, _⟩ => show win1_9.index t (0 : Fin 2) * 2000 + 1 * r.val = 2000 * t.val + r.val; rw [f9_0]; omega
  | ⟨1, _⟩ => show win1_9.index t (1 : Fin 2) * 128 + 1 * j.val = j.val; rw [f9_1]; omega

/-- WHAT POINT t WRITES BACK is block t of the row perceptron of the operand arrays. -/
theorem flushed_eq (c : Dev nD) (t : Fin cfg1.N) :
    (dat1 (F := Ideal) V c).flushed 9 t = ((cfg1.win 9).blk t).view.read (Elt Ideal) (G V c) := by
  show (cfg1.win 9).cut (grid1.coords t) ((dat1 (F := Ideal) V c).after 9 t) = _
  rw [after1_9]
  funext y
  show out1_9 (iblk1 (F := Ideal) V c 0 t) (iblk1 (F := Ideal) V c 1 t) (iblk1 (F := Ideal) V c 2 t) (iblk1 (F := Ideal) V c 3 t) (iblk1 (F := Ideal) V c 4 t) (iblk1 (F := Ideal) V c 5 t) (iblk1 (F := Ideal) V c 6 t) (iblk1 (F := Ideal) V c 7 t) (iblk1 (F := Ideal) V c 8 t) y = G V c (((cfg1.win 9).blk t).view.emb y)
  obtain ⟨r, j, rfl⟩ : ∃ (r : Fin 2000) (j : Fin 128), y = ix2 r j := ⟨y 0, y 1, eq_ix2 y⟩
  rw [emb_out]
  refine (Cert.KerNodeBlock.block_apply (iblk1 (F := Ideal) V c 0 t) (iblk1 (F := Ideal) V c 1 t) (iblk1 (F := Ideal) V c 2 t) (iblk1 (F := Ideal) V c 3 t) (iblk1 (F := Ideal) V c 4 t) (iblk1 (F := Ideal) V c 5 t) (iblk1 (F := Ideal) V c 6 t) (iblk1 (F := Ideal) V c 7 t) (iblk1 (F := Ideal) V c 8 t) r j).trans ?_
  unfold G rows3
  show outRow (hid3 (fun l => (iblk1 (F := Ideal) V c 0 t : S2000x128.Idx → EReal) (ix2 r l)) (fun l => (iblk1 (F := Ideal) V c 1 t : S2000x128.Idx → EReal) (ix2 r l)) (fun l => (iblk1 (F := Ideal) V c 2 t : S2000x128.Idx → EReal) (ix2 r l))
      (fun q n => (iblk1 (F := Ideal) V c 3 t : S384x128.Idx → EReal) (ix2 q n)) (fun n => (iblk1 (F := Ideal) V c 4 t : S128.Idx → EReal) (ix1 n)) (fun n => (iblk1 (F := Ideal) V c 5 t : S128.Idx → EReal) (ix1 n)))
      (fun q n => (iblk1 (F := Ideal) V c 6 t : S128x128.Idx → EReal) (ix2 q n)) (fun n => (iblk1 (F := Ideal) V c 7 t : S128.Idx → EReal) (ix1 n)) (fun n => (iblk1 (F := Ideal) V c 8 t : S128.Idx → EReal) (ix1 n)) j
    = outRow (hid3 (fun l => (V c main_arg0 : S50000x128.Idx → EReal) (ix2 (rowAt t r) l)) (fun l => (V c main_v44 : S50000x128.Idx → EReal) (ix2 (rowAt t r) l)) (fun l => (V c main_v51 : S50000x128.Idx → EReal) (ix2 (rowAt t r) l))
      (fun q n => (V c main_arg11 : S384x128.Idx → EReal) (ix2 q n)) (fun n => (V c main_arg12 : S128.Idx → EReal) (ix1 n)) (fun n => (V c main_arg13 : S128.Idx → EReal) (ix1 n)))
      (fun q n => (V c main_arg14 : S128x128.Idx → EReal) (ix2 q n)) (fun n => (V c main_arg15 : S128.Idx → EReal) (ix1 n)) (fun n => (V c main_arg16 : S128.Idx → EReal) (ix1 n)) j
  simp only [in0 V c t _ _ (rowAt t r) rfl, in1 V c t _ _ (rowAt t r) rfl, in2 V c t _ _ (rowAt t r) rfl, in3 V c t, in6 V c t, in4 V c t, in5 V c t, in7 V c t, in8 V c t]

/-- An index of the result array is in point t's block iff its row is among the block's rows. -/
theorem mem_blk (t : Fin cfg1.N) (i : S50000x128.Idx) :
    i ∈ ((cfg1.win 9).blk t).view.set ↔ ∀ a : Fin 2, win1_9.index t a * S2000x128.size a ≤ (i a).val ∧ (i a).val < win1_9.index t a * S2000x128.size a + S2000x128.size a := by
  show i ∈ ((View.whole main_v52).slice (win1_9.rect t)).set ↔ _
  rw [View.set_slice_whole, Rect.mem_set_unit]
  exact Iff.rfl

/-- Every index of the result array lies in the block of the point its row names. -/
theorem cover (i : S50000x128.Idx) : ∃ t : Fin cfg1.N, (cfg1.win 9).flush t = true ∧ i ∈ ((cfg1.win 9).blk t).view.set := by
  have hN : cfg1.N = 25 := N_1
  have hi0 : (i 0).val < 50000 := idx2_lt0 i
  have hi1 : (i 1).val < 128 := idx2_lt1 i
  let t : Fin cfg1.N := ⟨(i 0).val / 2000, by rw [hN]; omega⟩
  obtain ⟨f0_0, f0_1, f1_0, f1_1, f2_0, f2_1, f3_0, f3_1, f4_0, f5_0, f6_0, f6_1, f7_0, f8_0, f9_0, f9_1⟩ := idx_facts t
  have ht : t.val = (i 0).val / 2000 := rfl
  refine ⟨t, flush1_9 t, ?_⟩
  rw [mem_blk]
  intro a
  match a with
  | ⟨0, _⟩ => show win1_9.index t (0 : Fin 2) * 2000 ≤ (i 0).val ∧ (i 0).val < win1_9.index t (0 : Fin 2) * 2000 + 2000; rw [f9_0, ht]; omega
  | ⟨1, _⟩ => show win1_9.index t (1 : Fin 2) * 128 ≤ (i 1).val ∧ (i 1).val < win1_9.index t (1 : Fin 2) * 128 + 128; rw [f9_1]; omega

/-- THE RESULT ARRAY after the region: the row perceptron of the operand arrays as the region finds them. -/
theorem array_eq (c : Dev nD) : (dat1 (F := Ideal) V c).arrAt 9 cfg1.N = G V c :=
  (dat1 (F := Ideal) V c).arrAt_eq_of_cover 9 (G V c) (fun t _ => flushed_eq V c t) (cover)

end Cert.KerNodeArray

end
-- ==== Proof.KerEdgeBlock.lean ====
/-
  One block of the edge kernel: what the body leaves in the output block, entry by entry.

  The body loads 4 blocks of 3200 rows, the 512 × 128 first-layer weight in 4 slices of 128 rows, and the affine
  vectors; it adds the 4 partial products up from the zero word, applies the affine rectifier, multiplies by the
  128 × 128 second-layer weight and applies the second affine rectifier.  A change of float format is the identity on
  the extended reals, and a product into a zero accumulator is the plain sum.  So entry (r, j) of the output block is
  the row perceptron (RowMlp) of row r of the 4 input blocks.
-/
import proofs.«174078_j47974784696350_1_alg».proof.Proof.Gen.KernelIdeal.Frame
import proofs.«174078_j47974784696350_1_alg».proof.Proof.RowMlp
import Idealize.ShloMosaic.Lib.Pipeline.Value
import Idealize.ShloMosaic.Lib.ValueIdx
import Idealize.ShloMosaic.Lib.ValueLayout
import Idealize.ShloMosaic.PureOps.Ideal.Laws

noncomputable section

namespace Cert.KerEdgeBlock

open Cert.KernelIdeal Cert.KernelIdeal.Gen Idealize.ShloMosaic Idealize.ShloMosaic.ValueIdx Cert.RowMlp

theorem hz2 : (![0, 0] : Fin 2 → Nat) = fun _ => 0 := funext fun a => by fin_cases a <;> rfl
theorem hz1 : (![0] : Fin 1 → Nat) = fun _ => 0 := funext fun a => by fin_cases a <;> rfl

theorem lhs0 (i : S3200x128.Idx) (q : dot_S3200x128_S128x128_S3200x128_1_0_0_1_n_n.contr.Idx) : (dot_S3200x128_S128x128_S3200x128_1_0_0_1_n_n.lhsIdx i q 0).val = (i 0).val := by
  unfold DotDims.lhsIdx
  rw [dif_neg (show ¬(0 : Fin S3200x128.rank) ∈ dot_S3200x128_S128x128_S3200x128_1_0_0_1_n_n.lhsBatch by decide), dif_pos (show (0 : Fin S3200x128.rank) ∈ dot_S3200x128_S128x128_S3200x128_1_0_0_1_n_n.lhsNonContracting by decide)]
  rfl
theorem lhs1 (i : S3200x128.Idx) (q : dot_S3200x128_S128x128_S3200x128_1_0_0_1_n_n.contr.Idx) : (dot_S3200x128_S128x128_S3200x128_1_0_0_1_n_n.lhsIdx i q 1).val = (q ⟨0, by decide⟩).val :=
  dot_S3200x128_S128x128_S3200x128_1_0_0_1_n_n.lhsIdx_val_of_single rfl i q
theorem rhs0 (i : S3200x128.Idx) (q : dot_S3200x128_S128x128_S3200x128_1_0_0_1_n_n.contr.Idx) : (dot_S3200x128_S128x128_S3200x128_1_0_0_1_n_n.rhsIdx i q 0).val = (q ⟨0, by decide⟩).val :=
  dot_S3200x128_S128x128_S3200x128_1_0_0_1_n_n.rhsIdx_val_of_single rfl i q
theorem rhs1 (i : S3200x128.Idx) (q : dot_S3200x128_S128x128_S3200x128_1_0_0_1_n_n.contr.Idx) : (dot_S3200x128_S128x128_S3200x128_1_0_0_1_n_n.rhsIdx i q 1).val = (i 1).val := by
  unfold DotDims.rhsIdx
  rw [dif_neg (show ¬(1 : Fin S128x128.rank) ∈ dot_S3200x128_S128x128_S3200x128_1_0_0_1_n_n.rhsBatch by decide), dif_pos (show (1 : Fin S128x128.rank) ∈ dot_S3200x128_S128x128_S3200x128_1_0_0_1_n_n.rhsNonContracting by decide)]
  rfl

/-- The kernel's matrix product into a zero accumulator, at (r, j): row r of the left block against column j of the right. -/
theorem mm_apply {φ₁ φ₂ : FTy} (A : FVec Ideal S3200x128 φ₁) (B : FVec Ideal S128x128 φ₂) (r : Fin 3200) (j : Fin 128) :
    matmul dot_S3200x128_S128x128_S3200x128_1_0_0_1_n_n none A B (constant S3200x128 .f32 0x00000000#32) (ix2 r j) = ∑ l : Fin 128, A (ix2 r l) * B (ix2 l j) := by
  show FloatOps.matmul dot_S3200x128_S128x128_S3200x128_1_0_0_1_n_n none A B (constant S3200x128 .f32 0x00000000#32) (ix2 r j) = _
  rw [Ideal.matmul_constant_zero_apply, ← Equiv.sum_comp (contrEquiv1 dot_S3200x128_S128x128_S3200x128_1_0_0_1_n_n 128 rfl rfl).symm]
  refine Finset.sum_congr rfl fun l _ => ?_
  have hl := contrEquiv1_symm_val dot_S3200x128_S128x128_S3200x128_1_0_0_1_n_n 128 rfl rfl l
  have el : dot_S3200x128_S128x128_S3200x128_1_0_0_1_n_n.lhsIdx (ix2 r j) ((contrEquiv1 dot_S3200x128_S128x128_S3200x128_1_0_0_1_n_n 128 rfl rfl).symm l) = ix2 r l := funext fun a => Fin.ext (by
    match a with
    | ⟨0, _⟩ => exact lhs0 _ _
    | ⟨1, _⟩ => exact (lhs1 _ _).trans hl)
  have er : dot_S3200x128_S128x128_S3200x128_1_0_0_1_n_n.rhsIdx (ix2 r j) ((contrEquiv1 dot_S3200x128_S128x128_S3200x128_1_0_0_1_n_n 128 rfl rfl).symm l) = ix2 l j := funext fun a => Fin.ext (by
    match a with
    | ⟨0, _⟩ => exact (rhs0 _ _).trans hl
    | ⟨1, _⟩ => exact rhs1 _ _)
  rw [el, er]

/-- A length-128 vector laid out as one row and repeated down the block holds its entry j in column j. -/
theorem row_apply {α : Type} (v : S128.Idx → α) (r : Fin 3200) (j : Fin 128) :
    broadcastTo S3200x128 (shapeCast S1x128 v Gen.shapeCasts_S128_S1x128) Gen.broadcasts_S1x128_S3200x128 (ix2 r j) = v (ix1 j) :=
  (broadcastTo_1b_ab_apply _ Gen.broadcasts_S1x128_S3200x128 r j).trans (shapeCast_a_1a_apply v Gen.shapeCasts_S128_S1x128 0 j)

/-- The weight rows the kernel loads for piece 0: rows 0 … 127. -/
theorem w1_run0 (W : Vec Ideal S512x128 .f32) :
    View.ld W r0_1 = fun y => W (ix2 (at0 (by decide) (y 0)) (y 1)) :=
  funext fun y => congrArg W (funext fun a => Fin.ext (by
    match a with
    | ⟨0, _⟩ => show 0 + 1 * (y 0).val = (y 0).val; omega
    | ⟨1, _⟩ => show 0 + 1 * (y 1).val = (y 1).val; omega))

/-- The weight rows the kernel loads for piece 1: rows 128 … 255. -/
theorem w1_run1 (W : Vec Ideal S512x128 .f32) :
    View.ld W r0_2 = fun y => W (ix2 (at1 (by decide) (y 0)) (y 1)) :=
  funext fun y => congrArg W (funext fun a => Fin.ext (by
    match a with
    | ⟨0, _⟩ => show 128 + 1 * (y 0).val = 128 + (y 0).val; omega
    | ⟨1, _⟩ => show 0 + 1 * (y 1).val = (y 1).val; omega))

/-- The weight rows the kernel loads for piece 2: rows 256 … 383. -/
theorem w1_run2 (W : Vec Ideal S512x128 .f32) :
    View.ld W r0_3 = fun y => W (ix2 (at2 (by decide) (y 0)) (y 1)) :=
  funext fun y => congrArg W (funext fun a => Fin.ext (by
    match a with
    | ⟨0, _⟩ => show 256 + 1 * (y 0).val = 256 + (y 0).val; omega
    | ⟨1, _⟩ => show 0 + 1 * (y 1).val = (y 1).val; omega))

/-- The weight rows the kernel loads for piece 3: rows 384 … 511. -/
theorem w1_run3 (W : Vec Ideal S512x128 .f32) :
    View.ld W r0_4 = fun y => W (ix2 (at3 (by decide) (y 0)) (y 1)) :=
  funext fun y => congrArg W (funext fun a => Fin.ext (by
    match a with
    | ⟨0, _⟩ => show 384 + 1 * (y 0).val = 384 + (y 0).val; omega
    | ⟨1, _⟩ => show 0 + 1 * (y 1).val = (y 1).val; omega))

/-- Entry (r, j) of the output block is the row perceptron of row r of the input blocks. -/
theorem block_apply (x0 x1 x2 x3 : Vec Ideal S3200x128 .f32) (x4 : Vec Ideal S512x128 .f32) (x5 x6 : Vec Ideal S128 .f32) (x7 : Vec Ideal S128x128 .f32) (x8 x9 : Vec Ideal S128 .f32) (r : Fin 3200) (j : Fin 128) :
    out0_10 x0 x1 x2 x3 x4 x5 x6 x7 x8 x9 (ix2 r j)
      = outRow (hid4 (fun l => x0 (ix2 r l)) (fun l => x1 (ix2 r l)) (fun l => x2 (ix2 r l)) (fun l => x3 (ix2 r l)) (fun q n => x4 (ix2 q n)) (fun n => x5 (ix1 n)) (fun n => x6 (ix1 n)))
          (fun q n => x7 (ix2 q n)) (fun n => x8 (ix1 n)) (fun n => x9 (ix1 n)) j := by
  unfold out0_10
  rw [View.canon_unit_zero hz2]
  simp only [View.ld_unit_zero (S := S3200x128) hz2, View.ld_unit_zero (S := S128) hz1, View.ld_unit_zero (S := S128x128) hz2]
  rw [w1_run0 x4, w1_run1 x4, w1_run2 x4, w1_run3 x4]
  unfold k0_pay1 k0_pay2
  simp only [shapeCast_self, maximumf_apply, addf_apply, mulf_apply, mm_apply, row_apply, truncf_apply, broadcast_apply]
  rfl

/-- The output block IS the row perceptron applied to every row of the input blocks. -/
theorem block_eq (x0 x1 x2 x3 : Vec Ideal S3200x128 .f32) (x4 : Vec Ideal S512x128 .f32) (x5 x6 : Vec Ideal S128 .f32) (x7 : Vec Ideal S128x128 .f32) (x8 x9 : Vec Ideal S128 .f32) :
    out0_10 x0 x1 x2 x3 x4 x5 x6 x7 x8 x9 = rows4 x0 x1 x2 x3 x4 x5 x6 x7 x8 x9 :=
  funext fun y => by
    obtain ⟨r, j, rfl⟩ : ∃ (r : Fin 3200) (j : Fin 128), y = ix2 r j := ⟨y 0, y 1, eq_ix2 y⟩
    exact block_apply x0 x1 x2 x3 x4 x5 x6 x7 x8 x9 r j

end Cert.KerEdgeBlock

end
-- ==== Proof.KerEdgeArray.lean ====
/-
  The edge kernel's output ARRAY after its region, as one function of the arrays the region is entered with.

  The grid has 125 points; point t stages rows 3200 t … 3200 t + 3199 of each of the 4 row operands (and the weights and
  affine vectors whole) and writes back rows 3200 t … 3200 t + 3199 of the result.  What a point writes back is the row
  perceptron of its input rows (the block module), so it is that block of the row perceptron applied to the WHOLE operand
  arrays; the blocks cover the result array (row i lies in block i / 3200); hence the array ends at the row perceptron of
  the operand arrays.  Stated for ANY entry contents V, which the run module instantiates.
-/
import proofs.«174078_j47974784696350_1_alg».proof.Proof.Gen.KernelIdeal.Frame
import proofs.«174078_j47974784696350_1_alg».proof.Proof.KerEdgeBlock

set_option maxRecDepth 16384

noncomputable section

namespace Cert.KerEdgeArray

open Cert.KernelIdeal Cert.KernelIdeal.Gen Idealize.ShloMosaic Idealize.ShloMosaic.TcCoe Idealize.ShloMosaic.ValueIdx Idealize.SL.Sem Cert.RowMlp
open Idealize.ShloMosaic.Pipeline (Dat Cfg Window)

variable (V : (c : Dev nD) → (b : Ref sig .tc) → Buf (Elt Ideal) ((c : Thread nD τ).loc b))

/-- The printed index maps, decided over the grid: a row operand's (and the result's) block index is the point
    itself on the row axis and 0 on the column axis; the weights and vectors sit at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 1) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 1) = 0
    ∧ win0_10.index t (0 : Fin 2) = t.val ∧ win0_10.index t (1 : Fin 2) = 0 :=
  (by decide +kernel : ∀ t : Fin grid0.N, _)

/-- Block t of operand 0 is rows 3200 t … 3200 t + 3199 of its array. -/
theorem in0 (c : Dev nD) (t : Fin cfg0.N) (r : Fin 3200) (l : Fin 128) (R : Fin 400000) (hR : R.val = 3200 * t.val + r.val) :
    (iblk0 (F := Ideal) V c 0 t : S3200x128.Idx → EReal) (ix2 r l) = (V c main_v17 : S400000x128.Idx → EReal) (ix2 R l) := by
  obtain ⟨f0_0, f0_1, f1_0, f1_1, f2_0, f2_1, f3_0, f3_1, f4_0, f4_1, f5_0, f6_0, f7_0, f7_1, f8_0, f9_0, f10_0, f10_1⟩ := idx_facts t
  unfold iblk0
  rw [View.read_apply]
  show V c main_v17 _ = V c main_v17 _
  refine congrArg (V c main_v17) (funext fun a => Fin.ext ?_)
  match a with
  | ⟨0, _⟩ => show win0_0.index t (0 : Fin 2) * 3200 + 1 * r.val = R.val; rw [f0_0, hR]; omega
  | ⟨1, _⟩ => show win0_0.index t (1 : Fin 2) * 128 + 1 * l.val = l.val; rw [f0_1]; omega

/-- Block t of operand 1 is rows 3200 t … 3200 t + 3199 of its array. -/
theorem in1 (c : Dev nD) (t : Fin cfg0.N) (r : Fin 3200) (l : Fin 128) (R : Fin 400000) (hR : R.val = 3200 * t.val + r.val) :
    (iblk0 (F := Ideal) V c 1 t : S3200x128.Idx → EReal) (ix2 r l) = (V c main_v24 : S400000x128.Idx → EReal) (ix2 R l) := by
  obtain ⟨f0_0, f0_1, f1_0, f1_1, f2_0, f2_1, f3_0, f3_1, f4_0, f4_1, f5_0, f6_0, f7_0, f7_1, f8_0, f9_0, f10_0, f10_1⟩ := idx_facts t
  unfold iblk0
  rw [View.read_apply]
  show V c main_v24 _ = V c main_v24 _
  refine congrArg (V c main_v24) (funext fun a => Fin.ext ?_)
  match a with
  | ⟨0, _⟩ => show win0_1.index t (0 : Fin 2) * 3200 + 1 * r.val = R.val; rw [f1_0, hR]; omega
  | ⟨1, _⟩ => show win0_1.index t (1 : Fin 2) * 128 + 1 * l.val = l.val; rw [f1_1]; omega

/-- Block t of operand 2 is rows 3200 t … 3200 t + 3199 of its array. -/
theorem in2 (c : Dev nD) (t : Fin cfg0.N) (r : Fin 3200) (l : Fin 128) (R : Fin 400000) (hR : R.val = 3200 * t.val + r.val) :
    (iblk0 (F := Ideal) V c 2 t : S3200x128.Idx → EReal) (ix2 r l) = (V c main_arg1 : S400000x128.Idx → EReal) (ix2 R l) := by
  obtain ⟨f0_0, f0_1, f1_0, f1_1, f2_0, f2_1, f3_0, f3_1, f4_0, f4_1, f5_0, f6_0, f7_0, f7_1, f8_0, f9_0, f10_0, f10_1⟩ := idx_facts t
  unfold iblk0
  rw [View.read_apply]
  show V c main_arg1 _ = V c main_arg1 _
  refine congrArg (V c main_arg1) (funext fun a => Fin.ext ?_)
  match a with
  | ⟨0, _⟩ => show win0_2.index t (0 : Fin 2) * 3200 + 1 * r.val = R.val; rw [f2_0, hR]; omega
  | ⟨1, _⟩ => show win0_2.index t (1 : Fin 2) * 128 + 1 * l.val = l.val; rw [f2_1]; omega

/-- Block t of operand 3 is rows 3200 t … 3200 t + 3199 of its array. -/
theorem in3 (c : Dev nD) (t : Fin cfg0.N) (r : Fin 3200) (l : Fin 128) (R : Fin 400000) (hR : R.val = 3200 * t.val + r.val) :
    (iblk0 (F := Ideal) V c 3 t : S3200x128.Idx → EReal) (ix2 r l) = (V c main_v31 : S400000x128.Idx → EReal) (ix2 R l) := by
  obtain ⟨f0_0, f0_1, f1_0, f1_1, f2_0, f2_1, f3_0, f3_1, f4_0, f4_1, f5_0, f6_0, f7_0, f7_1, f8_0, f9_0, f10_0, f10_1⟩ := idx_facts t
  unfold iblk0
  rw [View.read_apply]
  show V c main_v31 _ = V c main_v31 _
  refine congrArg (V c main_v31) (funext fun a => Fin.ext ?_)
  match a with
  | ⟨0, _⟩ => show win0_3.index t (0 : Fin 2) * 3200 + 1 * r.val = R.val; rw [f3_0, hR]; omega
  | ⟨1, _⟩ => show win0_3.index t (1 : Fin 2) * 128 + 1 * l.val = l.val; rw [f3_1]; omega

/-- Operand 4 is staged whole at every point. -/
theorem in4 (c : Dev nD) (t : Fin cfg0.N) (q : Fin 512) (n : Fin 128) :
    (iblk0 (F := Ideal) V c 4 t : S512x128.Idx → EReal) (ix2 q n) = (V c main_arg5 : S512x128.Idx → EReal) (ix2 q n) := by
  obtain ⟨f0_0, f0_1, f1_0, f1_1, f2_0, f2_1, f3_0, f3_1, f4_0, f4_1, f5_0, f6_0, f7_0, f7_1, f8_0, f9_0, f10_0, f10_1⟩ := idx_facts t
  unfold iblk0
  rw [View.read_apply]
  show V c main_arg5 _ = V c main_arg5 _
  refine congrArg (V c main_arg5) (funext fun a => Fin.ext ?_)
  match a with
  | ⟨0, _⟩ => show win0_4.index t (0 : Fin 2) * 512 + 1 * q.val = q.val; rw [f4_0]; omega
  | ⟨1, _⟩ => show win0_4.index t (1 : Fin 2) * 128 + 1 * n.val = n.val; rw [f4_1]; omega

/-- Operand 7 is staged whole at every point. -/
theorem in7 (c : Dev nD) (t : Fin cfg0.N) (q : Fin 128) (n : Fin 128) :
    (iblk0 (F := Ideal) V c 7 t : S128x128.Idx → EReal) (ix2 q n) = (V c main_arg8 : S128x128.Idx → EReal) (ix2 q n) := by
  obtain ⟨f0_0, f0_1, f1_0, f1_1, f2_0, f2_1, f3_0, f3_1, f4_0, f4_1, f5_0, f6_0, f7_0, f7_1, f8_0, f9_0, f10_0, f10_1⟩ := idx_facts t
  unfold iblk0
  rw [View.read_apply]
  show V c main_arg8 _ = V c main_arg8 _
  refine congrArg (V c main_arg8) (funext fun a => Fin.ext ?_)
  match a with
  | ⟨0, _⟩ => show win0_7.index t (0 : Fin 2) * 128 + 1 * q.val = q.val; rw [f7_0]; omega
  | ⟨1, _⟩ => show win0_7.index t (1 : Fin 2) * 128 + 1 * n.val = n.val; rw [f7_1]; omega

/-- Operand 5 is staged whole at every point. -/
theorem in5 (c : Dev nD) (t : Fin cfg0.N) (n : Fin 128) :
    (iblk0 (F := Ideal) V c 5 t : S128.Idx → EReal) (ix1 n) = (V c main_arg6 : S128.Idx → EReal) (ix1 n) := by
  obtain ⟨f0_0, f0_1, f1_0, f1_1, f2_0, f2_1, f3_0, f3_1, f4_0, f4_1, f5_0, f6_0, f7_0, f7_1, f8_0, f9_0, f10_0, f10_1⟩ := idx_facts t
  unfold iblk0
  rw [View.read_apply]
  show V c main_arg6 _ = V c main_arg6 _
  refine congrArg (V c main_arg6) (funext fun a => Fin.ext ?_)
  match a with
  | ⟨0, _⟩ => show win0_5.index t (0 : Fin 1) * 128 + 1 * n.val = n.val; rw [f5_0]; omega

/-- Operand 6 is staged whole at every point. -/
theorem in6 (c : Dev nD) (t : Fin cfg0.N) (n : Fin 128) :
    (iblk0 (F := Ideal) V c 6 t : S128.Idx → EReal) (ix1 n) = (V c main_arg7 : S128.Idx → EReal) (ix1 n) := by
  obtain ⟨f0_0, f0_1, f1_0, f1_1, f2_0, f2_1, f3_0, f3_1, f4_0, f4_1, f5_0, f6_0, f7_0, f7_1, f8_0, f9_0, f10_0, f10_1⟩ := idx_facts t
  unfold iblk0
  rw [View.read_apply]
  show V c main_arg7 _ = V c main_arg7 _
  refine congrArg (V c main_arg7) (funext fun a => Fin.ext ?_)
  match a with
  | ⟨0, _⟩ => show win0_6.index t (0 : Fin 1) * 128 + 1 * n.val = n.val; rw [f6_0]; omega

/-- Operand 8 is staged whole at every point. -/
theorem in8 (c : Dev nD) (t : Fin cfg0.N) (n : Fin 128) :
    (iblk0 (F := Ideal) V c 8 t : S128.Idx → EReal) (ix1 n) = (V c main_arg9 : S128.Idx → EReal) (ix1 n) := by
  obtain ⟨f0_0, f0_1, f1_0, f1_1, f2_0, f2_1, f3_0, f3_1, f4_0, f4_1, f5_0, f6_0, f7_0, f7_1, f8_0, f9_0, f10_0, f10_1⟩ := idx_facts t
  unfold iblk0
  rw [View.read_apply]
  show V c main_arg9 _ = V c main_arg9 _
  refine congrArg (V c main_arg9) (funext fun a => Fin.ext ?_)
  match a with
  | ⟨0, _⟩ => show win0_8.index t (0 : Fin 1) * 128 + 1 * n.val = n.val; rw [f8_0]; omega

/-- Operand 9 is staged whole at every point. -/
theorem in9 (c : Dev nD) (t : Fin cfg0.N) (n : Fin 128) :
    (iblk0 (F := Ideal) V c 9 t : S128.Idx → EReal) (ix1 n) = (V c main_arg10 : S128.Idx → EReal) (ix1 n) := by
  obtain ⟨f0_0, f0_1, f1_0, f1_1, f2_0, f2_1, f3_0, f3_1, f4_0, f4_1, f5_0, f6_0, f7_0, f7_1, f8_0, f9_0, f10_0, f10_1⟩ := idx_facts t
  unfold iblk0
  rw [View.read_apply]
  show V c main_arg10 _ = V c main_arg10 _
  refine congrArg (V c main_arg10) (funext fun a => Fin.ext ?_)
  match a with
  | ⟨0, _⟩ => show win0_9.index t (0 : Fin 1) * 128 + 1 * n.val = n.val; rw [f9_0]; omega

/-- The row perceptron of the operand arrays as the region finds them. -/
def G (c : Dev nD) : S400000x128.Idx → EReal := rows4 (V c main_v17 : S400000x128.Idx → EReal) (V c main_v24 : S400000x128.Idx → EReal) (V c main_arg1 : S400000x128.Idx → EReal) (V c main_v31 : S400000x128.Idx → EReal) (V c main_arg5 : S512x128.Idx → EReal) (V c main_arg6 : S128.Idx → EReal) (V c main_arg7 : S128.Idx → EReal) (V c main_arg8 : S128x128.Idx → EReal) (V c main_arg9 : S128.Idx → EReal) (V c main_arg10 : S128.Idx → EReal)

/-- The array row that row r of block t is. -/
def rowAt (t : Fin cfg0.N) (r : Fin 3200) : Fin 400000 := ⟨3200 * t.val + r.val, by
  have hN : cfg0.N = 125 := N_0
  have ht : t.val < 125 := hN ▸ t.isLt
  have hr : r.val < 3200 := r.isLt
  omega⟩

/-- Where entry (r, j) of the result's block t sits in the result array. -/
theorem emb_out (t : Fin cfg0.N) (r : Fin 3200) (j : Fin 128) :
    ((cfg0.win 10).blk t).view.emb (ix2 r j) = (ix2 (rowAt t r) j : S400000x128.Idx) := by
  obtain ⟨f0_0, f0_1, f1_0, f1_1, f2_0, f2_1, f3_0, f3_1, f4_0, f4_1, f5_0, f6_0, f7_0, f7_1, f8_0, f9_0, f10_0, f10_1⟩ := idx_facts t
  refine funext fun a => Fin.ext ?_
  match a with
  | ⟨0, _⟩ => show win0_10.index t (0 : Fin 2) * 3200 + 1 * r.val = 3200 * t.val + r.val; rw [f10_0]; omega
  | ⟨1, _⟩ => show win0_10.index t (1 : Fin 2) * 128 + 1 * j.val = j.val; rw [f10_1]; omega

/-- WHAT POINT t WRITES BACK is block t of the row perceptron of the operand arrays. -/
theorem flushed_eq (c : Dev nD) (t : Fin cfg0.N) :
    (dat0 (F := Ideal) V c).flushed 10 t = ((cfg0.win 10).blk t).view.read (Elt Ideal) (G V c) := by
  show (cfg0.win 10).cut (grid0.coords t) ((dat0 (F := Ideal) V c).after 10 t) = _
  rw [after0_10]
  funext y
  show out0_10 (iblk0 (F := Ideal) V c 0 t) (iblk0 (F := Ideal) V c 1 t) (iblk0 (F := Ideal) V c 2 t) (iblk0 (F := Ideal) V c 3 t) (iblk0 (F := Ideal) V c 4 t) (iblk0 (F := Ideal) V c 5 t) (iblk0 (F := Ideal) V c 6 t) (iblk0 (F := Ideal) V c 7 t) (iblk0 (F := Ideal) V c 8 t) (iblk0 (F := Ideal) V c 9 t) y = G V c (((cfg0.win 10).blk t).view.emb y)
  obtain ⟨r, j, rfl⟩ : ∃ (r : Fin 3200) (j : Fin 128), y = ix2 r j := ⟨y 0, y 1, eq_ix2 y⟩
  rw [emb_out]
  refine (Cert.KerEdgeBlock.block_apply (iblk0 (F := Ideal) V c 0 t) (iblk0 (F := Ideal) V c 1 t) (iblk0 (F := Ideal) V c 2 t) (iblk0 (F := Ideal) V c 3 t) (iblk0 (F := Ideal) V c 4 t) (iblk0 (F := Ideal) V c 5 t) (iblk0 (F := Ideal) V c 6 t) (iblk0 (F := Ideal) V c 7 t) (iblk0 (F := Ideal) V c 8 t) (iblk0 (F := Ideal) V c 9 t) r j).trans ?_
  unfold G rows4
  show outRow (hid4 (fun l => (iblk0 (F := Ideal) V c 0 t : S3200x128.Idx → EReal) (ix2 r l)) (fun l => (iblk0 (F := Ideal) V c 1 t : S3200x128.Idx → EReal) (ix2 r l)) (fun l => (iblk0 (F := Ideal) V c 2 t : S3200x128.Idx → EReal) (ix2 r l)) (fun l => (iblk0 (F := Ideal) V c 3 t : S3200x128.Idx → EReal) (ix2 r l))
      (fun q n => (iblk0 (F := Ideal) V c 4 t : S512x128.Idx → EReal) (ix2 q n)) (fun n => (iblk0 (F := Ideal) V c 5 t : S128.Idx → EReal) (ix1 n)) (fun n => (iblk0 (F := Ideal) V c 6 t : S128.Idx → EReal) (ix1 n)))
      (fun q n => (iblk0 (F := Ideal) V c 7 t : S128x128.Idx → EReal) (ix2 q n)) (fun n => (iblk0 (F := Ideal) V c 8 t : S128.Idx → EReal) (ix1 n)) (fun n => (iblk0 (F := Ideal) V c 9 t : S128.Idx → EReal) (ix1 n)) j
    = outRow (hid4 (fun l => (V c main_v17 : S400000x128.Idx → EReal) (ix2 (rowAt t r) l)) (fun l => (V c main_v24 : S400000x128.Idx → EReal) (ix2 (rowAt t r) l)) (fun l => (V c main_arg1 : S400000x128.Idx → EReal) (ix2 (rowAt t r) l)) (fun l => (V c main_v31 : S400000x128.Idx → EReal) (ix2 (rowAt t r) l))
      (fun q n => (V c main_arg5 : S512x128.Idx → EReal) (ix2 q n)) (fun n => (V c main_arg6 : S128.Idx → EReal) (ix1 n)) (fun n => (V c main_arg7 : S128.Idx → EReal) (ix1 n)))
      (fun q n => (V c main_arg8 : S128x128.Idx → EReal) (ix2 q n)) (fun n => (V c main_arg9 : S128.Idx → EReal) (ix1 n)) (fun n => (V c main_arg10 : S128.Idx → EReal) (ix1 n)) j
  simp only [in0 V c t _ _ (rowAt t r) rfl, in1 V c t _ _ (rowAt t r) rfl, in2 V c t _ _ (rowAt t r) rfl, in3 V c t _ _ (rowAt t r) rfl, in4 V c t, in7 V c t, in5 V c t, in6 V c t, in8 V c t, in9 V c t]

/-- An index of the result array is in point t's block iff its row is among the block's rows. -/
theorem mem_blk (t : Fin cfg0.N) (i : S400000x128.Idx) :
    i ∈ ((cfg0.win 10).blk t).view.set ↔ ∀ a : Fin 2, win0_10.index t a * S3200x128.size a ≤ (i a).val ∧ (i a).val < win0_10.index t a * S3200x128.size a + S3200x128.size a := by
  show i ∈ ((View.whole main_v32).slice (win0_10.rect t)).set ↔ _
  rw [View.set_slice_whole, Rect.mem_set_unit]
  exact Iff.rfl

/-- Every index of the result array lies in the block of the point its row names. -/
theorem cover (i : S400000x128.Idx) : ∃ t : Fin cfg0.N, (cfg0.win 10).flush t = true ∧ i ∈ ((cfg0.win 10).blk t).view.set := by
  have hN : cfg0.N = 125 := N_0
  have hi0 : (i 0).val < 400000 := idx2_lt0 i
  have hi1 : (i 1).val < 128 := idx2_lt1 i
  let t : Fin cfg0.N := ⟨(i 0).val / 3200, by rw [hN]; omega⟩
  obtain ⟨f0_0, f0_1, f1_0, f1_1, f2_0, f2_1, f3_0, f3_1, f4_0, f4_1, f5_0, f6_0, f7_0, f7_1, f8_0, f9_0, f10_0, f10_1⟩ := idx_facts t
  have ht : t.val = (i 0).val / 3200 := rfl
  refine ⟨t, flush0_10 t, ?_⟩
  rw [mem_blk]
  intro a
  match a with
  | ⟨0, _⟩ => show win0_10.index t (0 : Fin 2) * 3200 ≤ (i 0).val ∧ (i 0).val < win0_10.index t (0 : Fin 2) * 3200 + 3200; rw [f10_0, ht]; omega
  | ⟨1, _⟩ => show win0_10.index t (1 : Fin 2) * 128 ≤ (i 1).val ∧ (i 1).val < win0_10.index t (1 : Fin 2) * 128 + 128; rw [f10_1]; omega

/-- THE RESULT ARRAY after the region: the row perceptron of the operand arrays as the region finds them. -/
theorem array_eq (c : Dev nD) : (dat0 (F := Ideal) V c).arrAt 10 cfg0.N = G V c :=
  (dat0 (F := Ideal) V c).arrAt_eq_of_cover 10 (G V c) (fun t _ => flushed_eq V c t) (cover)

end Cert.KerEdgeArray

end
-- ==== Proof.HostGlue.lean ====
/-
  The host operations that BOTH programs apply around the three perceptrons, each named once and never opened.

  Edges carry a source and a destination node (the two columns of the index argument); a node carries a graph.  A
  negative index is wrapped by adding the extent (jnp's indexing).  The edge perceptron reads, per edge, the features
  of its source node, of its destination node, its own, and those of its source's graph (three gathers).  The node
  perceptron reads, per node, its own features, the MEAN of the updated features of the edges leaving it (a scatter-add
  of the rows, divided by the count clamped below by one), and its graph's features.  The graph perceptron reads,
  per graph, the mean of its nodes' updated features, the mean of its edges' updated features, and its own.

  Both programs spell these operations identically, so the proof only ever needs that EQUAL operands give EQUAL
  results: nothing here is read at an index.
-/
import proofs.«174078_j47974784696350_1_alg».proof.ReferenceIdeal
import proofs.«174078_j47974784696350_1_alg».proof.Proof.Gen.ReferenceIdeal

noncomputable section

namespace Cert.HostGlue

open Cert.ReferenceIdeal Cert.ReferenceIdeal.Facts₀ Idealize.ShloMosaic

variable {F : FTy → Type} [FloatOps F]

/-- A float array and an integer array of a shape, at the instance F. -/
abbrev Fl (F : FTy → Type) (s : Shape) : Type := (⟨s, .f32⟩ : BufTy).Contents (Elt F)
abbrev In (F : FTy → Type) (s : Shape) : Type := (⟨s, .i32⟩ : BufTy).Contents (Elt F)

/-- Each edge's source node: column 0 of the index pairs. -/
def src (a3 : In F S400000x2) : In F S400000 :=
  shapeCast _ (extractStridedSlice S400000x1 ![0, 0] a3 slices_S400000x2_S400000x1_0_0) shapeCasts_S400000x1_S400000
/-- Each edge's destination node: column 1. -/
def dst (a3 : In F S400000x2) : In F S400000 :=
  shapeCast _ (extractStridedSlice S400000x1 ![0, 1] a3 slices_S400000x2_S400000x1_0_1) shapeCasts_S400000x1_S400000

/-- A per-edge node index, negative values wrapped by the 50000 nodes. -/
def wrapNode (i : In F S400000) : In F S400000 :=
  select (cmpi .slt i (broadcastInDim S400000 ![] bcast_S_S400000 (constantI S_ 32 0#32))) (addi i (broadcastInDim S400000 ![] bcast_S_S400000 (constantI S_ 32 50000#32))) i
/-- A per-edge graph index, negative values wrapped by the 256 graphs. -/
def wrapGraphE (g : In F S400000) : In F S400000 :=
  select (cmpi .slt g (broadcastInDim S400000 ![] bcast_S_S400000 (constantI S_ 32 0#32))) (addi g (broadcastInDim S400000 ![] bcast_S_S400000 (constantI S_ 32 256#32))) g
/-- A per-node graph index, negative values wrapped by the 256 graphs. -/
def wrapGraphN (g : In F S50000) : In F S50000 :=
  select (cmpi .slt g (broadcastInDim S50000 ![] bcast_S_S50000 (constantI S_ 32 0#32))) (addi g (broadcastInDim S50000 ![] bcast_S_S50000 (constantI S_ 32 256#32))) g

/-- Per-edge and per-node indices as one-column index arrays. -/
def colE (i : In F S400000) : In F S400000x1 := broadcastInDim S400000x1 ![0] bcast_S400000_S400000x1_0 i
def colN (i : In F S50000) : In F S50000x1 := broadcastInDim S50000x1 ![0] bcast_S50000_S50000x1_0 i

/-- The graph of each edge's source node. -/
def edgeGraph (a3 : In F S400000x2) (a4 : In F S50000) : In F S400000 :=
  Host.gather gather_S50000_S400000x1_S400000_n_0_n_n_0_1_1 a4 (colE (wrapNode (src a3)))
/-- Node features gathered per edge at the given node indices. -/
def nodesAt (a0 : Fl F S50000x128) (i : In F S400000) : Fl F S400000x128 :=
  Host.gather gather_S50000x128_S400000x1_S400000x128_1_0_n_n_0_1_1128 a0 (colE (wrapNode i))
/-- Graph features gathered per edge. -/
def globAtE (a2 : Fl F S256x128) (g : In F S400000) : Fl F S400000x128 :=
  Host.gather gather_S256x128_S400000x1_S400000x128_1_0_n_n_0_1_1128 a2 (colE (wrapGraphE g))
/-- Graph features gathered per node. -/
def globAtN (a2 : Fl F S256x128) (a4 : In F S50000) : Fl F S50000x128 :=
  Host.gather gather_S256x128_S50000x1_S50000x128_1_0_n_n_0_1_1128 a2 (colN (wrapGraphN a4))

/-- Mean over the edges leaving each node (segment indices i) of the edge rows E. -/
def edgesToNodes (i : In F S400000) (E : Fl F S400000x128) : Fl F S50000x128 :=
  Host.divf (Host.scatterAdd scatter_S50000x128_S400000x1_S400000x128_1_0_0_1 (broadcastInDim S50000x128 ![] bcast_S_S50000x128 (constant S_ .f32 0x00000000#32)) (colE i) (E)) (broadcastInDim S50000x128 ![0, 1] bcast_S50000x1_S50000x128_0_1 (broadcastInDim S50000x1 ![0] bcast_S50000_S50000x1_0 (maximumf (Host.scatterAdd scatter_S50000_S400000x1_S400000_n_0_0_1 (broadcastInDim S50000 ![] bcast_S_S50000 (constant S_ .f32 0x00000000#32)) (colE i) (broadcastInDim S400000 ![] bcast_S_S400000 (constant S_ .f32 0x3F800000#32))) (broadcastInDim S50000 ![] bcast_S_S50000 (constant S_ .f32 0x3F800000#32)))))
/-- Mean over each graph's nodes of the node rows N. -/
def nodesToGraphs (a4 : In F S50000) (N : Fl F S50000x128) : Fl F S256x128 :=
  Host.divf (Host.scatterAdd scatter_S256x128_S50000x1_S50000x128_1_0_0_1 (broadcastInDim S256x128 ![] bcast_S_S256x128 (constant S_ .f32 0x00000000#32)) (colN a4) (N)) (broadcastInDim S256x128 ![0, 1] bcast_S256x1_S256x128_0_1 (broadcastInDim S256x1 ![0] bcast_S256_S256x1_0 (maximumf (Host.scatterAdd scatter_S256_S50000x1_S50000_n_0_0_1 (broadcastInDim S256 ![] bcast_S_S256 (constant S_ .f32 0x00000000#32)) (colN a4) (broadcastInDim S50000 ![] bcast_S_S50000 (constant S_ .f32 0x3F800000#32))) (broadcastInDim S256 ![] bcast_S_S256 (constant S_ .f32 0x3F800000#32)))))
/-- Mean over each graph's edges (segment indices g) of the edge rows E. -/
def edgesToGraphs (g : In F S400000) (E : Fl F S400000x128) : Fl F S256x128 :=
  Host.divf (Host.scatterAdd scatter_S256x128_S400000x1_S400000x128_1_0_0_1 (broadcastInDim S256x128 ![] bcast_S_S256x128 (constant S_ .f32 0x00000000#32)) (colE g) (E)) (broadcastInDim S256x128 ![0, 1] bcast_S256x1_S256x128_0_1 (broadcastInDim S256x1 ![0] bcast_S256_S256x1_0 (maximumf (Host.scatterAdd scatter_S256_S400000x1_S400000_n_0_0_1 (broadcastInDim S256 ![] bcast_S_S256 (constant S_ .f32 0x00000000#32)) (colE g) (broadcastInDim S400000 ![] bcast_S_S400000 (constant S_ .f32 0x3F800000#32))) (broadcastInDim S256 ![] bcast_S_S256 (constant S_ .f32 0x3F800000#32)))))

end Cert.HostGlue

end
-- ==== Proof.RefEdgeMlp.lean ====
/-
  The reference's edge perceptron as a function of ARBITRARY operand arrays (400000 rows), and what it holds at an
  index: row r, column j of the result is the row perceptron (RowMlp) of row r of each of the 4 operands.

  Three readings make it up.  A host dot_general of an [400000, n] array with an [n, 128] weight is, at (r, j), the sum over
  q < n of X (r, q) · W (q, j).  The concatenation along axis 1 of 4 arrays of width 128 holds, at column 128 p + l,
  column l of piece p.  A vector of length 128 broadcast first to [1, 128] and then to [400000, 128] holds, at (r, j), its
  entry j.  With these the first layer is RowMlp.hidCat of the concatenated row, which the block-sum law turns into
  the 4 partial products the kernel adds up.
-/
import proofs.«174078_j47974784696350_1_alg».proof.ReferenceIdeal
import proofs.«174078_j47974784696350_1_alg».proof.Proof.Gen.ReferenceIdeal
import proofs.«174078_j47974784696350_1_alg».proof.Proof.RowMlp
import Idealize.ShloMosaic.Lib.Pipeline.Value
import Idealize.ShloMosaic.Lib.ValueIdx
import Idealize.ShloMosaic.PureOps.Ideal.Laws

noncomputable section

namespace Cert.RefEdgeMlp

open Cert.ReferenceIdeal Cert.ReferenceIdeal.Facts₀ Idealize.ShloMosaic Idealize.ShloMosaic.ValueIdx Cert.RowMlp

/-- The 4 operands side by side: an [400000, 512] array. -/
def cat (a b c d : FVec Ideal S400000x128 .f32) : FVec Ideal S400000x512 .f32 :=
  concatenate S400000x512 1 [⟨S400000x128, a⟩, ⟨S400000x128, b⟩, ⟨S400000x128, c⟩, ⟨S400000x128, d⟩] concatenates_S400000x128_S400000x128_S400000x128_S400000x128_S400000x512_d1

/-- The reference's perceptron, spelt as its host program spells it. -/
def mlp (a b c d : FVec Ideal S400000x128 .f32) (W1 : FVec Ideal S512x128 .f32) (s1 t1 : FVec Ideal S128 .f32)
    (W2 : FVec Ideal S128x128 .f32) (s2 t2 : FVec Ideal S128 .f32) : FVec Ideal S400000x128 .f32 :=
  maximumf (addf (mulf (Host.dotGeneral dot_S400000x128_S128x128_S400000x128_1_0_0_1_n_n none
    (maximumf (addf (mulf (Host.dotGeneral dot_S400000x512_S512x128_S400000x128_1_0_0_1_n_n none (cat a b c d) W1) (broadcastInDim S400000x128 ![0, 1] bcast_S1x128_S400000x128_0_1 (broadcastInDim S1x128 ![1] bcast_S128_S1x128_1 s1))) (broadcastInDim S400000x128 ![0, 1] bcast_S1x128_S400000x128_0_1 (broadcastInDim S1x128 ![1] bcast_S128_S1x128_1 t1))) (broadcastInDim S400000x128 ![] bcast_S_S400000x128 (constant (F := Ideal) S_ .f32 0x00000000#32)))
    W2) (broadcastInDim S400000x128 ![0, 1] bcast_S1x128_S400000x128_0_1 (broadcastInDim S1x128 ![1] bcast_S128_S1x128_1 s2))) (broadcastInDim S400000x128 ![0, 1] bcast_S1x128_S400000x128_0_1 (broadcastInDim S1x128 ![1] bcast_S128_S1x128_1 t2))) (broadcastInDim S400000x128 ![] bcast_S_S400000x128 (constant (F := Ideal) S_ .f32 0x00000000#32))

/-! The operand coordinates of the two products: row r of the left operand, column j of the right, the contracted
    coordinate on the other axis. -/

theorem d1_lhs0 (i : S400000x128.Idx) (q : dot_S400000x512_S512x128_S400000x128_1_0_0_1_n_n.contr.Idx) : (dot_S400000x512_S512x128_S400000x128_1_0_0_1_n_n.lhsIdx i q 0).val = (i 0).val := by
  unfold DotDims.lhsIdx
  rw [dif_neg (show ¬(0 : Fin S400000x512.rank) ∈ dot_S400000x512_S512x128_S400000x128_1_0_0_1_n_n.lhsBatch by decide), dif_pos (show (0 : Fin S400000x512.rank) ∈ dot_S400000x512_S512x128_S400000x128_1_0_0_1_n_n.lhsNonContracting by decide)]
  rfl
theorem d1_lhs1 (i : S400000x128.Idx) (q : dot_S400000x512_S512x128_S400000x128_1_0_0_1_n_n.contr.Idx) : (dot_S400000x512_S512x128_S400000x128_1_0_0_1_n_n.lhsIdx i q 1).val = (q ⟨0, by decide⟩).val :=
  dot_S400000x512_S512x128_S400000x128_1_0_0_1_n_n.lhsIdx_val_of_single rfl i q
theorem d1_rhs0 (i : S400000x128.Idx) (q : dot_S400000x512_S512x128_S400000x128_1_0_0_1_n_n.contr.Idx) : (dot_S400000x512_S512x128_S400000x128_1_0_0_1_n_n.rhsIdx i q 0).val = (q ⟨0, by decide⟩).val :=
  dot_S400000x512_S512x128_S400000x128_1_0_0_1_n_n.rhsIdx_val_of_single rfl i q
theorem d1_rhs1 (i : S400000x128.Idx) (q : dot_S400000x512_S512x128_S400000x128_1_0_0_1_n_n.contr.Idx) : (dot_S400000x512_S512x128_S400000x128_1_0_0_1_n_n.rhsIdx i q 1).val = (i 1).val := by
  unfold DotDims.rhsIdx
  rw [dif_neg (show ¬(1 : Fin S512x128.rank) ∈ dot_S400000x512_S512x128_S400000x128_1_0_0_1_n_n.rhsBatch by decide), dif_pos (show (1 : Fin S512x128.rank) ∈ dot_S400000x512_S512x128_S400000x128_1_0_0_1_n_n.rhsNonContracting by decide)]
  rfl

theorem d2_lhs0 (i : S400000x128.Idx) (q : dot_S400000x128_S128x128_S400000x128_1_0_0_1_n_n.contr.Idx) : (dot_S400000x128_S128x128_S400000x128_1_0_0_1_n_n.lhsIdx i q 0).val = (i 0).val := by
  unfold DotDims.lhsIdx
  rw [dif_neg (show ¬(0 : Fin S400000x128.rank) ∈ dot_S400000x128_S128x128_S400000x128_1_0_0_1_n_n.lhsBatch by decide), dif_pos (show (0 : Fin S400000x128.rank) ∈ dot_S400000x128_S128x128_S400000x128_1_0_0_1_n_n.lhsNonContracting by decide)]
  rfl
theorem d2_lhs1 (i : S400000x128.Idx) (q : dot_S400000x128_S128x128_S400000x128_1_0_0_1_n_n.contr.Idx) : (dot_S400000x128_S128x128_S400000x128_1_0_0_1_n_n.lhsIdx i q 1).val = (q ⟨0, by decide⟩).val :=
  dot_S400000x128_S128x128_S400000x128_1_0_0_1_n_n.lhsIdx_val_of_single rfl i q
theorem d2_rhs0 (i : S400000x128.Idx) (q : dot_S400000x128_S128x128_S400000x128_1_0_0_1_n_n.contr.Idx) : (dot_S400000x128_S128x128_S400000x128_1_0_0_1_n_n.rhsIdx i q 0).val = (q ⟨0, by decide⟩).val :=
  dot_S400000x128_S128x128_S400000x128_1_0_0_1_n_n.rhsIdx_val_of_single rfl i q
theorem d2_rhs1 (i : S400000x128.Idx) (q : dot_S400000x128_S128x128_S400000x128_1_0_0_1_n_n.contr.Idx) : (dot_S400000x128_S128x128_S400000x128_1_0_0_1_n_n.rhsIdx i q 1).val = (i 1).val := by
  unfold DotDims.rhsIdx
  rw [dif_neg (show ¬(1 : Fin S128x128.rank) ∈ dot_S400000x128_S128x128_S400000x128_1_0_0_1_n_n.rhsBatch by decide), dif_pos (show (1 : Fin S128x128.rank) ∈ dot_S400000x128_S128x128_S400000x128_1_0_0_1_n_n.rhsNonContracting by decide)]
  rfl

/-- The first product at (r, j): the concatenated row r against column j of the weight. -/
theorem dot1_apply (X : FVec Ideal S400000x512 .f32) (W : FVec Ideal S512x128 .f32) (r : Fin 400000) (j : Fin 128) :
    Host.dotGeneral dot_S400000x512_S512x128_S400000x128_1_0_0_1_n_n none X W (ix2 r j) = ∑ q : Fin 512, X (ix2 r q) * W (ix2 q j) := by
  simp only [Host.dotGeneral]
  rw [Ideal.dotGeneral_apply, ← Equiv.sum_comp (contrEquiv1 dot_S400000x512_S512x128_S400000x128_1_0_0_1_n_n 512 rfl rfl).symm]
  refine Finset.sum_congr rfl fun q _ => ?_
  have hq := contrEquiv1_symm_val dot_S400000x512_S512x128_S400000x128_1_0_0_1_n_n 512 rfl rfl q
  have el : dot_S400000x512_S512x128_S400000x128_1_0_0_1_n_n.lhsIdx (ix2 r j) ((contrEquiv1 dot_S400000x512_S512x128_S400000x128_1_0_0_1_n_n 512 rfl rfl).symm q) = ix2 r q := funext fun a => Fin.ext (by
    match a with
    | ⟨0, _⟩ => exact d1_lhs0 _ _
    | ⟨1, _⟩ => exact (d1_lhs1 _ _).trans hq)
  have er : dot_S400000x512_S512x128_S400000x128_1_0_0_1_n_n.rhsIdx (ix2 r j) ((contrEquiv1 dot_S400000x512_S512x128_S400000x128_1_0_0_1_n_n 512 rfl rfl).symm q) = ix2 q j := funext fun a => Fin.ext (by
    match a with
    | ⟨0, _⟩ => exact (d1_rhs0 _ _).trans hq
    | ⟨1, _⟩ => exact d1_rhs1 _ _)
  exact congrArg₂ (· * ·) (congrArg X el) (congrArg W er)

/-- The second product at (r, j): the hidden row r against column j of the 128 × 128 weight. -/
theorem dot2_apply (H : FVec Ideal S400000x128 .f32) (W : FVec Ideal S128x128 .f32) (r : Fin 400000) (j : Fin 128) :
    Host.dotGeneral dot_S400000x128_S128x128_S400000x128_1_0_0_1_n_n none H W (ix2 r j) = ∑ q : Fin 128, H (ix2 r q) * W (ix2 q j) := by
  simp only [Host.dotGeneral]
  rw [Ideal.dotGeneral_apply, ← Equiv.sum_comp (contrEquiv1 dot_S400000x128_S128x128_S400000x128_1_0_0_1_n_n 128 rfl rfl).symm]
  refine Finset.sum_congr rfl fun q _ => ?_
  have hq := contrEquiv1_symm_val dot_S400000x128_S128x128_S400000x128_1_0_0_1_n_n 128 rfl rfl q
  have el : dot_S400000x128_S128x128_S400000x128_1_0_0_1_n_n.lhsIdx (ix2 r j) ((contrEquiv1 dot_S400000x128_S128x128_S400000x128_1_0_0_1_n_n 128 rfl rfl).symm q) = ix2 r q := funext fun a => Fin.ext (by
    match a with
    | ⟨0, _⟩ => exact d2_lhs0 _ _
    | ⟨1, _⟩ => exact (d2_lhs1 _ _).trans hq)
  have er : dot_S400000x128_S128x128_S400000x128_1_0_0_1_n_n.rhsIdx (ix2 r j) ((contrEquiv1 dot_S400000x128_S128x128_S400000x128_1_0_0_1_n_n 128 rfl rfl).symm q) = ix2 q j := funext fun a => Fin.ext (by
    match a with
    | ⟨0, _⟩ => exact (d2_rhs0 _ _).trans hq
    | ⟨1, _⟩ => exact d2_rhs1 _ _)
  exact congrArg₂ (· * ·) (congrArg H el) (congrArg W er)

/-- A length-128 vector broadcast down the rows holds its entry j in column j of every row. -/
theorem col_apply (s : FVec Ideal S128 .f32) (r : Fin 400000) (j : Fin 128) : (broadcastInDim S400000x128 ![0, 1] bcast_S1x128_S400000x128_0_1 (broadcastInDim S1x128 ![1] bcast_S128_S1x128_1 s)) (ix2 r j) = s (ix1 j) := by
  rw [broadcastInDim_apply _ bcast_S1x128_S400000x128_0_1 _ (ix2 r j) (ix2 (0 : Fin 1) j) (fun a => match a with
      | ⟨0, _⟩ => by show (0 : Nat) = if (1 : Nat) = 1 then 0 else r.val; rw [if_pos rfl]
      | ⟨1, _⟩ => by show j.val = if (128 : Nat) = 1 then 0 else j.val; rw [if_neg (by decide)])]
  exact broadcastInDim_apply _ bcast_S128_S1x128_1 s (ix2 (0 : Fin 1) j) (ix1 j) (fun a => match a with
      | ⟨0, _⟩ => by show j.val = if (128 : Nat) = 1 then 0 else j.val; rw [if_neg (by decide)])

/-- The splat of the zero word holds the zero word everywhere. -/
theorem zero_apply (i : S400000x128.Idx) : (broadcastInDim S400000x128 ![] bcast_S_S400000x128 (constant (F := Ideal) S_ .f32 0x00000000#32)) i = zw := rfl

/-- Run 0 of a concatenated row is piece 0's row. -/
theorem cat_run0 (a b c d : FVec Ideal S400000x128 .f32) (r : Fin 400000) (l : Fin 128) :
    cat a b c d (ix2 r (at0 (n := 512) (by decide) l)) = a (ix2 r l) :=
  concatenate_apply_piece (a := 1) [⟨S400000x128, a⟩, ⟨S400000x128, b⟩, ⟨S400000x128, c⟩, ⟨S400000x128, d⟩] concatenates_S400000x128_S400000x128_S400000x128_S400000x128_S400000x512_d1 (ix2 r (at0 (n := 512) (by decide) l)) 0 (by show 0 < 4; decide) S400000x128 a rfl rfl 0 rfl (ix2 r l)
    (fun bb hb => match bb with
      | ⟨0, _⟩ => rfl
      | ⟨1, _⟩ => absurd rfl hb) (Nat.zero_add _)

/-- Run 1 of a concatenated row is piece 1's row. -/
theorem cat_run1 (a b c d : FVec Ideal S400000x128 .f32) (r : Fin 400000) (l : Fin 128) :
    cat a b c d (ix2 r (at1 (n := 512) (by decide) l)) = b (ix2 r l) :=
  concatenate_apply_piece (a := 1) [⟨S400000x128, a⟩, ⟨S400000x128, b⟩, ⟨S400000x128, c⟩, ⟨S400000x128, d⟩] concatenates_S400000x128_S400000x128_S400000x128_S400000x128_S400000x512_d1 (ix2 r (at1 (n := 512) (by decide) l)) 1 (by show 1 < 4; decide) S400000x128 b rfl rfl 128 rfl (ix2 r l)
    (fun bb hb => match bb with
      | ⟨0, _⟩ => rfl
      | ⟨1, _⟩ => absurd rfl hb) rfl

/-- Run 2 of a concatenated row is piece 2's row. -/
theorem cat_run2 (a b c d : FVec Ideal S400000x128 .f32) (r : Fin 400000) (l : Fin 128) :
    cat a b c d (ix2 r (at2 (n := 512) (by decide) l)) = c (ix2 r l) :=
  concatenate_apply_piece (a := 1) [⟨S400000x128, a⟩, ⟨S400000x128, b⟩, ⟨S400000x128, c⟩, ⟨S400000x128, d⟩] concatenates_S400000x128_S400000x128_S400000x128_S400000x128_S400000x512_d1 (ix2 r (at2 (n := 512) (by decide) l)) 2 (by show 2 < 4; decide) S400000x128 c rfl rfl 256 rfl (ix2 r l)
    (fun bb hb => match bb with
      | ⟨0, _⟩ => rfl
      | ⟨1, _⟩ => absurd rfl hb) rfl

/-- Run 3 of a concatenated row is piece 3's row. -/
theorem cat_run3 (a b c d : FVec Ideal S400000x128 .f32) (r : Fin 400000) (l : Fin 128) :
    cat a b c d (ix2 r (at3 (n := 512) (by decide) l)) = d (ix2 r l) :=
  concatenate_apply_piece (a := 1) [⟨S400000x128, a⟩, ⟨S400000x128, b⟩, ⟨S400000x128, c⟩, ⟨S400000x128, d⟩] concatenates_S400000x128_S400000x128_S400000x128_S400000x128_S400000x512_d1 (ix2 r (at3 (n := 512) (by decide) l)) 3 (by show 3 < 4; decide) S400000x128 d rfl rfl 384 rfl (ix2 r l)
    (fun bb hb => match bb with
      | ⟨0, _⟩ => rfl
      | ⟨1, _⟩ => absurd rfl hb) rfl

/-- The hidden layer at (r, n): the first layer of the row perceptron on row r of the operands. -/
theorem hidden_apply (a b c d : FVec Ideal S400000x128 .f32) (W1 : FVec Ideal S512x128 .f32) (s1 t1 : FVec Ideal S128 .f32) (r : Fin 400000) (n : Fin 128) :
    maximumf (addf (mulf (Host.dotGeneral dot_S400000x512_S512x128_S400000x128_1_0_0_1_n_n none (cat a b c d) W1) (broadcastInDim S400000x128 ![0, 1] bcast_S1x128_S400000x128_0_1 (broadcastInDim S1x128 ![1] bcast_S128_S1x128_1 s1))) (broadcastInDim S400000x128 ![0, 1] bcast_S1x128_S400000x128_0_1 (broadcastInDim S1x128 ![1] bcast_S128_S1x128_1 t1))) (broadcastInDim S400000x128 ![] bcast_S_S400000x128 (constant (F := Ideal) S_ .f32 0x00000000#32)) (ix2 r n)
      = hid4 (fun l => a (ix2 r l)) (fun l => b (ix2 r l)) (fun l => c (ix2 r l)) (fun l => d (ix2 r l)) (fun q n => W1 (ix2 q n)) (fun n => s1 (ix1 n)) (fun n => t1 (ix1 n)) n := by
  show max (Host.dotGeneral dot_S400000x512_S512x128_S400000x128_1_0_0_1_n_n none (cat a b c d) W1 (ix2 r n) * (broadcastInDim S400000x128 ![0, 1] bcast_S1x128_S400000x128_0_1 (broadcastInDim S1x128 ![1] bcast_S128_S1x128_1 s1)) (ix2 r n) + (broadcastInDim S400000x128 ![0, 1] bcast_S1x128_S400000x128_0_1 (broadcastInDim S1x128 ![1] bcast_S128_S1x128_1 t1)) (ix2 r n)) ((broadcastInDim S400000x128 ![] bcast_S_S400000x128 (constant (F := Ideal) S_ .f32 0x00000000#32)) (ix2 r n)) = _
  rw [dot1_apply, col_apply, col_apply, zero_apply]
  exact hidCat_eq_hid4 (fun q => cat a b c d (ix2 r q)) (fun l => a (ix2 r l)) (fun l => b (ix2 r l)) (fun l => c (ix2 r l)) (fun l => d (ix2 r l)) (fun q n => W1 (ix2 q n)) (fun n => s1 (ix1 n)) (fun n => t1 (ix1 n)) n
    (cat_run0 a b c d r) (cat_run1 a b c d r) (cat_run2 a b c d r) (cat_run3 a b c d r)

/-- The reference's perceptron at (r, j) is the row perceptron of row r of the operands. -/
theorem mlp_apply (a b c d : FVec Ideal S400000x128 .f32) (W1 : FVec Ideal S512x128 .f32) (s1 t1 : FVec Ideal S128 .f32)
    (W2 : FVec Ideal S128x128 .f32) (s2 t2 : FVec Ideal S128 .f32) (r : Fin 400000) (j : Fin 128) :
    mlp a b c d W1 s1 t1 W2 s2 t2 (ix2 r j)
      = outRow (hid4 (fun l => a (ix2 r l)) (fun l => b (ix2 r l)) (fun l => c (ix2 r l)) (fun l => d (ix2 r l)) (fun q n => W1 (ix2 q n)) (fun n => s1 (ix1 n)) (fun n => t1 (ix1 n))) (fun q n => W2 (ix2 q n)) (fun n => s2 (ix1 n)) (fun n => t2 (ix1 n)) j := by
  unfold mlp
  show max (Host.dotGeneral dot_S400000x128_S128x128_S400000x128_1_0_0_1_n_n none _ W2 (ix2 r j) * (broadcastInDim S400000x128 ![0, 1] bcast_S1x128_S400000x128_0_1 (broadcastInDim S1x128 ![1] bcast_S128_S1x128_1 s2)) (ix2 r j) + (broadcastInDim S400000x128 ![0, 1] bcast_S1x128_S400000x128_0_1 (broadcastInDim S1x128 ![1] bcast_S128_S1x128_1 t2)) (ix2 r j)) ((broadcastInDim S400000x128 ![] bcast_S_S400000x128 (constant (F := Ideal) S_ .f32 0x00000000#32)) (ix2 r j)) = _
  rw [dot2_apply, col_apply, col_apply, zero_apply]
  unfold outRow act
  refine congrArg (fun x => max (x * _ + _) zw) (Finset.sum_congr rfl fun q _ => ?_)
  exact congrArg (· * _) (hidden_apply a b c d W1 s1 t1 r q)

/-- The reference's perceptron IS the row perceptron applied to every row of the operands. -/
theorem mlp_eq (a b c d : FVec Ideal S400000x128 .f32) (W1 : FVec Ideal S512x128 .f32) (s1 t1 : FVec Ideal S128 .f32)
    (W2 : FVec Ideal S128x128 .f32) (s2 t2 : FVec Ideal S128 .f32) :
    mlp a b c d W1 s1 t1 W2 s2 t2 = rows4 a b c d W1 s1 t1 W2 s2 t2 :=
  funext fun y => by
    obtain ⟨r, j, rfl⟩ : ∃ (r : Fin 400000) (j : Fin 128), y = ix2 r j := ⟨y 0, y 1, eq_ix2 y⟩
    exact mlp_apply a b c d W1 s1 t1 W2 s2 t2 r j

end Cert.RefEdgeMlp

end
-- ==== Proof.RefNodeMlp.lean ====
/-
  The reference's node perceptron as a function of ARBITRARY operand arrays (50000 rows), and what it holds at an
  index: row r, column j of the result is the row perceptron (RowMlp) of row r of each of the 3 operands.

  Three readings make it up.  A host dot_general of an [50000, n] array with an [n, 128] weight is, at (r, j), the sum over
  q < n of X (r, q) · W (q, j).  The concatenation along axis 1 of 3 arrays of width 128 holds, at column 128 p + l,
  column l of piece p.  A vector of length 128 broadcast first to [1, 128] and then to [50000, 128] holds, at (r, j), its
  entry j.  With these the first layer is RowMlp.hidCat of the concatenated row, which the block-sum law turns into
  the 3 partial products the kernel adds up.
-/
import proofs.«174078_j47974784696350_1_alg».proof.ReferenceIdeal
import proofs.«174078_j47974784696350_1_alg».proof.Proof.Gen.ReferenceIdeal
import proofs.«174078_j47974784696350_1_alg».proof.Proof.RowMlp
import Idealize.ShloMosaic.Lib.Pipeline.Value
import Idealize.ShloMosaic.Lib.ValueIdx
import Idealize.ShloMosaic.PureOps.Ideal.Laws

noncomputable section

namespace Cert.RefNodeMlp

open Cert.ReferenceIdeal Cert.ReferenceIdeal.Facts₀ Idealize.ShloMosaic Idealize.ShloMosaic.ValueIdx Cert.RowMlp

/-- The 3 operands side by side: an [50000, 384] array. -/
def cat (a b c : FVec Ideal S50000x128 .f32) : FVec Ideal S50000x384 .f32 :=
  concatenate S50000x384 1 [⟨S50000x128, a⟩, ⟨S50000x128, b⟩, ⟨S50000x128, c⟩] concatenates_S50000x128_S50000x128_S50000x128_S50000x384_d1

/-- The reference's perceptron, spelt as its host program spells it. -/
def mlp (a b c : FVec Ideal S50000x128 .f32) (W1 : FVec Ideal S384x128 .f32) (s1 t1 : FVec Ideal S128 .f32)
    (W2 : FVec Ideal S128x128 .f32) (s2 t2 : FVec Ideal S128 .f32) : FVec Ideal S50000x128 .f32 :=
  maximumf (addf (mulf (Host.dotGeneral dot_S50000x128_S128x128_S50000x128_1_0_0_1_n_n none
    (maximumf (addf (mulf (Host.dotGeneral dot_S50000x384_S384x128_S50000x128_1_0_0_1_n_n none (cat a b c) W1) (broadcastInDim S50000x128 ![0, 1] bcast_S1x128_S50000x128_0_1 (broadcastInDim S1x128 ![1] bcast_S128_S1x128_1 s1))) (broadcastInDim S50000x128 ![0, 1] bcast_S1x128_S50000x128_0_1 (broadcastInDim S1x128 ![1] bcast_S128_S1x128_1 t1))) (broadcastInDim S50000x128 ![] bcast_S_S50000x128 (constant (F := Ideal) S_ .f32 0x00000000#32)))
    W2) (broadcastInDim S50000x128 ![0, 1] bcast_S1x128_S50000x128_0_1 (broadcastInDim S1x128 ![1] bcast_S128_S1x128_1 s2))) (broadcastInDim S50000x128 ![0, 1] bcast_S1x128_S50000x128_0_1 (broadcastInDim S1x128 ![1] bcast_S128_S1x128_1 t2))) (broadcastInDim S50000x128 ![] bcast_S_S50000x128 (constant (F := Ideal) S_ .f32 0x00000000#32))

/-! The operand coordinates of the two products: row r of the left operand, column j of the right, the contracted
    coordinate on the other axis. -/

theorem d1_lhs0 (i : S50000x128.Idx) (q : dot_S50000x384_S384x128_S50000x128_1_0_0_1_n_n.contr.Idx) : (dot_S50000x384_S384x128_S50000x128_1_0_0_1_n_n.lhsIdx i q 0).val = (i 0).val := by
  unfold DotDims.lhsIdx
  rw [dif_neg (show ¬(0 : Fin S50000x384.rank) ∈ dot_S50000x384_S384x128_S50000x128_1_0_0_1_n_n.lhsBatch by decide), dif_pos (show (0 : Fin S50000x384.rank) ∈ dot_S50000x384_S384x128_S50000x128_1_0_0_1_n_n.lhsNonContracting by decide)]
  rfl
theorem d1_lhs1 (i : S50000x128.Idx) (q : dot_S50000x384_S384x128_S50000x128_1_0_0_1_n_n.contr.Idx) : (dot_S50000x384_S384x128_S50000x128_1_0_0_1_n_n.lhsIdx i q 1).val = (q ⟨0, by decide⟩).val :=
  dot_S50000x384_S384x128_S50000x128_1_0_0_1_n_n.lhsIdx_val_of_single rfl i q
theorem d1_rhs0 (i : S50000x128.Idx) (q : dot_S50000x384_S384x128_S50000x128_1_0_0_1_n_n.contr.Idx) : (dot_S50000x384_S384x128_S50000x128_1_0_0_1_n_n.rhsIdx i q 0).val = (q ⟨0, by decide⟩).val :=
  dot_S50000x384_S384x128_S50000x128_1_0_0_1_n_n.rhsIdx_val_of_single rfl i q
theorem d1_rhs1 (i : S50000x128.Idx) (q : dot_S50000x384_S384x128_S50000x128_1_0_0_1_n_n.contr.Idx) : (dot_S50000x384_S384x128_S50000x128_1_0_0_1_n_n.rhsIdx i q 1).val = (i 1).val := by
  unfold DotDims.rhsIdx
  rw [dif_neg (show ¬(1 : Fin S384x128.rank) ∈ dot_S50000x384_S384x128_S50000x128_1_0_0_1_n_n.rhsBatch by decide), dif_pos (show (1 : Fin S384x128.rank) ∈ dot_S50000x384_S384x128_S50000x128_1_0_0_1_n_n.rhsNonContracting by decide)]
  rfl

theorem d2_lhs0 (i : S50000x128.Idx) (q : dot_S50000x128_S128x128_S50000x128_1_0_0_1_n_n.contr.Idx) : (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem d2_lhs1 (i : S50000x128.Idx) (q : dot_S50000x128_S128x128_S50000x128_1_0_0_1_n_n.contr.Idx) : (dot_S50000x128_S128x128_S50000x128_1_0_0_1_n_n.lhsIdx i q 1).val = (q ⟨0, by decide⟩).val :=
  dot_S50000x128_S128x128_S50000x128_1_0_0_1_n_n.lhsIdx_val_of_single rfl i q
theorem d2_rhs0 (i : S50000x128.Idx) (q : dot_S50000x128_S128x128_S50000x128_1_0_0_1_n_n.contr.Idx) : (dot_S50000x128_S128x128_S50000x128_1_0_0_1_n_n.rhsIdx i q 0).val = (q ⟨0, by decide⟩).val :=
  dot_S50000x128_S128x128_S50000x128_1_0_0_1_n_n.rhsIdx_val_of_single rfl i q
theorem d2_rhs1 (i : S50000x128.Idx) (q : dot_S50000x128_S128x128_S50000x128_1_0_0_1_n_n.contr.Idx) : (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The first product at (r, j): the concatenated row r against column j of the weight. -/
theorem dot1_apply (X : FVec Ideal S50000x384 .f32) (W : FVec Ideal S384x128 .f32) (r : Fin 50000) (j : Fin 128) :
    Host.dotGeneral dot_S50000x384_S384x128_S50000x128_1_0_0_1_n_n none X W (ix2 r j) = ∑ q : Fin 384, X (ix2 r q) * W (ix2 q j) := by
  simp only [Host.dotGeneral]
  rw [Ideal.dotGeneral_apply, ← Equiv.sum_comp (contrEquiv1 dot_S50000x384_S384x128_S50000x128_1_0_0_1_n_n 384 rfl rfl).symm]
  refine Finset.sum_congr rfl fun q _ => ?_
  have hq := contrEquiv1_symm_val dot_S50000x384_S384x128_S50000x128_1_0_0_1_n_n 384 rfl rfl q
  have el : dot_S50000x384_S384x128_S50000x128_1_0_0_1_n_n.lhsIdx (ix2 r j) ((contrEquiv1 dot_S50000x384_S384x128_S50000x128_1_0_0_1_n_n 384 rfl rfl).symm q) = ix2 r q := funext fun a => Fin.ext (by
    match a with
    | ⟨0, _⟩ => exact d1_lhs0 _ _
    | ⟨1, _⟩ => exact (d1_lhs1 _ _).trans hq)
  have er : dot_S50000x384_S384x128_S50000x128_1_0_0_1_n_n.rhsIdx (ix2 r j) ((contrEquiv1 dot_S50000x384_S384x128_S50000x128_1_0_0_1_n_n 384 rfl rfl).symm q) = ix2 q j := funext fun a => Fin.ext (by
    match a with
    | ⟨0, _⟩ => exact (d1_rhs0 _ _).trans hq
    | ⟨1, _⟩ => exact d1_rhs1 _ _)
  exact congrArg₂ (· * ·) (congrArg X el) (congrArg W er)

/-- The second product at (r, j): the hidden row r against column j of the 128 × 128 weight. -/
theorem dot2_apply (H : FVec Ideal S50000x128 .f32) (W : FVec Ideal S128x128 .f32) (r : Fin 50000) (j : Fin 128) :
    Host.dotGeneral dot_S50000x128_S128x128_S50000x128_1_0_0_1_n_n none H W (ix2 r j) = ∑ q : Fin 128, H (ix2 r q) * W (ix2 q j) := by
  simp only [Host.dotGeneral]
  rw [Ideal.dotGeneral_apply, ← Equiv.sum_comp (contrEquiv1 dot_S50000x128_S128x128_S50000x128_1_0_0_1_n_n 128 rfl rfl).symm]
  refine Finset.sum_congr rfl fun q _ => ?_
  have hq := contrEquiv1_symm_val dot_S50000x128_S128x128_S50000x128_1_0_0_1_n_n 128 rfl rfl q
  have el : dot_S50000x128_S128x128_S50000x128_1_0_0_1_n_n.lhsIdx (ix2 r j) ((contrEquiv1 dot_S50000x128_S128x128_S50000x128_1_0_0_1_n_n 128 rfl rfl).symm q) = ix2 r q := funext fun a => Fin.ext (by
    match a with
    | ⟨0, _⟩ => exact d2_lhs0 _ _
    | ⟨1, _⟩ => exact (d2_lhs1 _ _).trans hq)
  have er : dot_S50000x128_S128x128_S50000x128_1_0_0_1_n_n.rhsIdx (ix2 r j) ((contrEquiv1 dot_S50000x128_S128x128_S50000x128_1_0_0_1_n_n 128 rfl rfl).symm q) = ix2 q j := funext fun a => Fin.ext (by
    match a with
    | ⟨0, _⟩ => exact (d2_rhs0 _ _).trans hq
    | ⟨1, _⟩ => exact d2_rhs1 _ _)
  exact congrArg₂ (· * ·) (congrArg H el) (congrArg W er)

/-- A length-128 vector broadcast down the rows holds its entry j in column j of every row. -/
theorem col_apply (s : FVec Ideal S128 .f32) (r : Fin 50000) (j : Fin 128) : (broadcastInDim S50000x128 ![0, 1] bcast_S1x128_S50000x128_0_1 (broadcastInDim S1x128 ![1] bcast_S128_S1x128_1 s)) (ix2 r j) = s (ix1 j) := by
  rw [broadcastInDim_apply _ bcast_S1x128_S50000x128_0_1 _ (ix2 r j) (ix2 (0 : Fin 1) j) (fun a => match a with
      | ⟨0, _⟩ => by show (0 : Nat) = if (1 : Nat) = 1 then 0 else r.val; rw [if_pos rfl]
      | ⟨1, _⟩ => by show j.val = if (128 : Nat) = 1 then 0 else j.val; rw [if_neg (by decide)])]
  exact broadcastInDim_apply _ bcast_S128_S1x128_1 s (ix2 (0 : Fin 1) j) (ix1 j) (fun a => match a with
      | ⟨0, _⟩ => by show j.val = if (128 : Nat) = 1 then 0 else j.val; rw [if_neg (by decide)])

/-- The splat of the zero word holds the zero word everywhere. -/
theorem zero_apply (i : S50000x128.Idx) : (broadcastInDim S50000x128 ![] bcast_S_S50000x128 (constant (F := Ideal) S_ .f32 0x00000000#32)) i = zw := rfl

/-- Run 0 of a concatenated row is piece 0's row. -/
theorem cat_run0 (a b c : FVec Ideal S50000x128 .f32) (r : Fin 50000) (l : Fin 128) :
    cat a b c (ix2 r (at0 (n := 384) (by decide) l)) = a (ix2 r l) :=
  concatenate_apply_piece (a := 1) [⟨S50000x128, a⟩, ⟨S50000x128, b⟩, ⟨S50000x128, c⟩] concatenates_S50000x128_S50000x128_S50000x128_S50000x384_d1 (ix2 r (at0 (n := 384) (by decide) l)) 0 (by show 0 < 3; decide) S50000x128 a rfl rfl 0 rfl (ix2 r l)
    (fun bb hb => match bb with
      | ⟨0, _⟩ => rfl
      | ⟨1, _⟩ => absurd rfl hb) (Nat.zero_add _)

/-- Run 1 of a concatenated row is piece 1's row. -/
theorem cat_run1 (a b c : FVec Ideal S50000x128 .f32) (r : Fin 50000) (l : Fin 128) :
    cat a b c (ix2 r (at1 (n := 384) (by decide) l)) = b (ix2 r l) :=
  concatenate_apply_piece (a := 1) [⟨S50000x128, a⟩, ⟨S50000x128, b⟩, ⟨S50000x128, c⟩] concatenates_S50000x128_S50000x128_S50000x128_S50000x384_d1 (ix2 r (at1 (n := 384) (by decide) l)) 1 (by show 1 < 3; decide) S50000x128 b rfl rfl 128 rfl (ix2 r l)
    (fun bb hb => match bb with
      | ⟨0, _⟩ => rfl
      | ⟨1, _⟩ => absurd rfl hb) rfl

/-- Run 2 of a concatenated row is piece 2's row. -/
theorem cat_run2 (a b c : FVec Ideal S50000x128 .f32) (r : Fin 50000) (l : Fin 128) :
    cat a b c (ix2 r (at2 (n := 384) (by decide) l)) = c (ix2 r l) :=
  concatenate_apply_piece (a := 1) [⟨S50000x128, a⟩, ⟨S50000x128, b⟩, ⟨S50000x128, c⟩] concatenates_S50000x128_S50000x128_S50000x128_S50000x384_d1 (ix2 r (at2 (n := 384) (by decide) l)) 2 (by show 2 < 3; decide) S50000x128 c rfl rfl 256 rfl (ix2 r l)
    (fun bb hb => match bb with
      | ⟨0, _⟩ => rfl
      | ⟨1, _⟩ => absurd rfl hb) rfl

/-- The hidden layer at (r, n): the first layer of the row perceptron on row r of the operands. -/
theorem hidden_apply (a b c : FVec Ideal S50000x128 .f32) (W1 : FVec Ideal S384x128 .f32) (s1 t1 : FVec Ideal S128 .f32) (r : Fin 50000) (n : Fin 128) :
    maximumf (addf (mulf (Host.dotGeneral dot_S50000x384_S384x128_S50000x128_1_0_0_1_n_n none (cat a b c) W1) (broadcastInDim S50000x128 ![0, 1] bcast_S1x128_S50000x128_0_1 (broadcastInDim S1x128 ![1] bcast_S128_S1x128_1 s1))) (broadcastInDim S50000x128 ![0, 1] bcast_S1x128_S50000x128_0_1 (broadcastInDim S1x128 ![1] bcast_S128_S1x128_1 t1))) (broadcastInDim S50000x128 ![] bcast_S_S50000x128 (constant (F := Ideal) S_ .f32 0x00000000#32)) (ix2 r n)
      = hid3 (fun l => a (ix2 r l)) (fun l => b (ix2 r l)) (fun l => c (ix2 r l)) (fun q n => W1 (ix2 q n)) (fun n => s1 (ix1 n)) (fun n => t1 (ix1 n)) n := by
  show max (Host.dotGeneral dot_S50000x384_S384x128_S50000x128_1_0_0_1_n_n none (cat a b c) W1 (ix2 r n) * (broadcastInDim S50000x128 ![0, 1] bcast_S1x128_S50000x128_0_1 (broadcastInDim S1x128 ![1] bcast_S128_S1x128_1 s1)) (ix2 r n) + (broadcastInDim S50000x128 ![0, 1] bcast_S1x128_S50000x128_0_1 (broadcastInDim S1x128 ![1] bcast_S128_S1x128_1 t1)) (ix2 r n)) ((broadcastInDim S50000x128 ![] bcast_S_S50000x128 (constant (F := Ideal) S_ .f32 0x00000000#32)) (ix2 r n)) = _
  rw [dot1_apply, col_apply, col_apply, zero_apply]
  exact hidCat_eq_hid3 (fun q => cat a b c (ix2 r q)) (fun l => a (ix2 r l)) (fun l => b (ix2 r l)) (fun l => c (ix2 r l)) (fun q n => W1 (ix2 q n)) (fun n => s1 (ix1 n)) (fun n => t1 (ix1 n)) n
    (cat_run0 a b c r) (cat_run1 a b c r) (cat_run2 a b c r)

/-- The reference's perceptron at (r, j) is the row perceptron of row r of the operands. -/
theorem mlp_apply (a b c : FVec Ideal S50000x128 .f32) (W1 : FVec Ideal S384x128 .f32) (s1 t1 : FVec Ideal S128 .f32)
    (W2 : FVec Ideal S128x128 .f32) (s2 t2 : FVec Ideal S128 .f32) (r : Fin 50000) (j : Fin 128) :
    mlp a b c W1 s1 t1 W2 s2 t2 (ix2 r j)
      = outRow (hid3 (fun l => a (ix2 r l)) (fun l => b (ix2 r l)) (fun l => c (ix2 r l)) (fun q n => W1 (ix2 q n)) (fun n => s1 (ix1 n)) (fun n => t1 (ix1 n))) (fun q n => W2 (ix2 q n)) (fun n => s2 (ix1 n)) (fun n => t2 (ix1 n)) j := by
  unfold mlp
  show max (Host.dotGeneral dot_S50000x128_S128x128_S50000x128_1_0_0_1_n_n none _ W2 (ix2 r j) * (broadcastInDim S50000x128 ![0, 1] bcast_S1x128_S50000x128_0_1 (broadcastInDim S1x128 ![1] bcast_S128_S1x128_1 s2)) (ix2 r j) + (broadcastInDim S50000x128 ![0, 1] bcast_S1x128_S50000x128_0_1 (broadcastInDim S1x128 ![1] bcast_S128_S1x128_1 t2)) (ix2 r j)) ((broadcastInDim S50000x128 ![] bcast_S_S50000x128 (constant (F := Ideal) S_ .f32 0x00000000#32)) (ix2 r j)) = _
  rw [dot2_apply, col_apply, col_apply, zero_apply]
  unfold outRow act
  refine congrArg (fun x => max (x * _ + _) zw) (Finset.sum_congr rfl fun q _ => ?_)
  exact congrArg (· * _) (hidden_apply a b c W1 s1 t1 r q)

/-- The reference's perceptron IS the row perceptron applied to every row of the operands. -/
theorem mlp_eq (a b c : FVec Ideal S50000x128 .f32) (W1 : FVec Ideal S384x128 .f32) (s1 t1 : FVec Ideal S128 .f32)
    (W2 : FVec Ideal S128x128 .f32) (s2 t2 : FVec Ideal S128 .f32) :
    mlp a b c W1 s1 t1 W2 s2 t2 = rows3 a b c W1 s1 t1 W2 s2 t2 :=
  funext fun y => by
    obtain ⟨r, j, rfl⟩ : ∃ (r : Fin 50000) (j : Fin 128), y = ix2 r j := ⟨y 0, y 1, eq_ix2 y⟩
    exact mlp_apply a b c W1 s1 t1 W2 s2 t2 r j

end Cert.RefNodeMlp

end
-- ==== Proof.RefGraphMlp.lean ====
/-
  The reference's graph perceptron as a function of ARBITRARY operand arrays (256 rows), and what it holds at an
  index: row r, column j of the result is the row perceptron (RowMlp) of row r of each of the 3 operands.

  Three readings make it up.  A host dot_general of an [256, n] array with an [n, 128] weight is, at (r, j), the sum over
  q < n of X (r, q) · W (q, j).  The concatenation along axis 1 of 3 arrays of width 128 holds, at column 128 p + l,
  column l of piece p.  A vector of length 128 broadcast first to [1, 128] and then to [256, 128] holds, at (r, j), its
  entry j.  With these the first layer is RowMlp.hidCat of the concatenated row, which the block-sum law turns into
  the 3 partial products the kernel adds up.
-/
import proofs.«174078_j47974784696350_1_alg».proof.ReferenceIdeal
import proofs.«174078_j47974784696350_1_alg».proof.Proof.Gen.ReferenceIdeal
import proofs.«174078_j47974784696350_1_alg».proof.Proof.RowMlp
import Idealize.ShloMosaic.Lib.Pipeline.Value
import Idealize.ShloMosaic.Lib.ValueIdx
import Idealize.ShloMosaic.PureOps.Ideal.Laws

noncomputable section

namespace Cert.RefGraphMlp

open Cert.ReferenceIdeal Cert.ReferenceIdeal.Facts₀ Idealize.ShloMosaic Idealize.ShloMosaic.ValueIdx Cert.RowMlp

/-- The 3 operands side by side: an [256, 384] array. -/
def cat (a b c : FVec Ideal S256x128 .f32) : FVec Ideal S256x384 .f32 :=
  concatenate S256x384 1 [⟨S256x128, a⟩, ⟨S256x128, b⟩, ⟨S256x128, c⟩] concatenates_S256x128_S256x128_S256x128_S256x384_d1

/-- The reference's perceptron, spelt as its host program spells it. -/
def mlp (a b c : FVec Ideal S256x128 .f32) (W1 : FVec Ideal S384x128 .f32) (s1 t1 : FVec Ideal S128 .f32)
    (W2 : FVec Ideal S128x128 .f32) (s2 t2 : FVec Ideal S128 .f32) : FVec Ideal S256x128 .f32 :=
  maximumf (addf (mulf (Host.dotGeneral dot_S256x128_S128x128_S256x128_1_0_0_1_n_n none
    (maximumf (addf (mulf (Host.dotGeneral dot_S256x384_S384x128_S256x128_1_0_0_1_n_n none (cat a b c) W1) (broadcastInDim S256x128 ![0, 1] bcast_S1x128_S256x128_0_1 (broadcastInDim S1x128 ![1] bcast_S128_S1x128_1 s1))) (broadcastInDim S256x128 ![0, 1] bcast_S1x128_S256x128_0_1 (broadcastInDim S1x128 ![1] bcast_S128_S1x128_1 t1))) (broadcastInDim S256x128 ![] bcast_S_S256x128 (constant (F := Ideal) S_ .f32 0x00000000#32)))
    W2) (broadcastInDim S256x128 ![0, 1] bcast_S1x128_S256x128_0_1 (broadcastInDim S1x128 ![1] bcast_S128_S1x128_1 s2))) (broadcastInDim S256x128 ![0, 1] bcast_S1x128_S256x128_0_1 (broadcastInDim S1x128 ![1] bcast_S128_S1x128_1 t2))) (broadcastInDim S256x128 ![] bcast_S_S256x128 (constant (F := Ideal) S_ .f32 0x00000000#32))

/-! The operand coordinates of the two products: row r of the left operand, column j of the right, the contracted
    coordinate on the other axis. -/

theorem d1_lhs0 (i : S256x128.Idx) (q : dot_S256x384_S384x128_S256x128_1_0_0_1_n_n.contr.Idx) : (dot_S256x384_S384x128_S256x128_1_0_0_1_n_n.lhsIdx i q 0).val = (i 0).val := by
  unfold DotDims.lhsIdx
  rw [dif_neg (show ¬(0 : Fin S256x384.rank) ∈ dot_S256x384_S384x128_S256x128_1_0_0_1_n_n.lhsBatch by decide), dif_pos (show (0 : Fin S256x384.rank) ∈ dot_S256x384_S384x128_S256x128_1_0_0_1_n_n.lhsNonContracting by decide)]
  rfl
theorem d1_lhs1 (i : S256x128.Idx) (q : dot_S256x384_S384x128_S256x128_1_0_0_1_n_n.contr.Idx) : (dot_S256x384_S384x128_S256x128_1_0_0_1_n_n.lhsIdx i q 1).val = (q ⟨0, by decide⟩).val :=
  dot_S256x384_S384x128_S256x128_1_0_0_1_n_n.lhsIdx_val_of_single rfl i q
theorem d1_rhs0 (i : S256x128.Idx) (q : dot_S256x384_S384x128_S256x128_1_0_0_1_n_n.contr.Idx) : (dot_S256x384_S384x128_S256x128_1_0_0_1_n_n.rhsIdx i q 0).val = (q ⟨0, by decide⟩).val :=
  dot_S256x384_S384x128_S256x128_1_0_0_1_n_n.rhsIdx_val_of_single rfl i q
theorem d1_rhs1 (i : S256x128.Idx) (q : dot_S256x384_S384x128_S256x128_1_0_0_1_n_n.contr.Idx) : (dot_S256x384_S384x128_S256x128_1_0_0_1_n_n.rhsIdx i q 1).val = (i 1).val := by
  unfold DotDims.rhsIdx
  rw [dif_neg (show ¬(1 : Fin S384x128.rank) ∈ dot_S256x384_S384x128_S256x128_1_0_0_1_n_n.rhsBatch by decide), dif_pos (show (1 : Fin S384x128.rank) ∈ dot_S256x384_S384x128_S256x128_1_0_0_1_n_n.rhsNonContracting by decide)]
  rfl

theorem d2_lhs0 (i : S256x128.Idx) (q : dot_S256x128_S128x128_S256x128_1_0_0_1_n_n.contr.Idx) : (dot_S256x128_S128x128_S256x128_1_0_0_1_n_n.lhsIdx i q 0).val = (i 0).val := by
  unfold DotDims.lhsIdx
  rw [dif_neg (show ¬(0 : Fin S256x128.rank) ∈ dot_S256x128_S128x128_S256x128_1_0_0_1_n_n.lhsBatch by decide), dif_pos (show (0 : Fin S256x128.rank) ∈ dot_S256x128_S128x128_S256x128_1_0_0_1_n_n.lhsNonContracting by decide)]
  rfl
theorem d2_lhs1 (i : S256x128.Idx) (q : dot_S256x128_S128x128_S256x128_1_0_0_1_n_n.contr.Idx) : (dot_S256x128_S128x128_S256x128_1_0_0_1_n_n.lhsIdx i q 1).val = (q ⟨0, by decide⟩).val :=
  dot_S256x128_S128x128_S256x128_1_0_0_1_n_n.lhsIdx_val_of_single rfl i q
theorem d2_rhs0 (i : S256x128.Idx) (q : dot_S256x128_S128x128_S256x128_1_0_0_1_n_n.contr.Idx) : (dot_S256x128_S128x128_S256x128_1_0_0_1_n_n.rhsIdx i q 0).val = (q ⟨0, by decide⟩).val :=
  dot_S256x128_S128x128_S256x128_1_0_0_1_n_n.rhsIdx_val_of_single rfl i q
theorem d2_rhs1 (i : S256x128.Idx) (q : dot_S256x128_S128x128_S256x128_1_0_0_1_n_n.contr.Idx) : (dot_S256x128_S128x128_S256x128_1_0_0_1_n_n.rhsIdx i q 1).val = (i 1).val := by
  unfold DotDims.rhsIdx
  rw [dif_neg (show ¬(1 : Fin S128x128.rank) ∈ dot_S256x128_S128x128_S256x128_1_0_0_1_n_n.rhsBatch by decide), dif_pos (show (1 : Fin S128x128.rank) ∈ dot_S256x128_S128x128_S256x128_1_0_0_1_n_n.rhsNonContracting by decide)]
  rfl

/-- The first product at (r, j): the concatenated row r against column j of the weight. -/
theorem dot1_apply (X : FVec Ideal S256x384 .f32) (W : FVec Ideal S384x128 .f32) (r : Fin 256) (j : Fin 128) :
    Host.dotGeneral dot_S256x384_S384x128_S256x128_1_0_0_1_n_n none X W (ix2 r j) = ∑ q : Fin 384, X (ix2 r q) * W (ix2 q j) := by
  simp only [Host.dotGeneral]
  rw [Ideal.dotGeneral_apply, ← Equiv.sum_comp (contrEquiv1 dot_S256x384_S384x128_S256x128_1_0_0_1_n_n 384 rfl rfl).symm]
  refine Finset.sum_congr rfl fun q _ => ?_
  have hq := contrEquiv1_symm_val dot_S256x384_S384x128_S256x128_1_0_0_1_n_n 384 rfl rfl q
  have el : dot_S256x384_S384x128_S256x128_1_0_0_1_n_n.lhsIdx (ix2 r j) ((contrEquiv1 dot_S256x384_S384x128_S256x128_1_0_0_1_n_n 384 rfl rfl).symm q) = ix2 r q := funext fun a => Fin.ext (by
    match a with
    | ⟨0, _⟩ => exact d1_lhs0 _ _
    | ⟨1, _⟩ => exact (d1_lhs1 _ _).trans hq)
  have er : dot_S256x384_S384x128_S256x128_1_0_0_1_n_n.rhsIdx (ix2 r j) ((contrEquiv1 dot_S256x384_S384x128_S256x128_1_0_0_1_n_n 384 rfl rfl).symm q) = ix2 q j := funext fun a => Fin.ext (by
    match a with
    | ⟨0, _⟩ => exact (d1_rhs0 _ _).trans hq
    | ⟨1, _⟩ => exact d1_rhs1 _ _)
  exact congrArg₂ (· * ·) (congrArg X el) (congrArg W er)

/-- The second product at (r, j): the hidden row r against column j of the 128 × 128 weight. -/
theorem dot2_apply (H : FVec Ideal S256x128 .f32) (W : FVec Ideal S128x128 .f32) (r : Fin 256) (j : Fin 128) :
    Host.dotGeneral dot_S256x128_S128x128_S256x128_1_0_0_1_n_n none H W (ix2 r j) = ∑ q : Fin 128, H (ix2 r q) * W (ix2 q j) := by
  simp only [Host.dotGeneral]
  rw [Ideal.dotGeneral_apply, ← Equiv.sum_comp (contrEquiv1 dot_S256x128_S128x128_S256x128_1_0_0_1_n_n 128 rfl rfl).symm]
  refine Finset.sum_congr rfl fun q _ => ?_
  have hq := contrEquiv1_symm_val dot_S256x128_S128x128_S256x128_1_0_0_1_n_n 128 rfl rfl q
  have el : dot_S256x128_S128x128_S256x128_1_0_0_1_n_n.lhsIdx (ix2 r j) ((contrEquiv1 dot_S256x128_S128x128_S256x128_1_0_0_1_n_n 128 rfl rfl).symm q) = ix2 r q := funext fun a => Fin.ext (by
    match a with
    | ⟨0, _⟩ => exact d2_lhs0 _ _
    | ⟨1, _⟩ => exact (d2_lhs1 _ _).trans hq)
  have er : dot_S256x128_S128x128_S256x128_1_0_0_1_n_n.rhsIdx (ix2 r j) ((contrEquiv1 dot_S256x128_S128x128_S256x128_1_0_0_1_n_n 128 rfl rfl).symm q) = ix2 q j := funext fun a => Fin.ext (by
    match a with
    | ⟨0, _⟩ => exact (d2_rhs0 _ _).trans hq
    | ⟨1, _⟩ => exact d2_rhs1 _ _)
  exact congrArg₂ (· * ·) (congrArg H el) (congrArg W er)

/-- A length-128 vector broadcast down the rows holds its entry j in column j of every row. -/
theorem col_apply (s : FVec Ideal S128 .f32) (r : Fin 256) (j : Fin 128) : (broadcastInDim S256x128 ![0, 1] bcast_S1x128_S256x128_0_1 (broadcastInDim S1x128 ![1] bcast_S128_S1x128_1 s)) (ix2 r j) = s (ix1 j) := by
  rw [broadcastInDim_apply _ bcast_S1x128_S256x128_0_1 _ (ix2 r j) (ix2 (0 : Fin 1) j) (fun a => match a with
      | ⟨0, _⟩ => by show (0 : Nat) = if (1 : Nat) = 1 then 0 else r.val; rw [if_pos rfl]
      | ⟨1, _⟩ => by show j.val = if (128 : Nat) = 1 then 0 else j.val; rw [if_neg (by decide)])]
  exact broadcastInDim_apply _ bcast_S128_S1x128_1 s (ix2 (0 : Fin 1) j) (ix1 j) (fun a => match a with
      | ⟨0, _⟩ => by show j.val = if (128 : Nat) = 1 then 0 else j.val; rw [if_neg (by decide)])

/-- The splat of the zero word holds the zero word everywhere. -/
theorem zero_apply (i : S256x128.Idx) : (broadcastInDim S256x128 ![] bcast_S_S256x128 (constant (F := Ideal) S_ .f32 0x00000000#32)) i = zw := rfl

/-- Run 0 of a concatenated row is piece 0's row. -/
theorem cat_run0 (a b c : FVec Ideal S256x128 .f32) (r : Fin 256) (l : Fin 128) :
    cat a b c (ix2 r (at0 (n := 384) (by decide) l)) = a (ix2 r l) :=
  concatenate_apply_piece (a := 1) [⟨S256x128, a⟩, ⟨S256x128, b⟩, ⟨S256x128, c⟩] concatenates_S256x128_S256x128_S256x128_S256x384_d1 (ix2 r (at0 (n := 384) (by decide) l)) 0 (by show 0 < 3; decide) S256x128 a rfl rfl 0 rfl (ix2 r l)
    (fun bb hb => match bb with
      | ⟨0, _⟩ => rfl
      | ⟨1, _⟩ => absurd rfl hb) (Nat.zero_add _)

/-- Run 1 of a concatenated row is piece 1's row. -/
theorem cat_run1 (a b c : FVec Ideal S256x128 .f32) (r : Fin 256) (l : Fin 128) :
    cat a b c (ix2 r (at1 (n := 384) (by decide) l)) = b (ix2 r l) :=
  concatenate_apply_piece (a := 1) [⟨S256x128, a⟩, ⟨S256x128, b⟩, ⟨S256x128, c⟩] concatenates_S256x128_S256x128_S256x128_S256x384_d1 (ix2 r (at1 (n := 384) (by decide) l)) 1 (by show 1 < 3; decide) S256x128 b rfl rfl 128 rfl (ix2 r l)
    (fun bb hb => match bb with
      | ⟨0, _⟩ => rfl
      | ⟨1, _⟩ => absurd rfl hb) rfl

/-- Run 2 of a concatenated row is piece 2's row. -/
theorem cat_run2 (a b c : FVec Ideal S256x128 .f32) (r : Fin 256) (l : Fin 128) :
    cat a b c (ix2 r (at2 (n := 384) (by decide) l)) = c (ix2 r l) :=
  concatenate_apply_piece (a := 1) [⟨S256x128, a⟩, ⟨S256x128, b⟩, ⟨S256x128, c⟩] concatenates_S256x128_S256x128_S256x128_S256x384_d1 (ix2 r (at2 (n := 384) (by decide) l)) 2 (by show 2 < 3; decide) S256x128 c rfl rfl 256 rfl (ix2 r l)
    (fun bb hb => match bb with
      | ⟨0, _⟩ => rfl
      | ⟨1, _⟩ => absurd rfl hb) rfl

/-- The hidden layer at (r, n): the first layer of the row perceptron on row r of the operands. -/
theorem hidden_apply (a b c : FVec Ideal S256x128 .f32) (W1 : FVec Ideal S384x128 .f32) (s1 t1 : FVec Ideal S128 .f32) (r : Fin 256) (n : Fin 128) :
    maximumf (addf (mulf (Host.dotGeneral dot_S256x384_S384x128_S256x128_1_0_0_1_n_n none (cat a b c) W1) (broadcastInDim S256x128 ![0, 1] bcast_S1x128_S256x128_0_1 (broadcastInDim S1x128 ![1] bcast_S128_S1x128_1 s1))) (broadcastInDim S256x128 ![0, 1] bcast_S1x128_S256x128_0_1 (broadcastInDim S1x128 ![1] bcast_S128_S1x128_1 t1))) (broadcastInDim S256x128 ![] bcast_S_S256x128 (constant (F := Ideal) S_ .f32 0x00000000#32)) (ix2 r n)
      = hid3 (fun l => a (ix2 r l)) (fun l => b (ix2 r l)) (fun l => c (ix2 r l)) (fun q n => W1 (ix2 q n)) (fun n => s1 (ix1 n)) (fun n => t1 (ix1 n)) n := by
  show max (Host.dotGeneral dot_S256x384_S384x128_S256x128_1_0_0_1_n_n none (cat a b c) W1 (ix2 r n) * (broadcastInDim S256x128 ![0, 1] bcast_S1x128_S256x128_0_1 (broadcastInDim S1x128 ![1] bcast_S128_S1x128_1 s1)) (ix2 r n) + (broadcastInDim S256x128 ![0, 1] bcast_S1x128_S256x128_0_1 (broadcastInDim S1x128 ![1] bcast_S128_S1x128_1 t1)) (ix2 r n)) ((broadcastInDim S256x128 ![] bcast_S_S256x128 (constant (F := Ideal) S_ .f32 0x00000000#32)) (ix2 r n)) = _
  rw [dot1_apply, col_apply, col_apply, zero_apply]
  exact hidCat_eq_hid3 (fun q => cat a b c (ix2 r q)) (fun l => a (ix2 r l)) (fun l => b (ix2 r l)) (fun l => c (ix2 r l)) (fun q n => W1 (ix2 q n)) (fun n => s1 (ix1 n)) (fun n => t1 (ix1 n)) n
    (cat_run0 a b c r) (cat_run1 a b c r) (cat_run2 a b c r)

/-- The reference's perceptron at (r, j) is the row perceptron of row r of the operands. -/
theorem mlp_apply (a b c : FVec Ideal S256x128 .f32) (W1 : FVec Ideal S384x128 .f32) (s1 t1 : FVec Ideal S128 .f32)
    (W2 : FVec Ideal S128x128 .f32) (s2 t2 : FVec Ideal S128 .f32) (r : Fin 256) (j : Fin 128) :
    mlp a b c W1 s1 t1 W2 s2 t2 (ix2 r j)
      = outRow (hid3 (fun l => a (ix2 r l)) (fun l => b (ix2 r l)) (fun l => c (ix2 r l)) (fun q n => W1 (ix2 q n)) (fun n => s1 (ix1 n)) (fun n => t1 (ix1 n))) (fun q n => W2 (ix2 q n)) (fun n => s2 (ix1 n)) (fun n => t2 (ix1 n)) j := by
  unfold mlp
  show max (Host.dotGeneral dot_S256x128_S128x128_S256x128_1_0_0_1_n_n none _ W2 (ix2 r j) * (broadcastInDim S256x128 ![0, 1] bcast_S1x128_S256x128_0_1 (broadcastInDim S1x128 ![1] bcast_S128_S1x128_1 s2)) (ix2 r j) + (broadcastInDim S256x128 ![0, 1] bcast_S1x128_S256x128_0_1 (broadcastInDim S1x128 ![1] bcast_S128_S1x128_1 t2)) (ix2 r j)) ((broadcastInDim S256x128 ![] bcast_S_S256x128 (constant (F := Ideal) S_ .f32 0x00000000#32)) (ix2 r j)) = _
  rw [dot2_apply, col_apply, col_apply, zero_apply]
  unfold outRow act
  refine congrArg (fun x => max (x * _ + _) zw) (Finset.sum_congr rfl fun q _ => ?_)
  exact congrArg (· * _) (hidden_apply a b c W1 s1 t1 r q)

/-- The reference's perceptron IS the row perceptron applied to every row of the operands. -/
theorem mlp_eq (a b c : FVec Ideal S256x128 .f32) (W1 : FVec Ideal S384x128 .f32) (s1 t1 : FVec Ideal S128 .f32)
    (W2 : FVec Ideal S128x128 .f32) (s2 t2 : FVec Ideal S128 .f32) :
    mlp a b c W1 s1 t1 W2 s2 t2 = rows3 a b c W1 s1 t1 W2 s2 t2 :=
  funext fun y => by
    obtain ⟨r, j, rfl⟩ : ∃ (r : Fin 256) (j : Fin 128), y = ix2 r j := ⟨y 0, y 1, eq_ix2 y⟩
    exact mlp_apply a b c W1 s1 t1 W2 s2 t2 r j

end Cert.RefGraphMlp

end
-- ==== Proof.Results.lean ====
/-
  The three results as functions of the argument arrays — the ONE term both programs' runs are stated with.

  edgeOut: the edge perceptron of (features of the source node, of the destination node, of the edge, of the source's
  graph).  nodeOut: the node perceptron of (node features, mean of the updated edges leaving the node, the node's graph's
  features); it takes the updated edge array E as an operand.  graphOut: the graph perceptron of (mean of the graph's
  updated nodes, mean of its updated edges, graph features); it takes E and the updated node array N.
  The perceptrons are spelt as the reference's host program spells them.
-/
import proofs.«174078_j47974784696350_1_alg».proof.Proof.HostGlue
import proofs.«174078_j47974784696350_1_alg».proof.Proof.RefEdgeMlp
import proofs.«174078_j47974784696350_1_alg».proof.Proof.RefNodeMlp
import proofs.«174078_j47974784696350_1_alg».proof.Proof.RefGraphMlp

noncomputable section

namespace Cert.Results

open Cert.ReferenceIdeal Cert.HostGlue Idealize.ShloMosaic

/-- The updated edge features. -/
def edgeOut (a0 : Fl Ideal S50000x128) (a1 : Fl Ideal S400000x128) (a2 : Fl Ideal S256x128) (a3 : In Ideal S400000x2) (a4 : In Ideal S50000)
    (w5 : Fl Ideal S512x128) (w6 w7 : Fl Ideal S128) (w8 : Fl Ideal S128x128) (w9 w10 : Fl Ideal S128) : Fl Ideal S400000x128 :=
  Cert.RefEdgeMlp.mlp (nodesAt a0 (src a3)) (nodesAt a0 (dst a3)) a1 (globAtE a2 (edgeGraph a3 a4)) w5 w6 w7 w8 w9 w10

/-- The updated node features, from the updated edge features E. -/
def nodeOut (a0 : Fl Ideal S50000x128) (a2 : Fl Ideal S256x128) (a3 : In Ideal S400000x2) (a4 : In Ideal S50000) (E : Fl Ideal S400000x128)
    (w11 : Fl Ideal S384x128) (w12 w13 : Fl Ideal S128) (w14 : Fl Ideal S128x128) (w15 w16 : Fl Ideal S128) : Fl Ideal S50000x128 :=
  Cert.RefNodeMlp.mlp a0 (edgesToNodes (src a3) E) (globAtN a2 a4) w11 w12 w13 w14 w15 w16

/-- The updated graph features, from the updated edge features E and node features N. -/
def graphOut (a2 : Fl Ideal S256x128) (a3 : In Ideal S400000x2) (a4 : In Ideal S50000) (E : Fl Ideal S400000x128) (N : Fl Ideal S50000x128)
    (w17 : Fl Ideal S384x128) (w18 w19 : Fl Ideal S128) (w20 : Fl Ideal S128x128) (w21 w22 : Fl Ideal S128) : Fl Ideal S256x128 :=
  Cert.RefGraphMlp.mlp (nodesToGraphs a4 N) (edgesToGraphs (edgeGraph a3 a4) E) a2 w17 w18 w19 w20 w21 w22

end Cert.Results

end
-- ==== Proof.FoldEdge.lean ====
/-
  The kernel program's buffers at its first two segment boundaries, as functions of the arguments.

  After the first stretch of host operations (W1): the per-edge source indices, the per-edge graph indices, and the three
  gathered operand arrays are the glue functions of the arguments; the arguments are as launched.  After the edge
  kernel (W2): its output array is the row perceptron of the operand arrays it was entered with, which is the reference's
  edge perceptron of the same operands (the block-sum law) — edgeOut of the arguments; every buffer the kernel does not
  own is as it was.
-/
import proofs.«174078_j47974784696350_1_alg».proof.Proof.Gen.KernelIdeal.Frame
import proofs.«174078_j47974784696350_1_alg».proof.Proof.KerEdgeArray
import proofs.«174078_j47974784696350_1_alg».proof.Proof.Results

set_option maxRecDepth 16384

noncomputable section

namespace Cert.KernelFold

open Cert.KernelIdeal Cert.KernelIdeal.Gen Cert.HostGlue Cert.Results
open Idealize.ShloMosaic Idealize.ShloMosaic.TcCoe Idealize.ShloMosaic.StableHlo Idealize.SL.Sem

variable (m : (ℓ : Loc nD τ sig) → Buf (Elt Ideal) ℓ) (ρ : Dev nD → PrngReg)

/-! ## After the first stretch of host operations -/

theorem W1_main_v1 (c : Dev nD) : W1 m ρ c (Proc.devRef .tc main_v1) = src (m ((c : Thread nD τ).loc main_arg3)) := by
  dsimp only [W1, hostOps0]; after_results_simp <;> rfl
theorem W1_main_v10 (c : Dev nD) : W1 m ρ c (Proc.devRef .tc main_v10) = edgeGraph (m ((c : Thread nD τ).loc main_arg3)) (m ((c : Thread nD τ).loc main_arg4)) := by
  dsimp only [W1, hostOps0]; after_results_simp <;> rfl
theorem W1_main_v17 (c : Dev nD) : W1 m ρ c (Proc.devRef .tc main_v17) = nodesAt (m ((c : Thread nD τ).loc main_arg0)) (src (m ((c : Thread nD τ).loc main_arg3))) := by
  dsimp only [W1, hostOps0]; after_results_simp <;> rfl
theorem W1_main_v24 (c : Dev nD) : W1 m ρ c (Proc.devRef .tc main_v24) = nodesAt (m ((c : Thread nD τ).loc main_arg0)) (dst (m ((c : Thread nD τ).loc main_arg3))) := by
  dsimp only [W1, hostOps0]; after_results_simp <;> rfl
theorem W1_main_v31 (c : Dev nD) : W1 m ρ c (Proc.devRef .tc main_v31) = globAtE (m ((c : Thread nD τ).loc main_arg2)) (edgeGraph (m ((c : Thread nD τ).loc main_arg3)) (m ((c : Thread nD τ).loc main_arg4))) := by
  dsimp only [W1, hostOps0]; after_results_simp <;> rfl
theorem W1_main_arg0 (c : Dev nD) : W1 m ρ c (Proc.devRef .tc main_arg0) = (m ((c : Thread nD τ).loc main_arg0)) := by
  dsimp only [W1, hostOps0]; after_results_simp <;> rfl
theorem W1_main_arg1 (c : Dev nD) : W1 m ρ c (Proc.devRef .tc main_arg1) = (m ((c : Thread nD τ).loc main_arg1)) := by
  dsimp only [W1, hostOps0]; after_results_simp <;> rfl
theorem W1_main_arg2 (c : Dev nD) : W1 m ρ c (Proc.devRef .tc main_arg2) = (m ((c : Thread nD τ).loc main_arg2)) := by
  dsimp only [W1, hostOps0]; after_results_simp <;> rfl
theorem W1_main_arg4 (c : Dev nD) : W1 m ρ c (Proc.devRef .tc main_arg4) = (m ((c : Thread nD τ).loc main_arg4)) := by
  dsimp only [W1, hostOps0]; after_results_simp <;> rfl
theorem W1_main_arg5 (c : Dev nD) : W1 m ρ c (Proc.devRef .tc main_arg5) = (m ((c : Thread nD τ).loc main_arg5)) := by
  dsimp only [W1, hostOps0]; after_results_simp <;> rfl
theorem W1_main_arg6 (c : Dev nD) : W1 m ρ c (Proc.devRef .tc main_arg6) = (m ((c : Thread nD τ).loc main_arg6)) := by
  dsimp only [W1, hostOps0]; after_results_simp <;> rfl
theorem W1_main_arg7 (c : Dev nD) : W1 m ρ c (Proc.devRef .tc main_arg7) = (m ((c : Thread nD τ).loc main_arg7)) := by
  dsimp only [W1, hostOps0]; after_results_simp <;> rfl
theorem W1_main_arg8 (c : Dev nD) : W1 m ρ c (Proc.devRef .tc main_arg8) = (m ((c : Thread nD τ).loc main_arg8)) := by
  dsimp only [W1, hostOps0]; after_results_simp <;> rfl
theorem W1_main_arg9 (c : Dev nD) : W1 m ρ c (Proc.devRef .tc main_arg9) = (m ((c : Thread nD τ).loc main_arg9)) := by
  dsimp only [W1, hostOps0]; after_results_simp <;> rfl
theorem W1_main_arg10 (c : Dev nD) : W1 m ρ c (Proc.devRef .tc main_arg10) = (m ((c : Thread nD τ).loc main_arg10)) := by
  dsimp only [W1, hostOps0]; after_results_simp <;> rfl
theorem W1_main_arg11 (c : Dev nD) : W1 m ρ c (Proc.devRef .tc main_arg11) = (m ((c : Thread nD τ).loc main_arg11)) := by
  dsimp only [W1, hostOps0]; after_results_simp <;> rfl
theorem W1_main_arg12 (c : Dev nD) : W1 m ρ c (Proc.devRef .tc main_arg12) = (m ((c : Thread nD τ).loc main_arg12)) := by
  dsimp only [W1, hostOps0]; after_results_simp <;> rfl
theorem W1_main_arg13 (c : Dev nD) : W1 m ρ c (Proc.devRef .tc main_arg13) = (m ((c : Thread nD τ).loc main_arg13)) := by
  dsimp only [W1, hostOps0]; after_results_simp <;> rfl
theorem W1_main_arg14 (c : Dev nD) : W1 m ρ c (Proc.devRef .tc main_arg14) = (m ((c : Thread nD τ).loc main_arg14)) := by
  dsimp only [W1, hostOps0]; after_results_simp <;> rfl
theorem W1_main_arg15 (c : Dev nD) : W1 m ρ c (Proc.devRef .tc main_arg15) = (m ((c : Thread nD τ).loc main_arg15)) := by
  dsimp only [W1, hostOps0]; after_results_simp <;> rfl
theorem W1_main_arg16 (c : Dev nD) : W1 m ρ c (Proc.devRef .tc main_arg16) = (m ((c : Thread nD τ).loc main_arg16)) := by
  dsimp only [W1, hostOps0]; after_results_simp <;> rfl
theorem W1_main_arg17 (c : Dev nD) : W1 m ρ c (Proc.devRef .tc main_arg17) = (m ((c : Thread nD τ).loc main_arg17)) := by
  dsimp only [W1, hostOps0]; after_results_simp <;> rfl
theorem W1_main_arg18 (c : Dev nD) : W1 m ρ c (Proc.devRef .tc main_arg18) = (m ((c : Thread nD τ).loc main_arg18)) := by
  dsimp only [W1, hostOps0]; after_results_simp <;> rfl
theorem W1_main_arg19 (c : Dev nD) : W1 m ρ c (Proc.devRef .tc main_arg19) = (m ((c : Thread nD τ).loc main_arg19)) := by
  dsimp only [W1, hostOps0]; after_results_simp <;> rfl
theorem W1_main_arg20 (c : Dev nD) : W1 m ρ c (Proc.devRef .tc main_arg20) = (m ((c : Thread nD τ).loc main_arg20)) := by
  dsimp only [W1, hostOps0]; after_results_simp <;> rfl
theorem W1_main_arg21 (c : Dev nD) : W1 m ρ c (Proc.devRef .tc main_arg21) = (m ((c : Thread nD τ).loc main_arg21)) := by
  dsimp only [W1, hostOps0]; after_results_simp <;> rfl
theorem W1_main_arg22 (c : Dev nD) : W1 m ρ c (Proc.devRef .tc main_arg22) = (m ((c : Thread nD τ).loc main_arg22)) := by
  dsimp only [W1, hostOps0]; after_results_simp <;> rfl

/-! ## After the edge kernel -/

/-- The edge kernel's output array is edgeOut of the arguments. -/
theorem W2_main_v32 (c : Dev nD) : W2 m ρ c (Proc.devRef .tc main_v32) = edgeOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W2_arr m ρ c 10).trans ?_
  rw [Cert.KerEdgeArray.array_eq (V1 m ρ) c]
  unfold Cert.KerEdgeArray.G Cert.Results.edgeOut
  rw [Cert.RefEdgeMlp.mlp_eq]
  show Cert.RowMlp.rows4 (W1 m ρ c (Proc.devRef .tc main_v17)) (W1 m ρ c (Proc.devRef .tc main_v24)) (W1 m ρ c (Proc.devRef .tc main_arg1)) (W1 m ρ c (Proc.devRef .tc main_v31)) (W1 m ρ c (Proc.devRef .tc main_arg5)) (W1 m ρ c (Proc.devRef .tc main_arg6)) (W1 m ρ c (Proc.devRef .tc main_arg7)) (W1 m ρ c (Proc.devRef .tc main_arg8)) (W1 m ρ c (Proc.devRef .tc main_arg9)) (W1 m ρ c (Proc.devRef .tc main_arg10)) = _
  rw [W1_main_v17 m ρ c, W1_main_v24 m ρ c, W1_main_arg1 m ρ c, W1_main_v31 m ρ c, W1_main_arg5 m ρ c, W1_main_arg6 m ρ c, W1_main_arg7 m ρ c, W1_main_arg8 m ρ c, W1_main_arg9 m ρ c, W1_main_arg10 m ρ c]

theorem W2_main_v1 (c : Dev nD) : W2 m ρ c (Proc.devRef .tc main_v1) = src (m ((c : Thread nD τ).loc main_arg3)) :=
  (W2_of_ne m ρ c main_v1 (by decide)).trans (W1_main_v1 m ρ c)
theorem W2_main_v10 (c : Dev nD) : W2 m ρ c (Proc.devRef .tc main_v10) = edgeGraph (m ((c : Thread nD τ).loc main_arg3)) (m ((c : Thread nD τ).loc main_arg4)) :=
  (W2_of_ne m ρ c main_v10 (by decide)).trans (W1_main_v10 m ρ c)
theorem W2_main_arg0 (c : Dev nD) : W2 m ρ c (Proc.devRef .tc main_arg0) = (m ((c : Thread nD τ).loc main_arg0)) :=
  (W2_of_ne m ρ c main_arg0 (by decide)).trans (W1_main_arg0 m ρ c)
theorem W2_main_arg2 (c : Dev nD) : W2 m ρ c (Proc.devRef .tc main_arg2) = (m ((c : Thread nD τ).loc main_arg2)) :=
  (W2_of_ne m ρ c main_arg2 (by decide)).trans (W1_main_arg2 m ρ c)
theorem W2_main_arg4 (c : Dev nD) : W2 m ρ c (Proc.devRef .tc main_arg4) = (m ((c : Thread nD τ).loc main_arg4)) :=
  (W2_of_ne m ρ c main_arg4 (by decide)).trans (W1_main_arg4 m ρ c)
theorem W2_main_arg11 (c : Dev nD) : W2 m ρ c (Proc.devRef .tc main_arg11) = (m ((c : Thread nD τ).loc main_arg11)) :=
  (W2_of_ne m ρ c main_arg11 (by decide)).trans (W1_main_arg11 m ρ c)
theorem W2_main_arg12 (c : Dev nD) : W2 m ρ c (Proc.devRef .tc main_arg12) = (m ((c : Thread nD τ).loc main_arg12)) :=
  (W2_of_ne m ρ c main_arg12 (by decide)).trans (W1_main_arg12 m ρ c)
theorem W2_main_arg13 (c : Dev nD) : W2 m ρ c (Proc.devRef .tc main_arg13) = (m ((c : Thread nD τ).loc main_arg13)) :=
  (W2_of_ne m ρ c main_arg13 (by decide)).trans (W1_main_arg13 m ρ c)
theorem W2_main_arg14 (c : Dev nD) : W2 m ρ c (Proc.devRef .tc main_arg14) = (m ((c : Thread nD τ).loc main_arg14)) :=
  (W2_of_ne m ρ c main_arg14 (by decide)).trans (W1_main_arg14 m ρ c)
theorem W2_main_arg15 (c : Dev nD) : W2 m ρ c (Proc.devRef .tc main_arg15) = (m ((c : Thread nD τ).loc main_arg15)) :=
  (W2_of_ne m ρ c main_arg15 (by decide)).trans (W1_main_arg15 m ρ c)
theorem W2_main_arg16 (c : Dev nD) : W2 m ρ c (Proc.devRef .tc main_arg16) = (m ((c : Thread nD τ).loc main_arg16)) :=
  (W2_of_ne m ρ c main_arg16 (by decide)).trans (W1_main_arg16 m ρ c)
theorem W2_main_arg17 (c : Dev nD) : W2 m ρ c (Proc.devRef .tc main_arg17) = (m ((c : Thread nD τ).loc main_arg17)) :=
  (W2_of_ne m ρ c main_arg17 (by decide)).trans (W1_main_arg17 m ρ c)
theorem W2_main_arg18 (c : Dev nD) : W2 m ρ c (Proc.devRef .tc main_arg18) = (m ((c : Thread nD τ).loc main_arg18)) :=
  (W2_of_ne m ρ c main_arg18 (by decide)).trans (W1_main_arg18 m ρ c)
theorem W2_main_arg19 (c : Dev nD) : W2 m ρ c (Proc.devRef .tc main_arg19) = (m ((c : Thread nD τ).loc main_arg19)) :=
  (W2_of_ne m ρ c main_arg19 (by decide)).trans (W1_main_arg19 m ρ c)
theorem W2_main_arg20 (c : Dev nD) : W2 m ρ c (Proc.devRef .tc main_arg20) = (m ((c : Thread nD τ).loc main_arg20)) :=
  (W2_of_ne m ρ c main_arg20 (by decide)).trans (W1_main_arg20 m ρ c)
theorem W2_main_arg21 (c : Dev nD) : W2 m ρ c (Proc.devRef .tc main_arg21) = (m ((c : Thread nD τ).loc main_arg21)) :=
  (W2_of_ne m ρ c main_arg21 (by decide)).trans (W1_main_arg21 m ρ c)
theorem W2_main_arg22 (c : Dev nD) : W2 m ρ c (Proc.devRef .tc main_arg22) = (m ((c : Thread nD τ).loc main_arg22)) :=
  (W2_of_ne m ρ c main_arg22 (by decide)).trans (W1_main_arg22 m ρ c)

end Cert.KernelFold

end
-- ==== Proof.FoldNode.lean ====
/-
  The kernel program's buffers at its third and fourth segment boundaries, as functions of the arguments.

  The second stretch of host operations (W3) computes, from the edge kernel's output, the mean of the updated edges leaving
  each node, and gathers each node's graph's features; everything else it leaves.  After the node kernel (W4) its output
  array is the row perceptron of its three operand arrays, hence nodeOut of the arguments.
-/
import proofs.«174078_j47974784696350_1_alg».proof.Proof.Gen.KernelIdeal.Frame
import proofs.«174078_j47974784696350_1_alg».proof.Proof.KerNodeArray
import proofs.«174078_j47974784696350_1_alg».proof.Proof.FoldEdge
import proofs.«174078_j47974784696350_1_alg».proof.Proof.Results

set_option maxRecDepth 16384

noncomputable section

namespace Cert.KernelFold

open Cert.KernelIdeal Cert.KernelIdeal.Gen Cert.HostGlue Cert.Results
open Idealize.ShloMosaic Idealize.ShloMosaic.TcCoe Idealize.ShloMosaic.StableHlo Idealize.SL.Sem

variable (m : (ℓ : Loc nD τ sig) → Buf (Elt Ideal) ℓ) (ρ : Dev nD → PrngReg)

/-! ## After the second stretch of host operations -/

theorem W3_main_v44 (c : Dev nD) : W3 m ρ c (Proc.devRef .tc main_v44) = edgesToNodes (src (m ((c : Thread nD τ).loc main_arg3))) (edgeOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  dsimp only [W3, hostOps1]; after_results_simp
  rw [W2_main_v32 m ρ c, W2_main_v1 m ρ c]; rfl
theorem W3_main_v51 (c : Dev nD) : W3 m ρ c (Proc.devRef .tc main_v51) = globAtN (m ((c : Thread nD τ).loc main_arg2)) (m ((c : Thread nD τ).loc main_arg4)) := by
  dsimp only [W3, hostOps1]; after_results_simp
  rw [W2_main_arg2 m ρ c, W2_main_arg4 m ρ c]; rfl
theorem W3_main_arg0 (c : Dev nD) : W3 m ρ c (Proc.devRef .tc main_arg0) = (m ((c : Thread nD τ).loc main_arg0)) := by
  dsimp only [W3, hostOps1]; after_results_simp; exact W2_main_arg0 m ρ c
theorem W3_main_arg11 (c : Dev nD) : W3 m ρ c (Proc.devRef .tc main_arg11) = (m ((c : Thread nD τ).loc main_arg11)) := by
  dsimp only [W3, hostOps1]; after_results_simp; exact W2_main_arg11 m ρ c
theorem W3_main_arg12 (c : Dev nD) : W3 m ρ c (Proc.devRef .tc main_arg12) = (m ((c : Thread nD τ).loc main_arg12)) := by
  dsimp only [W3, hostOps1]; after_results_simp; exact W2_main_arg12 m ρ c
theorem W3_main_arg13 (c : Dev nD) : W3 m ρ c (Proc.devRef .tc main_arg13) = (m ((c : Thread nD τ).loc main_arg13)) := by
  dsimp only [W3, hostOps1]; after_results_simp; exact W2_main_arg13 m ρ c
theorem W3_main_arg14 (c : Dev nD) : W3 m ρ c (Proc.devRef .tc main_arg14) = (m ((c : Thread nD τ).loc main_arg14)) := by
  dsimp only [W3, hostOps1]; after_results_simp; exact W2_main_arg14 m ρ c
theorem W3_main_arg15 (c : Dev nD) : W3 m ρ c (Proc.devRef .tc main_arg15) = (m ((c : Thread nD τ).loc main_arg15)) := by
  dsimp only [W3, hostOps1]; after_results_simp; exact W2_main_arg15 m ρ c
theorem W3_main_arg16 (c : Dev nD) : W3 m ρ c (Proc.devRef .tc main_arg16) = (m ((c : Thread nD τ).loc main_arg16)) := by
  dsimp only [W3, hostOps1]; after_results_simp; exact W2_main_arg16 m ρ c
theorem W3_main_arg4 (c : Dev nD) : W3 m ρ c (Proc.devRef .tc main_arg4) = (m ((c : Thread nD τ).loc main_arg4)) := by
  dsimp only [W3, hostOps1]; after_results_simp; exact W2_main_arg4 m ρ c
theorem W3_main_v10 (c : Dev nD) : W3 m ρ c (Proc.devRef .tc main_v10) = edgeGraph (m ((c : Thread nD τ).loc main_arg3)) (m ((c : Thread nD τ).loc main_arg4)) := by
  dsimp only [W3, hostOps1]; after_results_simp; exact W2_main_v10 m ρ c
theorem W3_main_v32 (c : Dev nD) : W3 m ρ c (Proc.devRef .tc main_v32) = edgeOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  dsimp only [W3, hostOps1]; after_results_simp; exact W2_main_v32 m ρ c
theorem W3_main_arg2 (c : Dev nD) : W3 m ρ c (Proc.devRef .tc main_arg2) = (m ((c : Thread nD τ).loc main_arg2)) := by
  dsimp only [W3, hostOps1]; after_results_simp; exact W2_main_arg2 m ρ c
theorem W3_main_arg17 (c : Dev nD) : W3 m ρ c (Proc.devRef .tc main_arg17) = (m ((c : Thread nD τ).loc main_arg17)) := by
  dsimp only [W3, hostOps1]; after_results_simp; exact W2_main_arg17 m ρ c
theorem W3_main_arg18 (c : Dev nD) : W3 m ρ c (Proc.devRef .tc main_arg18) = (m ((c : Thread nD τ).loc main_arg18)) := by
  dsimp only [W3, hostOps1]; after_results_simp; exact W2_main_arg18 m ρ c
theorem W3_main_arg19 (c : Dev nD) : W3 m ρ c (Proc.devRef .tc main_arg19) = (m ((c : Thread nD τ).loc main_arg19)) := by
  dsimp only [W3, hostOps1]; after_results_simp; exact W2_main_arg19 m ρ c
theorem W3_main_arg20 (c : Dev nD) : W3 m ρ c (Proc.devRef .tc main_arg20) = (m ((c : Thread nD τ).loc main_arg20)) := by
  dsimp only [W3, hostOps1]; after_results_simp; exact W2_main_arg20 m ρ c
theorem W3_main_arg21 (c : Dev nD) : W3 m ρ c (Proc.devRef .tc main_arg21) = (m ((c : Thread nD τ).loc main_arg21)) := by
  dsimp only [W3, hostOps1]; after_results_simp; exact W2_main_arg21 m ρ c
theorem W3_main_arg22 (c : Dev nD) : W3 m ρ c (Proc.devRef .tc main_arg22) = (m ((c : Thread nD τ).loc main_arg22)) := by
  dsimp only [W3, hostOps1]; after_results_simp; exact W2_main_arg22 m ρ c

/-! ## After the node kernel -/

/-- The node kernel's output array is nodeOut of the arguments. -/
theorem W4_main_v52 (c : Dev nD) : W4 m ρ c (Proc.devRef .tc main_v52) = nodeOut (m ((c : Thread nD τ).loc main_arg0)) (m ((c : Thread nD τ).loc main_arg2)) (m ((c : Thread nD τ).loc main_arg3)) (m ((c : Thread nD τ).loc main_arg4)) (edgeOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W4_arr m ρ c 9).trans ?_
  rw [Cert.KerNodeArray.array_eq (V3 m ρ) c]
  unfold Cert.KerNodeArray.G Cert.Results.nodeOut
  rw [Cert.RefNodeMlp.mlp_eq]
  show Cert.RowMlp.rows3 (W3 m ρ c (Proc.devRef .tc main_arg0)) (W3 m ρ c (Proc.devRef .tc main_v44)) (W3 m ρ c (Proc.devRef .tc main_v51)) (W3 m ρ c (Proc.devRef .tc main_arg11)) (W3 m ρ c (Proc.devRef .tc main_arg12)) (W3 m ρ c (Proc.devRef .tc main_arg13)) (W3 m ρ c (Proc.devRef .tc main_arg14)) (W3 m ρ c (Proc.devRef .tc main_arg15)) (W3 m ρ c (Proc.devRef .tc main_arg16)) = _
  rw [W3_main_arg0 m ρ c, W3_main_v44 m ρ c, W3_main_v51 m ρ c, W3_main_arg11 m ρ c, W3_main_arg12 m ρ c, W3_main_arg13 m ρ c, W3_main_arg14 m ρ c, W3_main_arg15 m ρ c, W3_main_arg16 m ρ c]

theorem W4_main_arg4 (c : Dev nD) : W4 m ρ c (Proc.devRef .tc main_arg4) = (m ((c : Thread nD τ).loc main_arg4)) :=
  (W4_of_ne m ρ c main_arg4 (by decide)).trans (W3_main_arg4 m ρ c)
theorem W4_main_v10 (c : Dev nD) : W4 m ρ c (Proc.devRef .tc main_v10) = edgeGraph (m ((c : Thread nD τ).loc main_arg3)) (m ((c : Thread nD τ).loc main_arg4)) :=
  (W4_of_ne m ρ c main_v10 (by decide)).trans (W3_main_v10 m ρ c)
theorem W4_main_v32 (c : Dev nD) : W4 m ρ c (Proc.devRef .tc main_v32) = edgeOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W4_of_ne m ρ c main_v32 (by decide)).trans (W3_main_v32 m ρ c)
theorem W4_main_arg2 (c : Dev nD) : W4 m ρ c (Proc.devRef .tc main_arg2) = (m ((c : Thread nD τ).loc main_arg2)) :=
  (W4_of_ne m ρ c main_arg2 (by decide)).trans (W3_main_arg2 m ρ c)
theorem W4_main_arg17 (c : Dev nD) : W4 m ρ c (Proc.devRef .tc main_arg17) = (m ((c : Thread nD τ).loc main_arg17)) :=
  (W4_of_ne m ρ c main_arg17 (by decide)).trans (W3_main_arg17 m ρ c)
theorem W4_main_arg18 (c : Dev nD) : W4 m ρ c (Proc.devRef .tc main_arg18) = (m ((c : Thread nD τ).loc main_arg18)) :=
  (W4_of_ne m ρ c main_arg18 (by decide)).trans (W3_main_arg18 m ρ c)
theorem W4_main_arg19 (c : Dev nD) : W4 m ρ c (Proc.devRef .tc main_arg19) = (m ((c : Thread nD τ).loc main_arg19)) :=
  (W4_of_ne m ρ c main_arg19 (by decide)).trans (W3_main_arg19 m ρ c)
theorem W4_main_arg20 (c : Dev nD) : W4 m ρ c (Proc.devRef .tc main_arg20) = (m ((c : Thread nD τ).loc main_arg20)) :=
  (W4_of_ne m ρ c main_arg20 (by decide)).trans (W3_main_arg20 m ρ c)
theorem W4_main_arg21 (c : Dev nD) : W4 m ρ c (Proc.devRef .tc main_arg21) = (m ((c : Thread nD τ).loc main_arg21)) :=
  (W4_of_ne m ρ c main_arg21 (by decide)).trans (W3_main_arg21 m ρ c)
theorem W4_main_arg22 (c : Dev nD) : W4 m ρ c (Proc.devRef .tc main_arg22) = (m ((c : Thread nD τ).loc main_arg22)) :=
  (W4_of_ne m ρ c main_arg22 (by decide)).trans (W3_main_arg22 m ρ c)

end Cert.KernelFold

end
-- ==== Proof.FoldGraph.lean ====
/-
  The kernel program's buffers at its last two segment boundaries, as functions of the arguments: the three results.

  The third stretch of host operations (W5) computes the mean of each graph's updated nodes and of its updated edges.
  After the graph kernel (W6, the contents the program returns with) its output array is graphOut of the arguments; the
  node and edge results are still what their kernels left.
-/
import proofs.«174078_j47974784696350_1_alg».proof.Proof.Gen.KernelIdeal.Frame
import proofs.«174078_j47974784696350_1_alg».proof.Proof.KerGraphArray
import proofs.«174078_j47974784696350_1_alg».proof.Proof.FoldNode
import proofs.«174078_j47974784696350_1_alg».proof.Proof.Results

set_option maxRecDepth 16384

noncomputable section

namespace Cert.KernelFold

open Cert.KernelIdeal Cert.KernelIdeal.Gen Cert.HostGlue Cert.Results
open Idealize.ShloMosaic Idealize.ShloMosaic.TcCoe Idealize.ShloMosaic.StableHlo Idealize.SL.Sem

variable (m : (ℓ : Loc nD τ sig) → Buf (Elt Ideal) ℓ) (ρ : Dev nD → PrngReg)

/-! ## After the third stretch of host operations -/

theorem W5_main_v64 (c : Dev nD) : W5 m ρ c (Proc.devRef .tc main_v64) = nodesToGraphs (m ((c : Thread nD τ).loc main_arg4)) (nodeOut (m ((c : Thread nD τ).loc main_arg0)) (m ((c : Thread nD τ).loc main_arg2)) (m ((c : Thread nD τ).loc main_arg3)) (m ((c : Thread nD τ).loc main_arg4)) (edgeOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) := by
  dsimp only [W5, hostOps2]; after_results_simp
  rw [W4_main_arg4 m ρ c, W4_main_v52 m ρ c]; rfl
theorem W5_main_v76 (c : Dev nD) : W5 m ρ c (Proc.devRef .tc main_v76) = edgesToGraphs (edgeGraph (m ((c : Thread nD τ).loc main_arg3)) (m ((c : Thread nD τ).loc main_arg4))) (edgeOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  dsimp only [W5, hostOps2]; after_results_simp
  rw [W4_main_v10 m ρ c, W4_main_v32 m ρ c]; rfl
theorem W5_main_arg2 (c : Dev nD) : W5 m ρ c (Proc.devRef .tc main_arg2) = (m ((c : Thread nD τ).loc main_arg2)) := by
  dsimp only [W5, hostOps2]; after_results_simp; exact W4_main_arg2 m ρ c
theorem W5_main_arg17 (c : Dev nD) : W5 m ρ c (Proc.devRef .tc main_arg17) = (m ((c : Thread nD τ).loc main_arg17)) := by
  dsimp only [W5, hostOps2]; after_results_simp; exact W4_main_arg17 m ρ c
theorem W5_main_arg18 (c : Dev nD) : W5 m ρ c (Proc.devRef .tc main_arg18) = (m ((c : Thread nD τ).loc main_arg18)) := by
  dsimp only [W5, hostOps2]; after_results_simp; exact W4_main_arg18 m ρ c
theorem W5_main_arg19 (c : Dev nD) : W5 m ρ c (Proc.devRef .tc main_arg19) = (m ((c : Thread nD τ).loc main_arg19)) := by
  dsimp only [W5, hostOps2]; after_results_simp; exact W4_main_arg19 m ρ c
theorem W5_main_arg20 (c : Dev nD) : W5 m ρ c (Proc.devRef .tc main_arg20) = (m ((c : Thread nD τ).loc main_arg20)) := by
  dsimp only [W5, hostOps2]; after_results_simp; exact W4_main_arg20 m ρ c
theorem W5_main_arg21 (c : Dev nD) : W5 m ρ c (Proc.devRef .tc main_arg21) = (m ((c : Thread nD τ).loc main_arg21)) := by
  dsimp only [W5, hostOps2]; after_results_simp; exact W4_main_arg21 m ρ c
theorem W5_main_arg22 (c : Dev nD) : W5 m ρ c (Proc.devRef .tc main_arg22) = (m ((c : Thread nD τ).loc main_arg22)) := by
  dsimp only [W5, hostOps2]; after_results_simp; exact W4_main_arg22 m ρ c
theorem W5_main_v52 (c : Dev nD) : W5 m ρ c (Proc.devRef .tc main_v52) = nodeOut (m ((c : Thread nD τ).loc main_arg0)) (m ((c : Thread nD τ).loc main_arg2)) (m ((c : Thread nD τ).loc main_arg3)) (m ((c : Thread nD τ).loc main_arg4)) (edgeOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  dsimp only [W5, hostOps2]; after_results_simp; exact W4_main_v52 m ρ c
theorem W5_main_v32 (c : Dev nD) : W5 m ρ c (Proc.devRef .tc main_v32) = edgeOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  dsimp only [W5, hostOps2]; after_results_simp; exact W4_main_v32 m ρ c

/-! ## After the graph kernel: the three results -/

/-- The graph result. -/
theorem W6_main_v77 (c : Dev nD) : W6 m ρ c (Proc.devRef .tc main_v77) = graphOut (m ((c : Thread nD τ).loc main_arg2)) (m ((c : Thread nD τ).loc main_arg3)) (m ((c : Thread nD τ).loc main_arg4)) (edgeOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (nodeOut (m ((c : Thread nD τ).loc main_arg0)) (m ((c : Thread nD τ).loc main_arg2)) (m ((c : Thread nD τ).loc main_arg3)) (m ((c : Thread nD τ).loc main_arg4)) (edgeOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  refine (W6_arr m ρ c 9).trans ?_
  rw [Cert.KerGraphArray.array_eq (V5 m ρ) c]
  unfold Cert.KerGraphArray.G Cert.Results.graphOut
  rw [Cert.RefGraphMlp.mlp_eq]
  show Cert.RowMlp.rows3 (W5 m ρ c (Proc.devRef .tc main_v64)) (W5 m ρ c (Proc.devRef .tc main_v76)) (W5 m ρ c (Proc.devRef .tc main_arg2)) (W5 m ρ c (Proc.devRef .tc main_arg17)) (W5 m ρ c (Proc.devRef .tc main_arg18)) (W5 m ρ c (Proc.devRef .tc main_arg19)) (W5 m ρ c (Proc.devRef .tc main_arg20)) (W5 m ρ c (Proc.devRef .tc main_arg21)) (W5 m ρ c (Proc.devRef .tc main_arg22)) = _
  rw [W5_main_v64 m ρ c, W5_main_v76 m ρ c, W5_main_arg2 m ρ c, W5_main_arg17 m ρ c, W5_main_arg18 m ρ c, W5_main_arg19 m ρ c, W5_main_arg20 m ρ c, W5_main_arg21 m ρ c, W5_main_arg22 m ρ c]

/-- The node result. -/
theorem W6_main_v52 (c : Dev nD) : W6 m ρ c (Proc.devRef .tc main_v52) = nodeOut (m ((c : Thread nD τ).loc main_arg0)) (m ((c : Thread nD τ).loc main_arg2)) (m ((c : Thread nD τ).loc main_arg3)) (m ((c : Thread nD τ).loc main_arg4)) (edgeOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  (W6_of_ne m ρ c main_v52 (by decide)).trans (W5_main_v52 m ρ c)

/-- The edge result. -/
theorem W6_main_v32 (c : Dev nD) : W6 m ρ c (Proc.devRef .tc main_v32) = edgeOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W6_of_ne m ρ c main_v32 (by decide)).trans (W5_main_v32 m ρ c)

end Cert.KernelFold

end
-- ==== Proof.RefResults.lean ====
/-
  The reference's run, read: its three result terms are edgeOut, nodeOut and graphOut of its argument arrays.
  The run module (the staged copy of the generated one) states each result as the host operations' composed term of the arguments; that term IS the
  nested function of Results, operation for operation, so each equation holds by unfolding the names on both sides.
-/
import proofs.«174078_j47974784696350_1_alg».proof.Proof.RefRunStaged
import proofs.«174078_j47974784696350_1_alg».proof.Proof.Results

set_option maxRecDepth 16384

noncomputable section

namespace Cert.RefResults

open Cert.ReferenceIdeal Cert.ReferenceIdeal.ValueP Cert.Results Idealize.ShloMosaic Idealize.ShloMosaic.TcCoe Idealize.SL.Sem

variable (m : (ℓ : Loc nD τ sig) → Buf (Elt Ideal) ℓ) (c : Dev nD)

/-- The reference's edge result. -/
theorem edge_eq : res_main_v48 (F := Ideal) m c
    = edgeOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold res_main_v48; rfl

/-- The reference's node result, over its edge result. -/
theorem node_eq : res_main_v84 (F := Ideal) m c
    = nodeOut (m ((c.tc : Thread nD τ).loc main_arg0)) (m ((c.tc : Thread nD τ).loc main_arg2)) (m ((c.tc : Thread nD τ).loc main_arg3)) (m ((c.tc : Thread nD τ).loc main_arg4)) (res_main_v48 (F := Ideal) m c) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  unfold res_main_v84 res_main_v48; rfl

/-- The reference's graph result, over its edge and node results. -/
theorem graph_eq : res_main_v125 (F := Ideal) m c
    = graphOut (m ((c.tc : Thread nD τ).loc main_arg2)) (m ((c.tc : Thread nD τ).loc main_arg3)) (m ((c.tc : Thread nD τ).loc main_arg4)) (res_main_v48 (F := Ideal) m c) (res_main_v84 (F := Ideal) m c) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) := by
  unfold res_main_v125 res_main_v84 res_main_v48; rfl

end Cert.RefResults

end
-- ==== Proof.lean ====
/-
  The certificate of a three-stage graph-network block: an edge, a node and a graph perceptron, each two affine-rectified
  layers, with gathers and segment means between them.

  The kernel program and the reference apply the SAME host operations (gathers, scatter-add means) around the three
  perceptrons; they differ only inside each perceptron's first layer.  The reference concatenates the k feature rows
  (k = 4 for edges, 3 for nodes and graphs) and takes one product with the 128 k × 128 weight; the kernel keeps the k
  pieces apart, multiplies each by its 128 rows of the weight and adds the k partial products.  On the extended reals
  these agree because a finite sum over 128 k terms is the sum of its k runs of 128 (Proof/RowMlp.lean): a regrouping,
  needing neither distributivity nor finiteness — the precondition is never opened.  The kernel's format changes are
  the identity at the ideal instance.

  Frames: the two kernel programs' are the generated ones; the reference's is its run (Proof/RefRunStaged.lean) with the results dropped.
  preserves: the idealization rewrote nothing.  algebraic: both runs end at edgeOut / nodeOut / graphOut (Proof/Results.lean)
  of the arguments — the kernel's by folding its six segments (Proof/KernelRun.lean, Proof/Fold*.lean, over the per-region
  modules Proof/Ker*Block.lean and Proof/Ker*Array.lean), the reference's by reading its run (Proof/RefResults.lean).
-/
import proofs.«174078_j47974784696350_1_alg».proof.Defs
import proofs.«174078_j47974784696350_1_alg».proof.Proof.Gen.Kernel
import proofs.«174078_j47974784696350_1_alg».proof.Proof.Gen.Kernel.Frame
import proofs.«174078_j47974784696350_1_alg».proof.Proof.Gen.KernelIdeal
import proofs.«174078_j47974784696350_1_alg».proof.Proof.Gen.KernelIdeal.Frame
import proofs.«174078_j47974784696350_1_alg».proof.Proof.Gen.ReferenceIdeal
import proofs.«174078_j47974784696350_1_alg».proof.Proof.Gen.Pre_finite_inputs
import proofs.«174078_j47974784696350_1_alg».proof.Proof.RefRunStaged
import proofs.«174078_j47974784696350_1_alg».proof.Proof.KernelRun
import proofs.«174078_j47974784696350_1_alg».proof.Proof.FoldGraph
import proofs.«174078_j47974784696350_1_alg».proof.Proof.RefResults
import Idealize.ShloMosaic.Adequacy
import Idealize.ShloMosaic.Init

set_option maxRecDepth 16384

noncomputable section

namespace Cert.Proof

open Idealize.ShloMosaic Idealize.SL.Sem Cert.Results

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.ValueP.run (F := Ideal) m ρ)

/-- The idealization rewrote no operation. -/
theorem preserves : Cert.preserves_Kernel_KernelIdeal := trivial

set_option maxHeartbeats 4000000 in
/-- Both programs, from memories agreeing on the arguments, end with the node, edge and graph results at nodeOut,
    edgeOut and graphOut of the kernel's arguments. -/
theorem algebraic : Cert.algebraic_KernelIdeal_ReferenceIdeal := by
  intro m ρ m' ρ' _ hagree
  refine ⟨fun c => nodeOut (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (edgeOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
    fun c => edgeOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => graphOut (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (edgeOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (nodeOut (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (edgeOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)), ?_, ?_⟩
  · refine (θ_run Cert.KernelIdeal.defs _ _).mono (fun r h c => ?_) (Cert.KernelIdeal.Named.run (F := Ideal) m ρ)
    obtain ⟨h52, h32, h77, hargs⟩ := h c
    exact ⟨h52.trans (Cert.KernelFold.W6_main_v52 m ρ c), h32.trans (Cert.KernelFold.W6_main_v32 m ρ c),
      h77.trans (Cert.KernelFold.W6_main_v77 m ρ c), hargs⟩
  · refine (θ_run Cert.ReferenceIdeal.defs _ _).mono (fun r h c => ?_) (Cert.ReferenceIdeal.ValueP.run (F := Ideal) m' ρ')
    obtain ⟨h84, h48, h125, hargs⟩ := h c
    obtain ⟨e0, e1, e2, e3, e4, e5, e6, e7, e8, e9, e10, e11, e12, e13, e14, e15, e16, e17, e18, e19, e20, e21, e22⟩ := hagree c
    -- the reference's edge result, over the kernel's arguments
    have hE : Cert.ReferenceIdeal.ValueP.res_main_v48 (F := Ideal) m' c = edgeOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
      rw [Cert.RefResults.edge_eq, e0, e1, e2, e3, e4, e5, e6, e7, e8, e9, e10]
    -- its node result: the same function of the edge result
    have hN : Cert.ReferenceIdeal.ValueP.res_main_v84 (F := Ideal) m' c = nodeOut (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (edgeOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) := by
      rw [Cert.RefResults.node_eq, hE, e0, e2, e3, e4, e11, e12, e13, e14, e15, e16]
    -- its graph result: the same function of both
    have hG : Cert.ReferenceIdeal.ValueP.res_main_v125 (F := Ideal) m' c = graphOut (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (edgeOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (nodeOut (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (edgeOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) := by
      rw [Cert.RefResults.graph_eq, hE, hN, e2, e3, e4, e17, e18, e19, e20, e21, e22]
    exact ⟨h84.trans hN, h48.trans hE, h125.trans hG, hargs⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
